-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S16384x64 : Shape := ⟨2, ![16384, 64]⟩
abbrev S100000 : Shape := ⟨1, ![100000]⟩
abbrev S64 : Shape := ⟨1, ![64]⟩
abbrev S1 : Shape := ⟨1, ![1]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S100000 : S_.BroadcastsInDim S100000 (![] : Fin 0 → Fin S100000.rank)
  reducesTo_S100000_S_d0 : S100000.ReducesTo [0] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg0 : IVec S16384 32) (main_arg1 : IVec S16384 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S16384 32 := broadcastInDim S16384 ![] bcast_S_S16384 main_c_6
  let main_v20 : IVec S16384 1 := cmpi .sge main_arg0 main_v19
  let main_c_7 : IVec S_ 32 := constantI S_ 32 99999#32
  let main_v21 : IVec S16384 32 := broadcastInDim S16384 ![] bcast_S_S16384 main_c_7
  let main_v22 : IVec S16384 1 := cmpi .sle main_arg0 main_v21
  let main_v23 : IVec S16384 1 := andi main_v20 main_v22
  let main_c_8 : IVec S_ 1 := constantI S_ 1 1#1
  let main_v24 : IVec S_ 1 := (fun x v => Host.reduce IntOp.andi x v reducesTo_S16384_S_d0 h_S_) main_v23 main_c_8
  let main_v25 : IVec S_ 1 := andi main_v18 main_v24
  let main_c_9 : IVec S_ 32 := constantI S_ 32 0#32
  let main_v26 : IVec S16384 32 := broadcastInDim S16384 ![] bcast_S_S16384 main_c_9
  let main_v27 : IVec S16384 1 := cmpi .sge main_arg1 main_v26
  let main_c_10 : IVec S_ 32 := constantI S_ 32 99999#32
  let main_v28 : IVec S16384 32 := broadcastInDim S16384 ![] bcast_S_S16384 main_c_10
  let main_v29 : IVec S16384 1 := cmpi .sle main_arg1 main_v28
  let main_v30 : IVec S16384 1 := andi main_v27 main_v29
  let main_c_11 : IVec S_ 1 := constantI S_ 1 1#1
  let main_v31 : IVec S_ 1 := (fun x v => Host.reduce IntOp.andi x v reducesTo_S16384_S_d0 h_S_) main_v30 main_c_11
  let main_v32 : IVec S_ 1 := andi main_v25 main_v31
  main_v32

def fn {F : FTy → Type} [FloatOps F] (main_arg0 : IVec S16384 32) (main_arg1 : IVec S16384 32) (main_arg2 : FVec F S16384x64 .f32) (main_arg3 : FVec F S100000 .f32) (main_arg4 : FVec F S64 .f32) (main_arg5 : FVec F S1 .f32) : IVec S_ 1 :=
  let main_v0 : FVec F S16384x64 .f32 := Host.absf main_arg2
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S100000 .f32 := Host.absf main_arg3
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg0 main_arg1 main_v13 main_v16
-- ==== Kernel.lean ====
abbrev S16384 : Shape := ⟨1, ![16384]⟩
abbrev S16384x64 : Shape := ⟨2, ![16384, 64]⟩
abbrev S100000 : Shape := ⟨1, ![100000]⟩
abbrev S64 : Shape := ⟨1, ![64]⟩
abbrev S1 : Shape := ⟨1, ![1]⟩
abbrev S1024 : Shape := ⟨1, ![1024]⟩
abbrev S_ : Shape := ⟨0, ![]⟩
abbrev S256 : Shape := ⟨1, ![256]⟩
abbrev S16 : Shape := ⟨1, ![16]⟩
abbrev S64x16384 : Shape := ⟨2, ![64, 16384]⟩
abbrev S64x8192 : Shape := ⟨2, ![64, 8192]⟩
abbrev S8192 : Shape := ⟨1, ![8192]⟩
abbrev S64x1 : Shape := ⟨2, ![64, 1]⟩

abbrev nBuf : Table → Nat
  | .hbm => 10
  | .local .tc .vmem => 8
  | .local .tc .smem => 1
  | .local .scVector .vmem => 2
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384x64, .f32⟩
  | .hbm, ⟨3, _⟩ => ⟨S100000, .f32⟩
  | .hbm, ⟨4, _⟩ => ⟨S64, .f32⟩
  | .hbm, ⟨5, _⟩ => ⟨S1, .f32⟩
  | .hbm, ⟨6, _⟩ => ⟨S16384, .f32⟩
  | .hbm, ⟨7, _⟩ => ⟨S64x16384, .f32⟩
  | .hbm, ⟨8, _⟩ => ⟨S16384, .f32⟩
  | .hbm, ⟨9, _⟩ => ⟨S16384, .f32⟩
  | .local .tc .vmem, ⟨0, _⟩ => ⟨S64x8192, .f32⟩
  | .local .tc .vmem, ⟨1, _⟩ => ⟨S64x8192, .f32⟩
  | .local .tc .vmem, ⟨2, _⟩ => ⟨S64, .f32⟩
  | .local .tc .vmem, ⟨3, _⟩ => ⟨S8192, .f32⟩
  | .local .tc .vmem, ⟨4, _⟩ => ⟨S8192, .f32⟩
  | .local .tc .vmem, ⟨5, _⟩ => ⟨S16384, .f32⟩
  | .local .tc .vmem, ⟨6, _⟩ => ⟨S16384, .f32⟩
  | .local .tc .vmem, ⟨7, _⟩ => ⟨S16384, .f32⟩
  | .local .tc .smem, ⟨0, _⟩ => ⟨S1, .f32⟩
  | .local .scVector .vmem, ⟨0, _⟩ => ⟨S1024, .i32⟩
  | .local .scVector .vmem, ⟨1, _⟩ => ⟨S1024, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg0_scv : Ref sig .scVector := ⟨.hbm, 0, rfl⟩
abbrev main_arg1_scv : Ref sig .scVector := ⟨.hbm, 1, rfl⟩
abbrev main_arg3_scv : Ref sig .scVector := ⟨.hbm, 3, rfl⟩
abbrev main_v0_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg3_0 : Ref sig .tc := ⟨.vmem, 3, rfl⟩
abbrev cc1_stg3_1 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg2_0 : Ref sig .tc := ⟨.vmem, 7, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem1_0 : DmaSem sig := 17
abbrev cc2_sem2_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32 : BitVec 32 := 256#32
  let v11 : BitVec 32 := Scalar.addi v2 c256_i32
  ![v11.toNat]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S64x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := .none

abbrev stage2_0 : Fin 1 → Memref sig .tc .vmem S16384 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1024_S256_0 : ∀ a, (![0] : Fin 1 → Nat) a + S256.size a ≤ S1024.size a
  inb_S1024_S256_512 : ∀ a, (![512] : Fin 1 → Nat) a + S256.size a ≤ S1024.size a
  inb_S1024_S256_256 : ∀ a, (![256] : Fin 1 → Nat) a + S256.size a ≤ S1024.size a
  inb_S1024_S256_768 : ∀ a, (![768] : Fin 1 → Nat) a + S256.size a ≤ S1024.size a
  inb_S100000_S100000_0 : ∀ a, (![0] : Fin 1 → Nat) a + S100000.size a ≤ S100000.size a
  gathers_S100000_S256 : S100000.Gathers 0 S256
  inb_S1024_S16_0 : ∀ a, (![0] : Fin 1 → Nat) a + S16.size a ≤ S1024.size a
  h_S16 : 0 < S16.numel
  shapeCasts_S16_S16 : S16.ShapeCasts S16
  inb_S1024_S16_512 : ∀ a, (![512] : Fin 1 → Nat) a + S16.size a ≤ S1024.size a
  inb_S1024_S16_16 : ∀ a, (![16] : Fin 1 → Nat) a + S16.size a ≤ S1024.size a
  inb_S1024_S16_528 : ∀ a, (![528] : Fin 1 → Nat) a + S16.size a ≤ S1024.size a
  inb_S1024_S16_32 : ∀ a, (![32] : Fin 1 → Nat) a + S16.size a ≤ S1024.size a
  inb_S1024_S16_544 : ∀ a, (![544] : Fin 1 → Nat) a + S16.size a ≤ S1024.size a
  inb_S1024_S16_48 : ∀ a, (![48] : Fin 1 → Nat) a + S16.size a ≤ S1024.size a
  inb_S1024_S16_560 : ∀ a, (![560] : Fin 1 → Nat) a + S16.size a ≤ S1024.size a
  inb_S1024_S16_64 : ∀ a, (![64] : Fin 1 → Nat) a + S16.size a ≤ S1024.size a
  inb_S1024_S16_576 : ∀ a, (![576] : Fin 1 → Nat) a + S16.size a ≤ S1024.size a
  inb_S1024_S16_80 : ∀ a, (![80] : Fin 1 → Nat) a + S16.size a ≤ S1024.size a
  inb_S1024_S16_592 : ∀ a, (![592] : Fin 1 → Nat) a + S16.size a ≤ S1024.size a
  inb_S1024_S16_96 : ∀ a, (![96] : Fin 1 → Nat) a + S16.size a ≤ S1024.size a
  inb_S1024_S16_608 : ∀ a, (![608] : Fin 1 → Nat) a + S16.size a ≤ S1024.size a
  inb_S1024_S16_112 : ∀ a, (![112] : Fin 1 → Nat) a + S16.size a ≤ S1024.size a
  inb_S1024_S16_624 : ∀ a, (![624] : Fin 1 → Nat) a + S16.size a ≤ S1024.size a
  inb_S1024_S16_128 : ∀ a, (![128] : Fin 1 → Nat) a + S16.size a ≤ S1024.size a
  inb_S1024_S16_640 : ∀ a, (![640] : Fin 1 → Nat) a + S16.size a ≤ S1024.size a
  inb_S1024_S16_144 : ∀ a, (![144] : Fin 1 → Nat) a + S16.size a ≤ S1024.size a
  inb_S1024_S16_656 : ∀ a, (![656] : Fin 1 → Nat) a + S16.size a ≤ S1024.size a
  inb_S1024_S16_160 : ∀ a, (![160] : Fin 1 → Nat) a + S16.size a ≤ S1024.size a
  inb_S1024_S16_672 : ∀ a, (![672] : Fin 1 → Nat) a + S16.size a ≤ S1024.size a
  inb_S1024_S16_176 : ∀ a, (![176] : Fin 1 → Nat) a + S16.size a ≤ S1024.size a
  inb_S1024_S16_688 : ∀ a, (![688] : Fin 1 → Nat) a + S16.size a ≤ S1024.size a
  inb_S1024_S16_192 : ∀ a, (![192] : Fin 1 → Nat) a + S16.size a ≤ S1024.size a
  inb_S1024_S16_704 : ∀ a, (![704] : Fin 1 → Nat) a + S16.size a ≤ S1024.size a
  inb_S1024_S16_208 : ∀ a, (![208] : Fin 1 → Nat) a + S16.size a ≤ S1024.size a
  inb_S1024_S16_720 : ∀ a, (![720] : Fin 1 → Nat) a + S16.size a ≤ S1024.size a
  inb_S1024_S16_224 : ∀ a, (![224] : Fin 1 → Nat) a + S16.size a ≤ S1024.size a
  inb_S1024_S16_736 : ∀ a, (![736] : Fin 1 → Nat) a + S16.size a ≤ S1024.size a
  inb_S1024_S16_240 : ∀ a, (![240] : Fin 1 → Nat) a + S16.size a ≤ S1024.size a
  inb_S1024_S16_752 : ∀ a, (![752] : Fin 1 → Nat) a + S16.size a ≤ S1024.size a
  inb_S1024_S16_256 : ∀ a, (![256] : Fin 1 → Nat) a + S16.size a ≤ S1024.size a
  inb_S1024_S16_768 : ∀ a, (![768] : Fin 1 → Nat) a + S16.size a ≤ S1024.size a
  inb_S1024_S16_272 : ∀ a, (![272] : Fin 1 → Nat) a + S16.size a ≤ S1024.size a
  inb_S1024_S16_784 : ∀ a, (![784] : Fin 1 → Nat) a + S16.size a ≤ S1024.size a
  inb_S1024_S16_288 : ∀ a, (![288] : Fin 1 → Nat) a + S16.size a ≤ S1024.size a
  inb_S1024_S16_800 : ∀ a, (![800] : Fin 1 → Nat) a + S16.size a ≤ S1024.size a
  inb_S1024_S16_304 : ∀ a, (![304] : Fin 1 → Nat) a + S16.size a ≤ S1024.size a
  inb_S1024_S16_816 : ∀ a, (![816] : Fin 1 → Nat) a + S16.size a ≤ S1024.size a
  inb_S1024_S16_320 : ∀ a, (![320] : Fin 1 → Nat) a + S16.size a ≤ S1024.size a
  inb_S1024_S16_832 : ∀ a, (![832] : Fin 1 → Nat) a + S16.size a ≤ S1024.size a
  inb_S1024_S16_336 : ∀ a, (![336] : Fin 1 → Nat) a + S16.size a ≤ S1024.size a
  inb_S1024_S16_848 : ∀ a, (![848] : Fin 1 → Nat) a + S16.size a ≤ S1024.size a
  inb_S1024_S16_352 : ∀ a, (![352] : Fin 1 → Nat) a + S16.size a ≤ S1024.size a
  inb_S1024_S16_864 : ∀ a, (![864] : Fin 1 → Nat) a + S16.size a ≤ S1024.size a
  inb_S1024_S16_368 : ∀ a, (![368] : Fin 1 → Nat) a + S16.size a ≤ S1024.size a
  inb_S1024_S16_880 : ∀ a, (![880] : Fin 1 → Nat) a + S16.size a ≤ S1024.size a
  inb_S1024_S16_384 : ∀ a, (![384] : Fin 1 → Nat) a + S16.size a ≤ S1024.size a
  inb_S1024_S16_896 : ∀ a, (![896] : Fin 1 → Nat) a + S16.size a ≤ S1024.size a
  inb_S1024_S16_400 : ∀ a, (![400] : Fin 1 → Nat) a + S16.size a ≤ S1024.size a
  inb_S1024_S16_912 : ∀ a, (![912] : Fin 1 → Nat) a + S16.size a ≤ S1024.size a
  inb_S1024_S16_416 : ∀ a, (![416] : Fin 1 → Nat) a + S16.size a ≤ S1024.size a
  inb_S1024_S16_928 : ∀ a, (![928] : Fin 1 → Nat) a + S16.size a ≤ S1024.size a
  inb_S1024_S16_432 : ∀ a, (![432] : Fin 1 → Nat) a + S16.size a ≤ S1024.size a
  inb_S1024_S16_944 : ∀ a, (![944] : Fin 1 → Nat) a + S16.size a ≤ S1024.size a
  inb_S1024_S16_448 : ∀ a, (![448] : Fin 1 → Nat) a + S16.size a ≤ S1024.size a
  inb_S1024_S16_960 : ∀ a, (![960] : Fin 1 → Nat) a + S16.size a ≤ S1024.size a
  inb_S1024_S16_464 : ∀ a, (![464] : Fin 1 → Nat) a + S16.size a ≤ S1024.size a
  inb_S1024_S16_976 : ∀ a, (![976] : Fin 1 → Nat) a + S16.size a ≤ S1024.size a
  inb_S1024_S16_480 : ∀ a, (![480] : Fin 1 → Nat) a + S16.size a ≤ S1024.size a
  inb_S1024_S16_992 : ∀ a, (![992] : Fin 1 → Nat) a + S16.size a ≤ S1024.size a
  inb_S1024_S16_496 : ∀ a, (![496] : Fin 1 → Nat) a + S16.size a ≤ S1024.size a
  inb_S1024_S16_1008 : ∀ a, (![1008] : Fin 1 → Nat) a + S16.size a ≤ S1024.size a
  transposes_S16384x64_S64x16384_1_0 : S16384x64.Transposes [1, 0] S64x16384
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S64_S64_0 : ∀ a, (![0] : Fin 1 → Nat) a + S64.size a ≤ S64.size a
  h_S64 : 0 < S64.numel
  shapeCasts_S64_S64x1 : S64.ShapeCasts S64x1
  broadcasts_S64x1_S64x8192 : S64x1.Broadcasts S64x8192
  reduces_S64x8192_S8192 : S64x8192.Reduces [0] S8192
  inb_S1_S1_0 : ∀ a, (![0] : Fin 1 → Nat) a + S1.size a ≤ S1.size a
  numel1_S1 : S1.numel = 1
  inb_S8192_S8192_0 : ∀ a, (![0] : Fin 1 → Nat) a + S8192.size a ≤ S8192.size a
  h_S8192 : 0 < S8192.numel
  inb_S16384_S16384_0 : ∀ a, (![0] : Fin 1 → Nat) a + S16384.size a ≤ S16384.size a
  h_S16384 : 0 < S16384.numel
  shapeCasts_S16384_S16384 : S16384.ShapeCasts S16384
  hcc0_scratch2 : 0 + S_.numel ≤ 19
  hcc0_scratch3 : 1 + S_.numel ≤ 19
  hcc0_scratch4 : 2 + S_.numel ≤ 19
  hcc0_scratch5 : 3 + S_.numel ≤ 19
  hcc0_scratch6 : 4 + S_.numel ≤ 19
  hcc0_scratch7 : 5 + S_.numel ≤ 19
  hcc0_scratch8 : 6 + S_.numel ≤ 19
  hcc0_scratch9 : 7 + S_.numel ≤ 19
  hcc0_scratch10 : 8 + S_.numel ≤ 19
  hcc0_scratch11 : 9 + S_.numel ≤ 19
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S256.size a ≤ S16384.size a
  k0_off2_inb : ∀ i : grid0.Coords, ∀ a, (k0_off2 i) a + S256.size a ≤ S16384.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x8192.size a ≤ S64x16384.size a
  hwx1_0 : ∀ i : grid1.Coords, EltTy.bits .f32 = 32 ∨ (Rect.block (s := S64x16384) S64x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192.size a ≤ S16384.size a
  hwx1_3 : ∀ i : grid1.Coords, EltTy.bits .f32 = 32 ∨ (Rect.block (s := S16384) S8192.size (cc1_transform_3 i) (hinb1_3 i)).WholeWords (EltTy.packing .f32)
  hstage2_0 : ∀ j, (stage2_0 j).IsWhole
  hstage2_1 : ∀ j, (stage2_1 j).IsWhole
  hstage2_2 : ∀ j, (stage2_2 j).IsWhole

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scratch10 : DmaSems sig S_ := SemArray.consecutive 8 S_ hcc0_scratch10
abbrev cc0_scratch11 : DmaSems sig S_ := SemArray.consecutive 9 S_ hcc0_scratch11

abbrev win1_0 : Pipeline.Window sig grid1 :=
  Pipeline.Window.ofSpec (Memref.whole main_v1) S64x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.whole (Memref.whole main_v2) false false (stage2_0 0) (sem2_0 0) (Memref.isWhole_whole _) (hstage2_0 0)

abbrev win2_1 : Pipeline.Window sig grid2 :=
  Pipeline.Window.whole (Memref.whole main_v0) false false (stage2_1 0) (sem2_1 0) (Memref.isWhole_whole _) (hstage2_1 0)

abbrev win2_2 : Pipeline.Window sig grid2 :=
  Pipeline.Window.whole (Memref.whole main_v3) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384 : Shape := ⟨1, ![16384]⟩
abbrev S16384x64 : Shape := ⟨2, ![16384, 64]⟩
abbrev S100000 : Shape := ⟨1, ![100000]⟩
abbrev S64 : Shape := ⟨1, ![64]⟩
abbrev S1 : Shape := ⟨1, ![1]⟩
abbrev S_ : Shape := ⟨0, ![]⟩
abbrev S16384x1 : Shape := ⟨2, ![16384, 1]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x64, .f32⟩
  | .hbm, ⟨3, _⟩ => ⟨S100000, .f32⟩
  | .hbm, ⟨4, _⟩ => ⟨S64, .f32⟩
  | .hbm, ⟨5, _⟩ => ⟨S1, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S1x1, .i32⟩
  | .hbm, ⟨19, _⟩ => ⟨S16384x1, .i32⟩
  | .hbm, ⟨20, _⟩ => ⟨S16384x1, .i1⟩
  | .hbm, ⟨21, _⟩ => ⟨S16384x1, .i1⟩
  | .hbm, ⟨22, _⟩ => ⟨S_, .i1⟩
  | .hbm, ⟨23, _⟩ => ⟨S16384, .i1⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S16384, .f32⟩
  | .hbm, ⟨51, _⟩ => ⟨S16384, .f32⟩
  | .hbm, ⟨52, _⟩ => ⟨S16384, .f32⟩
  | .hbm, ⟨53, _⟩ => ⟨S16384, .f32⟩
  | .hbm, ⟨54, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S1_S16384_0 : S1.BroadcastsInDim S16384 (![0] : Fin 1 → Fin S16384.rank)
  gather_S100000_S16384x1_S16384_n_0_n_n_0_1_1_wf : GatherDims.WF S100000 S16384x1 S16384 [] [0] [] [0] [] 1 ![1]
  dot_S16384x64_S64_S16384_1_0_0_n_n_n_wf : DotDims.WF S16384x64 S64 S16384 [1] [0] [0] [] [] []

variable [Facts₀]

def gather_S100000_S16384x1_S16384_n_0_n_n_0_1_1 : GatherDims S100000 S16384x1 S16384 where
  offsetDims := []
  collapsedSliceDims := [0]
  operandBatchingDims := []
  startIndicesBatchingDims := []
  startIndexMap := [0]
  indexVectorDim := 1
  sliceSizes := ![1]
  wf := gather_S100000_S16384x1_S16384_n_0_n_n_0_1_1_wf
def dot_S16384x64_S64_S16384_1_0_0_n_n_n : DotDims S16384x64 S64 S16384 where
  lhsContracting := [1]
  rhsContracting := [0]
  lhsNonContracting := [0]
  rhsNonContracting := []
  lhsBatch := []
  rhsBatch := []
  wf := dot_S16384x64_S64_S16384_1_0_0_n_n_n_wf

class Facts : Prop extends Facts₀ where

variable [Facts]
-- ==== Proof.PreFacts.lean ====
/-
  What the precondition says of the integer inputs, and the table index an in-range word names.
-/
import proofs.«203773_g32736240730729_cont_9to1_2154_21_alg».proof.Pre_input_domain
import Idealize.ShloMosaic.Lib.ValueIdx
import Idealize.ShloMosaic.Lib.ReduceAll

noncomputable section

namespace Cert.Proof.PreFacts

open Idealize.ShloMosaic Idealize.ShloMosaic.ValueIdx

/-- The index into the 100000-entry table that a 32-bit word names: its value, read modulo the table's extent so that
    the function needs no hypothesis; on a word in range (every word the precondition admits) it is the word's value. -/
def takeIdx (w : BitVec 32) : (⟨1, ![100000]⟩ : Shape).Idx :=
  ix1 (⟨w.toNat % 100000, Nat.mod_lt _ (by decide)⟩ : Fin 100000)

theorem takeIdx_val (w : BitVec 32) (h : w.toNat < 100000) : ((takeIdx w) 0).val = w.toNat :=
  Nat.mod_eq_of_lt h

/-! ## The index range, read out of the precondition

The precondition is one bit: the conjunction of six `all`-reductions, four saying the float inputs are finite and two
saying `0 ≤ w ≤ 99999` (signed) of every word `w` of each index array. A conjunction that is 1 has both conjuncts 1, an
`all` that is 1 has every element 1, and a word between 0 and 99999 as a signed number is the same number unsigned. -/

/-- The precondition's result has one index. -/
instance subsingleton_scalar_idx : Subsingleton (⟨0, ![]⟩ : Shape).Idx := ⟨fun _ _ => funext fun d => d.elim0⟩

/-- A 32-bit word between 0 and 99999 as a signed number is that number unsigned: below 100000. -/
theorem word_in_range (v : BitVec 32) (h0 : (0#32).toInt ≤ v.toInt) (h1 : v.toInt ≤ (99999#32).toInt) :
    (v.toNat < 100000 ∧ 0 ≤ v.toInt) ∧ v.toInt < 100000 := by
  have e0 : (0#32).toInt = 0 := by decide
  have e1 : (99999#32).toInt = 99999 := by decide
  rw [e0] at h0; rw [e1] at h1
  have hv := v.isLt
  have hc := BitVec.toInt_eq_toNat_cond v
  split at hc <;> omega

/-- One index array's conjunct of the precondition, at one element. -/
theorem range_of_all [Cert.Pre_input_domain.Facts] (w : IVec Cert.Pre_input_domain.S16384 32)
    (e : Host.reduce IntOp.andi
          (andi (cmpi .sge w (broadcastInDim Cert.Pre_input_domain.S16384 ![] Cert.Pre_input_domain.Facts.bcast_S_S16384
                  (constantI Cert.Pre_input_domain.S_ 32 0#32)))
            (cmpi .sle w (broadcastInDim Cert.Pre_input_domain.S16384 ![] Cert.Pre_input_domain.Facts.bcast_S_S16384
                  (constantI Cert.Pre_input_domain.S_ 32 99999#32))))
          (constantI Cert.Pre_input_domain.S_ 1 1#1) Cert.Pre_input_domain.Facts.reducesTo_S16384_S_d0
          Cert.Pre_input_domain.Facts.h_S_ ix0 = 1#1)
    (j : Cert.Pre_input_domain.S16384.Idx) :
    ((w j).toNat < 100000 ∧ 0 ≤ (w j).toInt) ∧ (w j).toInt < 100000 := by
  have k := Host.reduce_andi_all _ _ _ _ ix0 e j
  obtain ⟨k0, k1⟩ := IntOp.andi_eq_one.1 k
  exact word_in_range (w j) (IntOp.cmpi_sge.1 k0) (IntOp.cmpi_sle.1 k1)

variable {F : FTy → Type} [FloatOps F]

/-- Under the precondition every word of both index arrays names an entry of the 100000-entry table: it is below 100000
    as an unsigned number and not negative as a signed one (and so below 100000 as a signed one too). -/
theorem idx_ok [Cert.Pre_input_domain.Facts]
    (h a : IVec Cert.Pre_input_domain.S16384 32) (X : FVec F Cert.Pre_input_domain.S16384x64 .f32)
    (s : FVec F Cert.Pre_input_domain.S100000 .f32) (β : FVec F Cert.Pre_input_domain.S64 .f32)
    (μ : FVec F Cert.Pre_input_domain.S1 .f32)
    (hpre : Cert.Pre_input_domain.fn (F := F) h a X s β μ = fun _ => 1#1) :
    ∀ j : Cert.Pre_input_domain.S16384.Idx,
      ((h j).toNat < 100000 ∧ 0 ≤ (h j).toInt) ∧ ((a j).toNat < 100000 ∧ 0 ≤ (a j).toInt) := by
  intro j
  have e := congrFun hpre ix0
  dsimp only [Cert.Pre_input_domain.fn, Cert.Pre_input_domain.fn_part1] at e
  obtain ⟨e25, e31⟩ := IntOp.andi_eq_one.1 e
  obtain ⟨-, e24⟩ := IntOp.andi_eq_one.1 e25
  exact ⟨(range_of_all h e24 j).1, (range_of_all a e31 j).1⟩

/-- The same, with the signed upper bounds beside. -/
theorem idx_ok_signed [Cert.Pre_input_domain.Facts]
    (h a : IVec Cert.Pre_input_domain.S16384 32) (X : FVec F Cert.Pre_input_domain.S16384x64 .f32)
    (s : FVec F Cert.Pre_input_domain.S100000 .f32) (β : FVec F Cert.Pre_input_domain.S64 .f32)
    (μ : FVec F Cert.Pre_input_domain.S1 .f32)
    (hpre : Cert.Pre_input_domain.fn (F := F) h a X s β μ = fun _ => 1#1) :
    ∀ j : Cert.Pre_input_domain.S16384.Idx, (h j).toInt < 100000 ∧ (a j).toInt < 100000 := by
  intro j
  have e := congrFun hpre ix0
  dsimp only [Cert.Pre_input_domain.fn, Cert.Pre_input_domain.fn_part1] at e
  obtain ⟨e25, e31⟩ := IntOp.andi_eq_one.1 e
  obtain ⟨-, e24⟩ := IntOp.andi_eq_one.1 e25
  exact ⟨(range_of_all h e24 j).2, (range_of_all a e31 j).2⟩

end Cert.Proof.PreFacts

end
-- ==== Proof.RefRun.lean ====
/-
  The reference program's run. Its @main is a straight line of forty-nine host operations once the two calls of the
  outlined table lookup (and, inside each, the call of the outlined select) are read at their call sites over the calls'
  own buffers: twenty-two operations per lookup, then the subtraction, the bias's broadcast, two additions and the
  matrix-vector product. Every weakly fair execution terminates with the result buffer at the operations' composed
  term of the six argument arrays, `refTerm`, and the arguments unchanged.
-/
import proofs.«203773_g32736240730729_cont_9to1_2154_21_alg».proof.Proof.Gen.ReferenceIdeal
import Idealize.ShloMosaic.Lib.StableHlo.Run

noncomputable section

namespace Cert.Proof.Ref

open Cert.ReferenceIdeal Cert.ReferenceIdeal.Facts₀ Idealize.ShloMosaic Idealize.ShloMosaic.TcCoe Idealize.SL.Sem Idealize.ShloMosaic.StableHlo

variable {F : FTy → Type} [FloatOps F]

/-! ## The composed term -/

/-- A lookup's index array with negative words wrapped: `i + 100000` where `i < 0` (signed), else `i`. -/
def wrapIdx (i : IVec S16384 32) : IVec S16384 32 :=
  select (cmpi .slt i (broadcastInDim S16384 ![] bcast_S_S16384 (constantI S_ 32 0#32)))
    (addi i (broadcastInDim S16384 ![] bcast_S_S16384 (constantI S_ 32 100000#32))) i

/-- The wrapped indices as the one-column array of start indices the gather reads. -/
def colIdx (i : IVec S16384 32) : IVec S16384x1 32 :=
  broadcastInDim S16384x1 ![0] bcast_S16384_S16384x1_0 (wrapIdx i)

/-- Per row, whether the wrapped index lies in `[0, 99999]` (signed): the conjunction over the row's one column. -/
def inRange (i : IVec S16384 32) : IVec S16384 1 :=
  Host.reduce IntOp.andi
    (andi (cmpi .sge (colIdx i) (broadcastInDim S16384x1 ![] bcast_S_S16384x1 (constantI S_ 32 0#32)))
      (cmpi .sle (colIdx i) (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

/-- One table lookup `s[i]` as the reference computes it: the gather at the wrapped indices where they are in range,
    the fill value elsewhere. -/
def takeTerm (s : FVec F S100000 .f32) (i : IVec S16384 32) : FVec F S16384 .f32 :=
  select (inRange i) (Host.gather gather_S100000_S16384x1_S16384_n_0_n_n_0_1_1 s (colIdx i))
    (broadcastInDim S16384 ![] bcast_S_S16384 (constant S_ .f32 0x7FC00000#32))

/-- The reference's result as one term of its six arguments: `(μ + (s[h] − s[a])) + X·β`. -/
def refTerm (h a : IVec S16384 32) (X : FVec F S16384x64 .f32) (s : FVec F S100000 .f32) (β : FVec F S64 .f32)
    (μ : FVec F S1 .f32) : FVec F S16384 .f32 :=
  addf (addf (broadcastInDim S16384 ![0] bcast_S1_S16384_0 μ) (subf (takeTerm s h) (takeTerm s a)))
    (Host.dotGeneral dot_S16384x64_S64_S16384_1_0_0_n_n_n none X β)

/-! ## The program as a list of operations -/

/-- @main's forty-nine operations in order, the calls unfolded: each lookup is twenty-two (the wrap's comparison,
    sum and select — the select being the inner call's one operation —, the column of start indices, the range test and
    its row-wise conjunction, the gather, the fill and the final select) into that call's buffers. -/
abbrev ops : List (HloOp τ sig (Elt F)) :=
  [
    TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg3) main_call0.v5 main_call0.v13 (fun x i => Host.gather gather_S100000_S16384x1_S16384_n_0_n_n_0_1_1 x i),
    TRef.nullary main_call0.cst (constant S_ .f32 0x7FC00000#32),
    TRef.unary main_call0.cst main_call0.v14 (broadcastInDim S16384 ![] bcast_S_S16384),
    TRef.ternary main_call0.v12 main_call0.v13 main_call0.v14 main_call0.v15 select,
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3) main_call1.v5 main_call1.v13 (fun x i => Host.gather gather_S100000_S16384x1_S16384_n_0_n_n_0_1_1 x i),
    TRef.nullary main_call1.cst (constant S_ .f32 0x7FC00000#32),
    TRef.unary main_call1.cst main_call1.v14 (broadcastInDim S16384 ![] bcast_S_S16384),
    TRef.ternary main_call1.v12 main_call1.v13 main_call1.v14 main_call1.v15 select,
    binary main_v0 main_v1 main_v2 (subf : (⟨S16384, .f32⟩ : BufTy).Contents (Elt F) → (⟨S16384, .f32⟩ : BufTy).Contents (Elt F) → (⟨S16384, .f32⟩ : BufTy).Contents (Elt F)),
    unary main_arg5 main_v3 (broadcastInDim S16384 ![0] bcast_S1_S16384_0 : (⟨S1, .f32⟩ : BufTy).Contents (Elt F) → (⟨S16384, .f32⟩ : BufTy).Contents (Elt F)),
    binary main_v3 main_v2 main_v4 (addf : (⟨S16384, .f32⟩ : BufTy).Contents (Elt F) → (⟨S16384, .f32⟩ : BufTy).Contents (Elt F) → (⟨S16384, .f32⟩ : BufTy).Contents (Elt F)),
    binary main_arg2 main_arg4 main_v5 ((fun l r => Host.dotGeneral dot_S16384x64_S64_S16384_1_0_0_n_n_n none l r) : (⟨S16384x64, .f32⟩ : BufTy).Contents (Elt F) → (⟨S64, .f32⟩ : BufTy).Contents (Elt F) → (⟨S16384, .f32⟩ : BufTy).Contents (Elt F)),
    binary main_v4 main_v5 main_v6 (addf : (⟨S16384, .f32⟩ : BufTy).Contents (Elt F) → (⟨S16384, .f32⟩ : BufTy).Contents (Elt F) → (⟨S16384, .f32⟩ : BufTy).Contents (Elt F)) ]

-- forty-nine binds re-associated: the rewrite under the chain recurses once per statement
set_option maxRecDepth 2048 in
/-- @main is that straight line: the outlined functions' definitions unfolded at their calls, both sides are one chain of
    host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..,
    nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..,
    binary_bufs_sub .., unary_bufs_sub .., binary_bufs_sub .., binary_bufs_sub .., binary_bufs_sub ..⟩

/-- Every TensorCore buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold read at the result and at the arguments -/

attribute [local irreducible] Host.reduce Host.gather in
set_option maxRecDepth 8192 in
set_option maxHeartbeats 800000 in
/-- The fold at the result buffer is the composed term: each operation's result at its own buffer is its function of
    what its operands' buffers held, and at any other buffer what was there. -/
theorem out_eq (V : Valuation τ sig (Elt F)) :
    after ops V (main_v6 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- On the device, for any float values, from any memory with zero counters: every weakly fair execution of @main
    terminates with the result at `refTerm` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v6) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v6).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_main m ρ)

end Cert.Proof.Ref

end
-- ==== Proof.RefValue.lean ====
/-
  The reference's composed term read at an index, at the ideal values, under the index range the precondition gives.
  Row `p` of the result is `(μ[0] + (s[h[p]] − s[a[p]])) + Σ_f X[p, f] · β[f]`: an index word between 0 and 99999 is
  not negative, so the wrap `i + 100000` is not taken; it passes the range test, so the lookup's final select keeps the
  gathered entry rather than the fill; and the gather's clamp of its start index into `[0, 99999]` leaves it alone. The
  matrix-vector product is the sum over the one contracted axis.
-/
import proofs.«203773_g32736240730729_cont_9to1_2154_21_alg».proof.Proof.RefRun
import proofs.«203773_g32736240730729_cont_9to1_2154_21_alg».proof.Proof.PreFacts
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.Proof.Ref

open Cert.ReferenceIdeal Cert.ReferenceIdeal.Facts₀ Idealize.ShloMosaic
open Idealize.ShloMosaic.ValueIdx (ix0 ix1 ix2 eq_ix1 eq_ix2 select_apply select_one select_zero eq_zero_of_ne_one addf_apply subf_apply
  contrEquiv1 contrEquiv1_symm_val)
open Cert.Proof.PreFacts (takeIdx)

/-! ## Words -/

/-- A 32-bit word that is not negative as a signed number is, signed, its unsigned value. -/
theorem toInt_eq_toNat_of_nonneg (v : BitVec 32) (h0 : 0 ≤ v.toInt) : v.toInt = (v.toNat : Int) := by
  have hv := v.isLt
  have hc := BitVec.toInt_eq_toNat_cond v
  split at hc <;> omega

/-- A left fold by `and` over one-bit words that are all 1, from 1, is 1. -/
theorem foldl_andi_one {ι : Type} (f : ι → BitVec 1) :
    ∀ l : List ι, (∀ n ∈ l, f n = 1#1) → l.foldl (fun r n => IntOp.andi r (f n)) 1#1 = 1#1
  | [], _ => rfl
  | n :: l, h => by
    have e : IntOp.andi 1#1 1#1 = 1#1 := by decide
    rw [List.foldl_cons, h n List.mem_cons_self, e]
    exact foldl_andi_one f l fun k hk => h k (List.mem_cons_of_mem _ hk)

/-! ## One lookup -/

/-- A word that is not negative is not wrapped. -/
theorem wrapIdx_apply (i : IVec S16384 32) (j : S16384.Idx) (h0 : 0 ≤ (i j).toInt) : wrapIdx i j = i j := by
  unfold wrapIdx
  rw [select_apply]
  have hc : cmpi .slt i (broadcastInDim S16384 ![] bcast_S_S16384 (constantI S_ 32 0#32)) j = 0#1 := by
    refine eq_zero_of_ne_one fun hc1 => ?_
    have hlt : (i j).toInt < (0#32 : BitVec 32).toInt := IntOp.cmpi_slt.1 hc1
    have e0 : (0#32 : BitVec 32).toInt = 0 := by decide
    omega
  rw [hc, select_zero]

/-- Row `p` of the one-column array of start indices is the wrapped word `p`. -/
theorem colIdx_apply (i : IVec S16384 32) (p : Fin 16384) (q : Fin 1) : colIdx i (ix2 p q) = wrapIdx i (ix1 p) := by
  unfold colIdx
  exact Idealize.ShloMosaic.broadcastInDim_apply _ _ _ _ (ix1 p) (fun a => by match a with | ⟨0, _⟩ => rfl)

/-- Every word in `[0, 99999]` passes the range test. -/
theorem inRange_eq_one (i : IVec S16384 32) (hi : ∀ j : S16384.Idx, (i j).toNat < 100000 ∧ 0 ≤ (i j).toInt) (j : S16384.Idx) :
    inRange i j = 1#1 := by
  unfold inRange
  rw [Host.reduce_eq_foldl]
  refine foldl_andi_one _ _ fun y _ => ?_
  obtain ⟨p, q, rfl⟩ : ∃ (p : Fin 16384) (q : Fin 1), y = ix2 p q := ⟨y 0, y 1, eq_ix2 y⟩
  have hw : colIdx i (ix2 p q) = i (ix1 p) := by rw [colIdx_apply, wrapIdx_apply _ _ (hi _).2]
  have e := toInt_eq_toNat_of_nonneg _ (hi (ix1 p)).2
  have hn := (hi (ix1 p)).1
  refine IntOp.andi_eq_one.2 ⟨IntOp.cmpi_sge.2 ?_, IntOp.cmpi_sle.2 ?_⟩
  · show (0#32 : BitVec 32).toInt ≤ (colIdx i (ix2 p q)).toInt
    have e0 : (0#32 : BitVec 32).toInt = 0 := by decide
    rw [hw, e0]; exact (hi _).2
  · show (colIdx i (ix2 p q)).toInt ≤ (99999#32 : BitVec 32).toInt
    have e1 : (99999#32 : BitVec 32).toInt = 99999 := by decide
    rw [hw, e1]; omega

/-- The gather of a flat table at a one-column array of start indices, read at row `p`: the table at the start index
    of that row, read signed and clamped into `[0, 99999]`. -/
theorem gather_apply {α : Type} (x : S100000.Idx → α) (idx : IVec S16384x1 32) (p : Fin 16384) :
    Host.gather gather_S100000_S16384x1_S16384_n_0_n_n_0_1_1 x idx (ix1 p)
      = x (ix1 (⟨min (idx (ix2 p 0)).toInt.toNat (100000 - 1), by omega⟩ : Fin 100000)) := by
  unfold Host.gather
  congr 1
  funext a
  obtain rfl : a = 0 := Subsingleton.elim _ _
  refine Fin.ext ?_
  show gather_S100000_S16384x1_S16384_n_0_n_n_0_1_1.start (ix1 p) idx 0 + gather_S100000_S16384x1_S16384_n_0_n_n_0_1_1.batchCoord (ix1 p) 0 + gather_S100000_S16384x1_S16384_n_0_n_n_0_1_1.offCoord (ix1 p) 0 = _
  rw [GatherDims.batchCoord_eq_zero gather_S100000_S16384x1_S16384_n_0_n_n_0_1_1 _ _ (show (0 : Fin 1) ∉ gather_S100000_S16384x1_S16384_n_0_n_n_0_1_1.operandBatchingDims from List.not_mem_nil),
    GatherDims.offCoord_eq_zero gather_S100000_S16384x1_S16384_n_0_n_n_0_1_1 _ _ (fun h => ((GatherDims.mem_sKept _ _).mp h).1 (show (0 : Fin 1) ∈ gather_S100000_S16384x1_S16384_n_0_n_n_0_1_1.collapsedSliceDims from List.mem_singleton.mpr rfl))]
  simp only [Nat.add_zero]
  unfold GatherDims.start
  rw [dif_pos (show (0 : Fin 1) ∈ gather_S100000_S16384x1_S16384_n_0_n_n_0_1_1.startIndexMap from List.mem_singleton.mpr rfl)]
  have hsi : gather_S100000_S16384x1_S16384_n_0_n_n_0_1_1.siIdx (ix1 p) ⟨List.idxOf (0 : Fin 1) gather_S100000_S16384x1_S16384_n_0_n_n_0_1_1.startIndexMap,
      List.idxOf_lt_length_iff.2 (show (0 : Fin 1) ∈ gather_S100000_S16384x1_S16384_n_0_n_n_0_1_1.startIndexMap from List.mem_singleton.mpr rfl)⟩ = ix2 p 0 := by
    funext b; refine Fin.ext ?_
    match b with
    | ⟨0, _⟩ => rfl
    | ⟨1, _⟩ => rfl
  rw [hsi]
  rfl

/-- ONE LOOKUP at row `p`, its index words in range: the table's entry at the word. -/
theorem takeTerm_apply (s : FVec Ideal S100000 .f32) (i : IVec S16384 32)
    (hi : ∀ j : S16384.Idx, (i j).toNat < 100000 ∧ 0 ≤ (i j).toInt) (p : Fin 16384) :
    takeTerm s i (ix1 p) = s (takeIdx (i (ix1 p))) := by
  unfold takeTerm
  rw [select_apply, inRange_eq_one i hi, select_one, gather_apply]
  have hw : colIdx i (ix2 p 0) = i (ix1 p) := by rw [colIdx_apply, wrapIdx_apply _ _ (hi _).2]
  have hn := (hi (ix1 p)).1
  have e := toInt_eq_toNat_of_nonneg _ (hi (ix1 p)).2
  refine congrArg s (congrArg (ix1 (n := 100000)) (Fin.ext ?_))
  show min (colIdx i (ix2 p 0)).toInt.toNat (100000 - 1) = (i (ix1 p)).toNat % 100000
  rw [hw, e, Int.toNat_natCast, Nat.mod_eq_of_lt hn]
  omega

/-! ## The other two stages -/

/-- The bias, a one-entry array broadcast along the rows, reads its entry everywhere. -/
theorem bias_apply {α : Type} (μ : S1.Idx → α) (p : Fin 16384) :
    broadcastInDim S16384 ![0] bcast_S1_S16384_0 μ (ix1 p) = μ (ix1 0) :=
  Idealize.ShloMosaic.broadcastInDim_apply _ _ _ _ (ix1 0) (fun a => by match a with | ⟨0, _⟩ => rfl)

/-- The matrix-vector product at row `p` is the sum over the contracted axis of the products of the entries. -/
theorem dot_apply (X : FVec Ideal S16384x64 .f32) (β : FVec Ideal S64 .f32) (p : Fin 16384) :
    Host.dotGeneral dot_S16384x64_S64_S16384_1_0_0_n_n_n none X β (ix1 p) = ∑ f : Fin 64, X (ix2 p f) * β (ix1 f) := by
  show FloatOps.dotGeneral dot_S16384x64_S64_S16384_1_0_0_n_n_n none _ X β (ix1 p) = _
  rw [Ideal.dotGeneral_apply, ← Equiv.sum_comp (contrEquiv1 dot_S16384x64_S64_S16384_1_0_0_n_n_n 64 rfl rfl).symm]
  refine Finset.sum_congr rfl fun c _ => ?_
  have c2 := contrEquiv1_symm_val dot_S16384x64_S64_S16384_1_0_0_n_n_n 64 rfl rfl c
  have l2 : dot_S16384x64_S64_S16384_1_0_0_n_n_n.lhsIdx (ix1 p) ((contrEquiv1 dot_S16384x64_S64_S16384_1_0_0_n_n_n 64 rfl rfl).symm c) = ix2 p c := by
    funext ax; apply Fin.ext
    match ax with
    | ⟨0, _⟩ => rfl
    | ⟨1, _⟩ => exact (DotDims.lhsIdx_val_of_single dot_S16384x64_S64_S16384_1_0_0_n_n_n (cl := 1) rfl _ _).trans c2
  have r2 : dot_S16384x64_S64_S16384_1_0_0_n_n_n.rhsIdx (ix1 p) ((contrEquiv1 dot_S16384x64_S64_S16384_1_0_0_n_n_n 64 rfl rfl).symm c) = ix1 c := by
    funext ax; apply Fin.ext
    match ax with
    | ⟨0, _⟩ => exact (DotDims.rhsIdx_val_of_single dot_S16384x64_S64_S16384_1_0_0_n_n_n (cr := 0) rfl _ _).trans c2
  rw [l2, r2]

/-! ## The result at a row -/

/-- THE REFERENCE AT ROW `p`, under the index range. -/
theorem refTerm_apply_ix (h a : IVec S16384 32) (X : FVec Ideal S16384x64 .f32) (s : FVec Ideal S100000 .f32)
    (β : FVec Ideal S64 .f32) (μ : FVec Ideal S1 .f32)
    (hok : ∀ j : S16384.Idx, ((h j).toNat < 100000 ∧ 0 ≤ (h j).toInt) ∧ ((a j).toNat < 100000 ∧ 0 ≤ (a j).toInt))
    (p : Fin 16384) :
    refTerm h a X s β μ (ix1 p)
      = (μ (ix1 0) + (s (takeIdx (h (ix1 p))) - s (takeIdx (a (ix1 p))))) + ∑ f : Fin 64, X (ix2 p f) * β (ix1 f) := by
  unfold refTerm
  rw [addf_apply, addf_apply, subf_apply, takeTerm_apply s h (fun j => (hok j).1), takeTerm_apply s a (fun j => (hok j).2),
    dot_apply, bias_apply]

/-- The same at any index `j` of the result, its one coordinate `j 0`. -/
theorem refTerm_apply (h a : IVec S16384 32) (X : FVec Ideal S16384x64 .f32) (s : FVec Ideal S100000 .f32)
    (β : FVec Ideal S64 .f32) (μ : FVec Ideal S1 .f32)
    (hok : ∀ j : S16384.Idx, ((h j).toNat < 100000 ∧ 0 ≤ (h j).toInt) ∧ ((a j).toNat < 100000 ∧ 0 ≤ (a j).toInt))
    (j : S16384.Idx) :
    refTerm h a X s β μ j
      = (μ (ix1 0) + (s (takeIdx (h j)) - s (takeIdx (a j)))) + ∑ f : Fin 64, X (ix2 (j 0) f) * β (ix1 f) := by
  obtain ⟨p, rfl⟩ : ∃ p : Fin 16384, j = ix1 p := ⟨j 0, eq_ix1 j⟩
  exact refTerm_apply_ix h a X s β μ hok p

end Cert.Proof.Ref

end
-- ==== Proof.KernelIdeal.Common.lean ====
/-
  Shared vocabulary of the kernel side: the program as the launch theorem sees it, the resource algebra
  (the launch handshakes' rounds beside the staging cells' rounds and the transfers' counters), and the
  pure functions the run's arrays are stated at.
-/
import proofs.«203773_g32736240730729_cont_9to1_2154_21_alg».proof.Defs
import proofs.«203773_g32736240730729_cont_9to1_2154_21_alg».proof.Proof.Gen.KernelIdeal
import proofs.«203773_g32736240730729_cont_9to1_2154_21_alg».proof.Proof.Gen.KernelIdeal.Skeleton
import proofs.«203773_g32736240730729_cont_9to1_2154_21_alg».proof.Proof.Gen.KernelIdeal.Launch
import proofs.«203773_g32736240730729_cont_9to1_2154_21_alg».proof.Proof.Gen.KernelIdeal.Points
import proofs.«203773_g32736240730729_cont_9to1_2154_21_alg».proof.Proof.PreFacts
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## A tile's place -/

/-- A tile's coordinates from its SparseCore and its place in it. -/
def coordsV (c : Fin (grid0.bound 0)) (s : Fin (grid0.bound 1)) : grid0.Coords :=
  fun | 0 => c | 1 => s | ⟨_ + 2, h⟩ => absurd h (Nat.not_lt.2 (Nat.le_add_left _ _))

/-- The SparseCore and the vector subcore a tile's coordinates name. -/
abbrev cV (L : grid0.Coords) : Fin τ.nSC := (L 0).castLE hcore0
abbrev jV (L : grid0.Coords) : Fin τ.nSub := (L 1).castLE hsub0

/-! ## The resource algebra -/

/-- The launch handshakes' rounds. -/
abbrev UH : Type := URounds (GSem nD τ sig) ℕ
/-- The TensorCore pipelines' staging cells' rounds. -/
abbrev UP : Type := URounds (GSem nD τ sig) Unit
/-- The three side by side: the transfers' counters are found in the right by instance. -/
abbrev UU : Type := UH × (UP × Counters)

/-- The machine's algebra over them. -/
abbrev MM (F : FTy → Type) : Type := MT nD τ sig (HIx 1) (Elt F) ℕ UU ℕ

abbrev EH : Emb UH (MM F) := embL
def EP : Emb UP (MM F) := (Emb.inl : Emb UP (UP × Counters)).trans embR

instance EP_landsIn : (EP : Emb UP (MM F)).LandsIn (upEmb : UEmb _ (MM F)) := by unfold EP; infer_instance

/-! ## The arrays' locations -/

abbrev homeLoc (d : Dev nD) : Loc nD τ sig := (SparseCore.T d).loc main_arg0
abbrev awayLoc (d : Dev nD) : Loc nD τ sig := (SparseCore.T d).loc main_arg1
abbrev xLoc (d : Dev nD) : Loc nD τ sig := (SparseCore.T d).loc main_arg2
abbrev tabLoc (d : Dev nD) : Loc nD τ sig := (SparseCore.T d).loc main_arg3
abbrev betaLoc (d : Dev nD) : Loc nD τ sig := (SparseCore.T d).loc main_arg4
abbrev muLoc (d : Dev nD) : Loc nD τ sig := (SparseCore.T d).loc main_arg5
abbrev dLoc (d : Dev nD) : Loc nD τ sig := (SparseCore.T d).loc main_v0
abbrev xtLoc (d : Dev nD) : Loc nD τ sig := (SparseCore.T d).loc main_v1
abbrev yLoc (d : Dev nD) : Loc nD τ sig := (SparseCore.T d).loc main_v2
abbrev outLoc (d : Dev nD) : Loc nD τ sig := (SparseCore.T d).loc main_v3

/-! ## What the arrays hold after each stage, as pure functions of the argument arrays -/

section Spec

variable [FloatOps F]

/-- The SparseCore call's result: entry `j` is the table at the home index minus the table at the away index. -/
def dSpec (h a : Vec F S16384 .i32) (s : Vec F S100000 .f32) : Vec F S16384 .f32 :=
  fun j => FloatOps.subf (s (Cert.Proof.PreFacts.takeIdx (h j))) (s (Cert.Proof.PreFacts.takeIdx (a j)))

/-- The host transpose's result. -/
def xtSpec (X : Vec F S16384x64 .f32) : Vec F S64x16384 .f32 :=
  transpose S64x16384 [1, 0] X transposes_S16384x64_S64x16384_1_0

/-- Block `t` (of two) of the transposed features: columns `[8192 t, 8192 t + 8192)`. -/
def xtBlock (XT : Vec F S64x16384 .f32) (t : Fin 2) : Vec F S64x8192 .f32 :=
  fun y => XT (ValueIdx.ix2 (y 0) ⟨8192 * t.val + (y 1).val, by have h1 : (y 1).val < 8192 := (y 1).isLt; have h2 : t.val < 2 := t.isLt; show _ < 16384; omega⟩)

/-- The first TensorCore call's result: entry `b` is the body's payload of the block holding column `b`, read at `b`'s place in it. -/
def ySpec (XT : Vec F S64x16384 .f32) (β : Vec F S64 .f32) (μ : Vec F S1 .f32) : Vec F S16384 .f32 :=
  fun j => k1_pay1 (xtBlock XT ⟨(j 0).val / 8192, by have h1 : (j 0).val < 16384 := (j 0).isLt; show _ < 2; omega⟩) β (μ (ValueIdx.ix1 0))
    (ValueIdx.ix1 ⟨(j 0).val % 8192, Nat.mod_lt _ (by decide)⟩)

/-- The second TensorCore call's result: its body's payload of the two arrays. -/
def outSpec (y d : Vec F S16384 .f32) : Vec F S16384 .f32 := k2_pay1 y d

/-- The program's result as one function of its six argument arrays. -/
def kernelTerm (h a : Vec F S16384 .i32) (X : Vec F S16384x64 .f32) (s : Vec F S100000 .f32) (β : Vec F S64 .f32) (μ : Vec F S1 .f32) :
    Vec F S16384 .f32 :=
  outSpec (ySpec (xtSpec X) β μ) (dSpec h a s)

end Spec

end Cert.Proof.KernelIdeal

end
-- ==== Proof.KernelValue.lean ====
/-
  The value bridge at the ideal instance: the program's result, read at one batch entry, is the feature row's inner
  product with the weights, plus the bias, plus the difference of the two table entries the index words name.
-/
import proofs.«203773_g32736240730729_cont_9to1_2154_21_alg».proof.Proof.KernelIdeal.Common
import Idealize.ShloMosaic.Lib.ValueLayout
import Idealize.ShloMosaic.PureOps.Ideal.Laws

noncomputable section

namespace Cert.Proof.Value

open Cert.KernelIdeal Cert.KernelIdeal.Gen Cert.Proof.KernelIdeal
open Idealize.ShloMosaic Idealize.ShloMosaic.ValueIdx
open scoped BigOperators

/-! ## Layout operations at an index -/

/-- A vector cast to a one-column matrix reads, at `(i, 0)`, the vector at `i`: both sit at row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over many: at `(p, c)` the column's entry `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over the rows inserts: row `f` above column `r`. -/
theorem lift_ix1 {a b : ℕ} (h : (⟨2, ![a, b]⟩ : Shape).Reduces [0] ⟨1, ![b]⟩) (r : Fin b) (f : Fin a) :
    h.lift (ix1 r) f = ix2 f r := by
  funext c
  refine Fin.ext ?_
  match c with
  | ⟨0, _⟩ => rfl
  | ⟨1, _⟩ => rfl

/-- A sum over the rows of a matrix, read at column `r`: the `Fin`-indexed sum down that column. -/
theorem sumRows_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (r : Fin b) :
    multiReduction (F := Ideal) .add [0] ⟨1, ![b]⟩ src 0x00000000#32 h hφ hacc (ix1 r) = ∑ f : Fin a, src (ix2 f r) :=
  (Ideal.multiReduction_add_single src 0x00000000#32 h hφ hacc (ix1 r)).trans
    (Finset.sum_congr rfl fun f _ => congrArg src (lift_ix1 h r f))

/-! ## The two TensorCore payloads at an index -/

/-- The matrix-vector body's payload at column `r` of its block: the block's column against the weights, plus the bias. -/
theorem k1_pay1_apply (B : FVec Ideal S64x8192 .f32) (β : FVec Ideal S64 .f32) (m : Ideal .f32) (r : Fin 8192) :
    k1_pay1 (F := Ideal) B β m (ix1 r) = (∑ f : Fin 64, B (ix2 f r) * β (ix1 f)) + m := by
  unfold k1_pay1
  show multiReduction (F := Ideal) .add [0] S8192 (mulf (shapeCast S64x8192 B _) (broadcastTo S64x8192 (shapeCast S64x1 β _) _))
      0x00000000#32 _ _ _ (ix1 r) + m = _
  refine congrArg (· + m) ?_
  refine (sumRows_apply _ _ _ _ r).trans ?_
  refine Finset.sum_congr rfl fun f _ => ?_
  rw [mulf_apply]
  refine congrArg₂ (· * ·) ?_ ?_
  · exact congrFun (shapeCast_self B _) _
  · exact (broadcastTo_a1_ab_apply _ _ f r).trans (shapeCast_a_a1_apply β _ f 0)

/-- The combining body's payload at an entry: the sum of the two arrays' entries. -/
theorem k2_pay1_apply (y d : FVec Ideal S16384 .f32) (j : S16384.Idx) :
    k2_pay1 (F := Ideal) y d j = y j + d j := by
  unfold k2_pay1
  show shapeCast S16384 y _ j + shapeCast S16384 d _ j = _
  rw [shapeCast_self, shapeCast_self]

/-! ## The stages at an index -/

/-- The transposed features' block holding column `b`, read at `b`'s place in it, is the feature matrix at `(b, f)`:
    `8192 * (b / 8192) + b % 8192 = b`. -/
theorem xtBlock_xtSpec_apply (X : Vec Ideal S16384x64 .f32) (b : Fin 16384) (f : Fin 64) :
    xtBlock (xtSpec X) ⟨b.val / 8192, by have := b.isLt; omega⟩ (ix2 f (⟨b.val % 8192, Nat.mod_lt _ (by decide)⟩ : Fin 8192))
      = X (ix2 b f) := by
  show xtSpec X (ix2 f (⟨8192 * (b.val / 8192) + b.val % 8192, _⟩ : Fin 16384)) = _
  unfold xtSpec
  refine (transpose_ix2_apply X _ f _).trans ?_
  exact congrArg (fun p => X (ix2 p f)) (Fin.ext (Nat.div_add_mod _ _))

/-- The first TensorCore call's result at entry `b`: the feature row's inner product with the weights, plus the bias. -/
theorem ySpec_apply (X : Vec Ideal S16384x64 .f32) (β : Vec Ideal S64 .f32) (μ : Vec Ideal S1 .f32) (b : Fin 16384) :
    ySpec (xtSpec X) β μ (ix1 b) = (∑ f : Fin 64, X (ix2 b f) * β (ix1 f)) + μ (ix1 0) := by
  unfold ySpec
  refine (k1_pay1_apply _ β (μ (ix1 0)) ⟨b.val % 8192, Nat.mod_lt _ (by decide)⟩).trans ?_
  refine congrArg (· + μ (ix1 0)) ?_
  refine Finset.sum_congr rfl fun f _ => ?_
  exact congrArg (· * β (ix1 f)) (xtBlock_xtSpec_apply X b f)

/-- The SparseCore call's result at an entry: the table at the home index minus the table at the away index. -/
theorem dSpec_apply (h a : Vec Ideal S16384 .i32) (s : Vec Ideal S100000 .f32) (j : S16384.Idx) :
    dSpec (F := Ideal) h a s j = s (Cert.Proof.PreFacts.takeIdx (h j)) - s (Cert.Proof.PreFacts.takeIdx (a j)) := rfl

/-- The program's result at entry `b`, the entry written by its coordinate. -/
theorem kernelTerm_apply_ix (h a : Vec Ideal S16384 .i32) (X : Vec Ideal S16384x64 .f32) (s : Vec Ideal S100000 .f32)
    (β : Vec Ideal S64 .f32) (μ : Vec Ideal S1 .f32) (b : Fin 16384) :
    kernelTerm (F := Ideal) h a X s β μ (ix1 b)
      = ((∑ f : Fin 64, X (ix2 b f) * β (ix1 f)) + μ (ix1 0))
        + (s (Cert.Proof.PreFacts.takeIdx (h (ix1 b))) - s (Cert.Proof.PreFacts.takeIdx (a (ix1 b)))) := by
  unfold kernelTerm outSpec
  refine (k2_pay1_apply _ _ _).trans ?_
  exact congrArg₂ (· + ·) (ySpec_apply X β μ b) (dSpec_apply h a s _)

/-- The program's result at an entry: the feature row's inner product with the weights, plus the bias, plus the difference of
    the two table entries. -/
theorem kernelTerm_apply (h a : Vec Ideal S16384 .i32) (X : Vec Ideal S16384x64 .f32) (s : Vec Ideal S100000 .f32)
    (β : Vec Ideal S64 .f32) (μ : Vec Ideal S1 .f32) (j : S16384.Idx) :
    kernelTerm (F := Ideal) h a X s β μ j
      = ((∑ f : Fin 64, X (ix2 (j 0) f) * β (ix1 f)) + μ (ix1 0))
        + (s (Cert.Proof.PreFacts.takeIdx (h j)) - s (Cert.Proof.PreFacts.takeIdx (a j))) := by
  obtain ⟨b, rfl⟩ : ∃ b : Fin 16384, j = ix1 b := ⟨j 0, eq_ix1 j⟩
  exact kernelTerm_apply_ix h a X s β μ b

end Cert.Proof.Value

end
-- ==== Proof.Bridge.lean ====
/-
  The value bridge: at the ideal instance, under the index range the precondition gives, the program's result and the
  reference's are one function. At every batch entry both are the feature row's inner product with the weights, the
  bias, and the difference of the two table entries the index words name; the two add these three extended reals in
  different orders, and addition of extended reals is commutative and associative.
-/
import proofs.«203773_g32736240730729_cont_9to1_2154_21_alg».proof.Proof.KernelValue
import proofs.«203773_g32736240730729_cont_9to1_2154_21_alg».proof.Proof.RefValue

noncomputable section

namespace Cert.Proof.Value

open Cert.KernelIdeal Cert.Proof.KernelIdeal
open Idealize.ShloMosaic Idealize.ShloMosaic.ValueIdx
open scoped BigOperators

/-- Three extended reals added in two orders: only commutativity and associativity of `+`. -/
theorem add_rotate_ereal (x y z : EReal) : (x + y) + z = (y + z) + x := by
  rw [add_comm x y, add_assoc, add_comm x z, ← add_assoc]

/-- Under the index range, the program's result and the reference's are one function: at every entry both are the inner
    product, the bias and the table difference, added in two orders. -/
theorem kernel_eq_ref (h a : Vec Ideal S16384 .i32) (X : Vec Ideal S16384x64 .f32) (s : Vec Ideal S100000 .f32)
    (β : Vec Ideal S64 .f32) (μ : Vec Ideal S1 .f32)
    (hok : ∀ j : S16384.Idx, ((h j).toNat < 100000 ∧ 0 ≤ (h j).toInt) ∧ ((a j).toNat < 100000 ∧ 0 ≤ (a j).toInt)) :
    kernelTerm (F := Ideal) h a X s β μ = Cert.Proof.Ref.refTerm (F := Ideal) h a X s β μ := by
  funext j
  refine (kernelTerm_apply h a X s β μ j).trans ?_
  refine Eq.trans ?_ (Cert.Proof.Ref.refTerm_apply h a X s β μ hok j).symm
  exact add_rotate_ereal _ _ _

end Cert.Proof.Value

end
-- ==== Proof.KernelIdeal.Launch.Pay.lean ====
/-
  The launch theorem's obligations about the SparseCore call: what the handshakes carry (each tile's share of the
  index arrays, of the table and of the output, handed over as already dealt to the tiles), the tile obligation from
  the run of one tile's task, and the split of a SparseCore's operands among its tiles (the identity, the operands
  being handed over already dealt).
-/
import proofs.«203773_g32736240730729_cont_9to1_2154_21_alg».proof.Proof.KernelIdeal.Common

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MM F

/-! ## The program's facts -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_q (q : Fin 1) : (K (F := F)).nCore q = grid0.bound 0 := match q with | 0 => rfl
theorem nSub_q (q : Fin 1) : (K (F := F)).nSub q = grid0.bound 1 := match q with | 0 => rfl

variable [FloatOps F]
variable (m : (ℓ : Loc nD τ sig) → Buf (Elt F) ℓ)

/-! ## What is taken from the run of one tile's task -/

/-- One tile's task: what it is handed and hands back, the run of its body between the two, and how the whole arrays
    are dealt to the thirty-two tiles and come back from them — the output then holding the table's differences. -/
structure TileTask where
  /-- The index words are in range of the table. -/
  Hidx : Prop
  goRes : Dev nD → grid0.Coords → sProp 𝕄
  tdRes : Dev nD → grid0.Coords → sProp 𝕄
  go_storable : ∀ d L, BI.Storable (upEmb : UEmb _ 𝕄) (goRes d L)
  td_storable : ∀ d L, BI.Storable (upEmb : UEmb _ 𝕄) (tdRes d L)
  body : (K (F := F)).Facts → Hidx → ∀ (d : Dev nD) (L : grid0.Coords) (O : CellTallies nD τ sig (HIx 1)) (W : Waits sig (HIx 1)), (∀ g, O g none = 0) →
    iprop(levAts (K (F := F)).L (K (F := F)).lev ∗ emp ∗ goRes d L ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L (Memref.whole main_arg0_scv) (Memref.isWhole_whole _) (Memref.whole main_arg1_scv) (Memref.isWhole_whole _)
            (Memref.whole main_arg3_scv) (Memref.isWhole_whole _) (Memref.whole main_v0_scv) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7 cc0_scratch8 cc0_scratch9 cc0_scratch10 cc0_scratch11)
          fun _ => iprop(tdRes d L ∗ scopedBufs (V d (cV L) (jV L)) ∗ scopedSems0 (V d (cV L) (jV L))
            ∗ ∃ W', ⌜∀ p ∈ W', p ∈ W ∨ p.2 = none⌝ ∗ owes (V d (cV L) (jV L)) O W')
  /-- What of the table's share no tile is handed: kept by the TensorCore across the call. -/
  Rem : Dev nD → sProp 𝕄
  deal : ∀ d, iprop((homeLoc d ↦{fullShare} m (homeLoc d)) ∗ (awayLoc d ↦{fullShare} m (awayLoc d)) ∗ (tabLoc d ↦{fullShare} m (tabLoc d))
      ∗ (dLoc d ↦{fullShare} m (dLoc d)))
    ⊢ iprop((bigSep Finset.univ fun c : Fin (grid0.bound 0) => bigSep Finset.univ fun s : Fin (grid0.bound 1) => goRes d (coordsV c s)) ∗ Rem d)
  join : ∀ d, iprop((bigSep Finset.univ fun c : Fin (grid0.bound 0) => bigSep Finset.univ fun s : Fin (grid0.bound 1) => tdRes d (coordsV c s)) ∗ Rem d)
    ⊢ iprop((homeLoc d ↦{fullShare} m (homeLoc d)) ∗ (awayLoc d ↦{fullShare} m (awayLoc d)) ∗ (tabLoc d ↦{fullShare} m (tabLoc d))
      ∗ (dLoc d ↦{fullShare} dSpec (m (homeLoc d)) (m (awayLoc d)) (m (tabLoc d))))

variable {m} (TK : TileTask (F := F) m)

/-! ## What the handshakes carry -/

theorem lt_core (q : Fin 1) (c : Fin ((K (F := F)).nCore q)) : c.val < grid0.bound 0 := lt_of_lt_of_eq c.isLt (nCore_q q)
theorem lt_sub (q : Fin 1) (i : Fin ((K (F := F)).nSub q)) : i.val < grid0.bound 1 := lt_of_lt_of_eq i.isLt (nSub_q q)

/-- The coordinates of task `i` of SparseCore `c` of the call's grid. -/
def coordsQ (q : Fin 1) (c : Fin ((K (F := F)).nCore q)) (i : Fin ((K (F := F)).nSub q)) : grid0.Coords :=
  coordsV ⟨c.val, lt_core q c⟩ ⟨i.val, lt_sub q i⟩

/-- The call hands each SparseCore its sixteen tiles' shares already dealt, and takes them back so. -/
def P : (K (F := F)).Pay (nD := nD) (Val := Elt F) (Name := ℕ) (U := UU) where
  st := fun q d c => bigSep Finset.univ fun i : Fin ((K (F := F)).nSub q) => TK.goRes d (coordsQ q c i)
  dn := fun q d c => bigSep Finset.univ fun i : Fin ((K (F := F)).nSub q) => TK.tdRes d (coordsQ q c i)
  go := fun q d c i => TK.goRes d (coordsQ q c i)
  td := fun q d c i => TK.tdRes d (coordsQ q c i)
  x := fun _ _ => iprop(emp)

instance P_storable : (P TK).IsStorable where
  st q d c := by
    unfold P; dsimp only
    haveI := TK.go_storable; infer_instance
  dn q d c := by
    unfold P; dsimp only
    haveI := TK.td_storable; infer_instance
  go q d c i := by unfold P; exact TK.go_storable _ _
  td q d c i := by unfold P; exact TK.td_storable _ _

/-! ## The tile obligation -/

theorem defs₀_vector (c : Fin τ.nSC) (s : Fin τ.nSub) :
    defs₀ (F := F) (.scVector c s) 0 ()
      = SparseCore.onTile hcore0 hsub0 (fun c s => cc0_k (coordsV c s)
          (Memref.whole main_arg0_scv) (Memref.isWhole_whole _) (Memref.whole main_arg1_scv) (Memref.isWhole_whole _)
          (Memref.whole main_arg3_scv) (Memref.isWhole_whole _) (Memref.whole main_v0_scv) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 cc0_scratch9 cc0_scratch10 cc0_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hidx : TK.Hidx) : (K (F := F)).TileObl (D (F := F)) 𝒱 (P TK) v₀ 0 := by
  intro d c i O W hO _ _
  simp only [show (P TK).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (TK.body hF hidx d (coordsV ⟨_, hc.1⟩ ⟨_, hc.2⟩) O W hO).trans (wp_mono frame _ _ fun _ => obl_post)

/-! ## The split of a SparseCore's operands among its tiles -/

theorem vecSplit : (K (F := F)).VecSplit' (P TK) 0 := by
  intro d c
  show (bigSep Finset.univ fun i : Fin ((K (F := F)).nSub 0) => TK.goRes d (coordsQ 0 c i)) ⊢ |={Set.univ}=> iprop(
      (bigSep Finset.univ fun i : Fin ((K (F := F)).nSub 0) => TK.goRes d (coordsQ 0 c i))
      ∗ ((bigSep Finset.univ fun i : Fin ((K (F := F)).nSub 0) => TK.tdRes d (coordsQ 0 c i))
          -∗ (bigSep Finset.univ fun i : Fin ((K (F := F)).nSub 0) => TK.tdRes d (coordsQ 0 c i))))
  iintro H; imodintro
  isplitl [H]; · iexact H
  iintro H; iexact H

end Cert.Proof.KernelIdeal

end
-- ==== Proof.KernelIdeal.Launch.Main.lean ====
/-
  @main on the TensorCore, inside the launch theorem: the SparseCore call (the operands dealt to the tiles, the results
  joined), the host transpose, the two TensorCore regions run by their own rule, and what the final memory holds.
  Also the launch element: the handshakes' rounds, the staging cells' rounds funding the regions' ghost state, and the
  transfers' counters, of which the launch needs nothing.
-/
import proofs.«203773_g32736240730729_cont_9to1_2154_21_alg».proof.Proof.KernelIdeal.Launch.Pay

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MM F

variable [FloatOps F]
variable (m : (ℓ : Loc nD τ sig) → Buf (Elt F) ℓ) (ρ : Dev nD → PrngReg)

/-! ## What is taken from the two TensorCore regions -/

/-- The two regions, one after the other, as a program of the pipelines' signature. -/
def regionsProg₀ : Prog (TpuEff nD τ sig (Elt F) (ΛP (F := F)) .tc) PUnit :=
  .op (.customCall (Pipeline.entry 0) ()) fun _ => .op (.customCall (Pipeline.entry 1) ()) fun _ => .ret ⟨⟩

/-- The two regions' run: from the transposed features, the weights, the offset and the SparseCore call's result held
    whole (and the two result arrays at any contents), the pipelines' ghost state and a TensorCore that owes nothing,
    to the two result arrays at the bodies' payloads of their blocks; and the ghost state funded from a launch element. -/
structure RegionsRun where
  adm : (p : Fin 2) → (pcfgs (F := F) p).Adm
  run : ∀ (d : Dev nD) (XT : Buf (Elt F) (xtLoc d)) (β : Buf (Elt F) (betaLoc d)) (μ : Buf (Elt F) (muLoc d)) (dd : Buf (Elt F) (dLoc d))
      (W : Waits sig (HIx 1)) (Φ : PUnit → sProp 𝕄),
    iprop(levAts (K (F := F)).L (K (F := F)).lev ∗ boundary (T d) ∗ Pipeline.ghostOn pcfgs adm EP Finset.univ d ∗ owes (T d) 0 W
        ∗ (xtLoc d ↦{fullShare} XT) ∗ (betaLoc d ↦{fullShare} β) ∗ (muLoc d ↦{fullShare} μ) ∗ (dLoc d ↦{fullShare} dd)
        ∗ (∃ f, yLoc d ↦{fullShare} f) ∗ (∃ f, outLoc d ↦{fullShare} f)
        ∗ (iprop(boundary (T d) ∗ (xtLoc d ↦{fullShare} XT) ∗ (betaLoc d ↦{fullShare} β) ∗ (muLoc d ↦{fullShare} μ) ∗ (dLoc d ↦{fullShare} dd)
              ∗ (yLoc d ↦{fullShare} ySpec XT β μ) ∗ (outLoc d ↦{fullShare} outSpec (ySpec XT β μ) dd)
              ∗ ∃ W', ⌜∀ p ∈ W', p ∈ W ∨ p.2 = none⌝ ∗ owes (T d) 0 W') -∗ Φ ⟨⟩))
      ⊢ wp frame (wpE (D (F := F)) 𝒱 (T d) none) Set.univ (regionsProg₀ (F := F)) Φ
  ghost₀ : UP
  fund : (BI.own (EP ghost₀) : sProp 𝕄) ⊢ iprop(|==> bigSep Finset.univ fun d : Dev nD => Pipeline.ghostOn pcfgs adm EP Finset.univ d)

variable (TK : TileTask (F := F) m) (RK : RegionsRun (F := F))

/-! ## The launch element -/

def u₀ : UU := (initOf (K (F := F)).hsCells (K (F := F)).hsToks, (RK.ghost₀, 1))

/-- What @main's proof starts from beside the launch's deal: the regions' ghost state. -/
def G (d : Dev nD) : sProp 𝕄 := Pipeline.ghostOn pcfgs RK.adm EP Finset.univ d

omit [FloatOps F] in
theorem bigSep_emp' {I : Type} (s : Finset I) : (bigSep s fun _ => iprop(emp)) = (iprop(emp) : sProp 𝕄) := bigSep_emp_const s

theorem hu₀ : (ownU (u₀ RK) : sProp 𝕄)
    ⊢ |={Set.univ}=> iprop(BI.own (EH (initOf (K (F := F)).hsCells (K (F := F)).hsToks)) ∗ (bigSep Finset.univ fun d : Dev nD => G RK d)
        ∗ bigSep Finset.univ fun thr : Thread nD τ => bigSep Finset.univ fun q : Fin 1 => (P TK).x q thr) := by
  unfold u₀
  iintro Hu
  ihave H := (ownU_pair _ _) $$ Hu
  icases H with ⟨HH, HR⟩
  ihave HR' := (own_pair_emb (embR : Emb (UP × Counters) 𝕄) RK.ghost₀ (1 : Counters)) $$ HR
  icases HR' with ⟨HP, -⟩
  ihave HP' := (Entails.of_eq (show (BI.own (((Emb.inl : Emb UP (UP × Counters)).trans (embR : Emb (UP × Counters) 𝕄)) RK.ghost₀) : sProp 𝕄)
    = BI.own (EP RK.ghost₀) from rfl)) $$ HP
  imod RK.fund $$ HP' with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((homeLoc d ↦{fullShare} W main_arg0) ∗ (awayLoc d ↦{fullShare} W main_arg1) ∗ (xLoc d ↦{fullShare} W main_arg2)
      ∗ (tabLoc d ↦{fullShare} W main_arg3) ∗ (betaLoc d ↦{fullShare} W main_arg4) ∗ (muLoc d ↦{fullShare} W main_arg5)
      ∗ (dLoc d ↦{fullShare} W main_v0) ∗ (xtLoc d ↦{fullShare} W main_v1) ∗ (yLoc d ↦{fullShare} W main_v2) ∗ (outLoc d ↦{fullShare} W main_v3)) := by
  unfold unscopedBufs
  rw [show (Finset.univ.filter fun b : Ref sig .tc => ¬ b.isScoped) = {main_arg0, main_arg1, main_arg2, main_arg3, main_arg4, main_arg5, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The host transpose, as @main spells it. -/
abbrev opT : HloOp τ sig (Elt F) :=
  StableHlo.unary main_arg2 main_v1 ((transpose S64x16384 [1, 0] · transposes_S16384x64_S64x16384_1_0) : (⟨S16384x64, .f32⟩ : BufTy).Contents (Elt F) → (⟨S64x16384, .f32⟩ : BufTy).Contents (Elt F))

abbrev x' : DevRef τ sig := Proc.devRef .tc (main_arg2 : Ref sig .tc)
abbrev xt' : DevRef τ sig := Proc.devRef .tc (main_v1 : Ref sig .tc)
abbrev S2 : Finset (DevRef τ sig) := {x', xt'}

omit [FloatOps F] in
theorem held_S2 (d : Dev nD) (W : Valuation τ sig (Elt F)) :
    (held (T d) S2 W : sProp 𝕄) = iprop((xLoc d ↦{fullShare} W x') ∗ (xtLoc d ↦{fullShare} W xt')) := by
  unfold held S2
  rw [SparseCore.bigSep_insert' (by decide), bigSep_singleton]

theorem hT : (opT (F := F)).bufs ⊆ S2 := show ({x', xt'} : Finset (DevRef τ sig)) ⊆ S2 from Finset.Subset.refl _

def V0 (d : Dev nD) : Valuation τ sig (Elt F) := fun b => m (d, b)

/-- @main, regrouped: the call, the transpose, the two regions. -/
theorem main_eq (d : Dev nD) :
    main (F := F) d = ((K (F := F)).run d 0 >>= fun _ => hlo rfl (opT (F := F)) (fun _ => .ret PUnit.unit) >>= fun _ =>
      SparseCore.liftProg (Q := 1) (regionsProg₀ (F := F))) := rfl

/-- The TensorCore's handshake state but for what it owes. -/
def tcTail (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_eq (d : Dev nD) (n : ℕ) :
    ((K (F := F)).tcSt EH d n : sProp 𝕄)
      = iprop((∃ W, ⌜(K (F := F)).WBelow (T d) W (8 * n)⌝ ∗ owes (T d) ((K (F := F)).Otc d n) W) ∗ tcTail d n) := rfl

/-- What the call takes for the two SparseCores, and what it hands back. -/
theorem st0_eq (d : Dev nD) :
    (bigSep Finset.univ fun c : Fin ((K (F := F)).nCore 0) => (P TK).st 0 d c)
      = bigSep Finset.univ fun c : Fin (grid0.bound 0) => bigSep Finset.univ fun s : Fin (grid0.bound 1) => TK.goRes d (coordsV c s) := rfl
theorem dn0_eq (d : Dev nD) :
    (bigSep Finset.univ fun c : Fin ((K (F := F)).nCore 0) => (P TK).dn 0 d c)
      = bigSep Finset.univ fun c : Fin (grid0.bound 0) => bigSep Finset.univ fun s : Fin (grid0.bound 1) => TK.tdRes d (coordsV c s) := rfl

/-- What @main leaves the claim: the six arguments at their launch contents, the result at the program's term of them. -/
def FIN (d : Dev nD) : sProp 𝕄 :=
  iprop((homeLoc d ↦{fullShare} m (homeLoc d)) ∗ (awayLoc d ↦{fullShare} m (awayLoc d)) ∗ (xLoc d ↦{fullShare} m (xLoc d))
    ∗ (tabLoc d ↦{fullShare} m (tabLoc d)) ∗ (betaLoc d ↦{fullShare} m (betaLoc d)) ∗ (muLoc d ↦{fullShare} m (muLoc d))
    ∗ (outLoc d ↦{fullShare} kernelTerm (m (homeLoc d)) (m (awayLoc d)) (m (xLoc d)) (m (tabLoc d)) (m (betaLoc d)) (m (muLoc d))))

theorem hmain (κ : GSem nD τ sig → ℕ) (d : Dev nD) :
    iprop((K (F := F)).ctx EH (P TK) κ ∗ (K (F := F)).tcSt EH d 0 ∗ (K (F := F)).tcRes m ρ d ∗ G RK d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscopedBufs_eq, main_eq]
  simp only [wp_bind]
  iintro ⟨#Hctx, Hst, ⟨Hb, ⟨H0, H1, H2, H3, H4, H5, Hv0, Hv1, Hv2, Hv3⟩, -, -⟩, Hg⟩
  ihave Hlev := (SparseCore.Cfg.ctx_levAts (K := K (F := F)) κ) $$ Hctx
  -- the call: the index arrays, the table and the output dealt to the thirty-two tiles, and joined back
  ihave Hd := (TK.deal d) $$ [H0 H1 H3 Hv0]
  · isplitl [H0]; · iexact H0
    isplitl [H1]; · iexact H1
    isplitl [H3]; · iexact H3
    iexact Hv0
  icases Hd with ⟨Hgo, Hrem⟩
  iapply ((K (F := F)).wp_run (D (F := F)) 𝒱 (EH := EH) (P := P TK) κ d 0) $$ [Hst Hgo Hrem Hb H2 Hv1 H4 H5 Hv2 Hv3 Hg Hlev]
  isplitr; · iexact Hctx
  isplitl [Hst]; · iexact Hst
  isplitl [Hgo]
  · rw [st0_eq]; iexact Hgo
  iintro ⟨Hst, Hdn⟩
  ihave Hdn' := (Entails.of_eq (dn0_eq m TK d)) $$ Hdn
  ihave Hj := (TK.join d) $$ [Hdn' Hrem]
  · isplitl [Hdn']; · iexact Hdn'
    iexact Hrem
  icases Hj with ⟨H0, H1, H3, Hv0⟩
  -- the transpose, over the features and their transposed copy
  iapply (wp_hlo_within 𝒱 (SparseCore.T d) none Set.univ (op := opT) (S := S2) hT (V := V0 m d)) $$ [Hb H2 Hv1]
  · isplitl [Hb]; · iexact Hb
    rw [held_S2]
    isplitl [H2]; · iexact H2
    iexact Hv1
  iintro ⟨Hb, Hheld⟩
  ihave Hh := (Entails.of_eq (held_S2 (F := F) d _)) $$ Hheld
  icases Hh with ⟨H2, Hv1⟩
  rw [StableHlo.unary_result_ne (F := V0 m d) (h := show (main_arg2 : Ref sig .tc) ≠ main_v1 by decide), StableHlo.unary_result]
  rw [wp_ret]; imodintro
  -- the two regions: the TensorCore owes nothing any more
  ihave Hst' := (Entails.of_eq (tcSt_eq (F := F) d ((0 : Fin 1).val + 1))) $$ Hst
  icases Hst' with ⟨⟨%W, %hW, HO⟩, Htail⟩
  rw [(K (F := F)).Otc_end d (n := (0 : Fin 1).val + 1) (le_refl 1)]
  iapply ((K (F := F)).wp_liftProg (D (F := F)) 𝒱 (SparseCore.T d) Set.univ none (regionsProg₀ (F := F)) _)
  iapply (RK.run d _ _ _ _ W _) $$ [Hlev Hb Hg HO Hv1 H4 H5 Hv0 Hv2 Hv3 H0 H1 H2 H3 Htail]
  isplitl [Hlev]; · iexact Hlev
  isplitl [Hb]; · iexact Hb
  isplitl [Hg]; · iexact Hg
  isplitl [HO]; · iexact HO
  isplitl [Hv1]; · iexact Hv1
  isplitl [H4]; · iexact H4
  isplitl [H5]; · iexact H5
  isplitl [Hv0]; · iexact Hv0
  isplitl [Hv2]; · iexists _; iexact Hv2
  isplitl [Hv3]; · iexists _; iexact Hv3
  iintro ⟨-, -, H4, H5, -, -, Hout, %W', %hW', HO⟩
  unfold V0
  isplitl [HO Htail]
  · iapply (Entails.of_eq (tcSt_eq (F := F) d 1).symm)
    isplitl [HO]
    · iexists W'; isplitr
      · ipureintro; intro p hp
        rcases hW' p hp with h | h
        · exact hW p h
        · rw [h, SparseCore.Cfg.lev_none]; exact Nat.zero_le _
      · rw [(K (F := F)).Otc_end d (le_refl 1)]; iexact HO
    · iexact Htail
  unfold FIN kernelTerm xtSpec
  isplitl [H0]; · iexact H0
  isplitl [H1]; · iexact H1
  isplitl [H2]; · iexact H2
  isplitl [H3]; · iexact H3
  isplitl [H4]; · iexact H4
  isplitl [H5]; · iexact H5
  iexact Hout

/-! ## The final memory -/

def fq (d : Dev nD) (s' : Phys nD τ sig (Elt F)) : Prop :=
  s'.mem.mem (homeLoc d) = m (homeLoc d) ∧ s'.mem.mem (awayLoc d) = m (awayLoc d) ∧ s'.mem.mem (xLoc d) = m (xLoc d)
    ∧ s'.mem.mem (tabLoc d) = m (tabLoc d) ∧ s'.mem.mem (betaLoc d) = m (betaLoc d) ∧ s'.mem.mem (muLoc d) = m (muLoc d)
    ∧ s'.mem.mem (outLoc d) = kernelTerm (m (homeLoc d)) (m (awayLoc d)) (m (xLoc d)) (m (tabLoc d)) (m (betaLoc d)) (m (muLoc d))

omit [FloatOps F] in
/-- An array held whole beside the state interpretation is what the state's memory holds there. -/
theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  unfold FIN
  iintro ⟨⟨H0, H1, H2, H3, H4, H5, H6⟩, HSI⟩
  ihave R := (read_whole (F := F) _ _ s') $$ [H0 HSI]
  · isplitl [H0] <;> iassumption
  icases R with ⟨%h0, HSI⟩
  ihave R := (read_whole (F := F) _ _ s') $$ [H1 HSI]
  · isplitl [H1] <;> iassumption
  icases R with ⟨%h1, HSI⟩
  ihave R := (read_whole (F := F) _ _ s') $$ [H2 HSI]
  · isplitl [H2] <;> iassumption
  icases R with ⟨%h2, HSI⟩
  ihave R := (read_whole (F := F) _ _ s') $$ [H3 HSI]
  · isplitl [H3] <;> iassumption
  icases R with ⟨%h3, HSI⟩
  ihave R := (read_whole (F := F) _ _ s') $$ [H4 HSI]
  · isplitl [H4] <;> iassumption
  icases R with ⟨%h4, HSI⟩
  ihave R := (read_whole (F := F) _ _ s') $$ [H5 HSI]
  · isplitl [H5] <;> iassumption
  icases R with ⟨%h5, HSI⟩
  ihave R := (read_whole (F := F) _ _ s') $$ [H6 HSI]
  · isplitl [H6] <;> iassumption
  icases R with ⟨%h6, -⟩
  ipureintro; exact ⟨h0, h1, h2, h3, h4, h5, h6⟩

/-! ## The program's run -/

/-- Every device's result array holds the program's term of its argument arrays, and those are unchanged. -/
def QC : PUnit × MemSt nD τ sig (Elt F) → Prop := fun r => ∀ c : Dev nD,
  r.2.mem (outLoc c) = kernelTerm (m (homeLoc c)) (m (awayLoc c)) (m (xLoc c)) (m (tabLoc c)) (m (betaLoc c)) (m (muLoc c))
    ∧ r.2.mem (homeLoc c) = m (homeLoc c) ∧ r.2.mem (awayLoc c) = m (awayLoc c) ∧ r.2.mem (xLoc c) = m (xLoc c)
    ∧ r.2.mem (tabLoc c) = m (tabLoc c) ∧ r.2.mem (betaLoc c) = m (betaLoc c) ∧ r.2.mem (muLoc c) = m (muLoc c)

include RK in
theorem run_main [∀ e, Nonempty (Elt F e)] (hidx : TK.Hidx) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P TK) facts v₀
    (fun q hq => match q with | 0 => nomatch hq)
    (fun q _ => match q with | 0 => tileObl TK facts hidx)
    (fun q _ => match q with | 0 => SparseCore.Cfg.VecSplit.of_plain (vecSplit TK))
    m ρ main (G RK) (FIN m) (u₀ RK) (sep_elim_left.trans (hu₀ m TK RK)) (hmain m ρ TK RK) (fq m) (hfin m)
    (QC m) (fun s' h c => ⟨(h c).2.2.2.2.2.2, (h c).1, (h c).2.1, (h c).2.2.1, (h c).2.2.2.1, (h c).2.2.2.2.1, (h c).2.2.2.2.2.1⟩)

end Cert.Proof.KernelIdeal

end
-- ==== Proof.KernelIdeal.Tile.Defs.lean ====
/-
  One vector subcore's task of the SparseCore call: the 512 entries of the batch it owns, what it is handed
  when it is started, and what it hands back when it is done.

  Tile `L = (c, s)` has block number `2 s + c` and owns the entries `[512 (2 s + c), 512 (2 s + c) + 512)` of
  every 16384-entry array, which the program addresses as two consecutive 256-entry rectangles (at the offsets
  `k0_off1 L` and `k0_off2 L`). It reads its entries of the two index arrays, reads the whole table (every tile
  does, all at once: each holds a read share of it), and writes its entries of the result.
-/
import proofs.«203773_g32736240730729_cont_9to1_2154_21_alg».proof.Proof.KernelIdeal.Common

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The tile's place and its entries -/

/-- The two 256-entry rectangles of a 16384-entry array that tile `L` addresses: its first and second half. -/
abbrev R1 (L : grid0.Coords) : Rect S16384 := Rect.unit (s := S16384) (k0_off1 L) S256.size (k0_off1_inb L)
abbrev R2 (L : grid0.Coords) : Rect S16384 := Rect.unit (s := S16384) (k0_off2 L) S256.size (k0_off2_inb L)

/-- The first 256 of the tile's entries, -/
def blk1 (L : grid0.Coords) : Finset S16384.Idx := (R1 L).set
/-- the second 256, -/
def blk2 (L : grid0.Coords) : Finset S16384.Idx := (R2 L).set
/-- and all 512. -/
def blk (L : grid0.Coords) : Finset S16384.Idx := blk1 L ∪ blk2 L

theorem mem_blk1 (L : grid0.Coords) (i : S16384.Idx) :
    i ∈ blk1 L ↔ 1024 * (L 1).val + 512 * (L 0).val ≤ (i 0).val ∧ (i 0).val < 1024 * (L 1).val + 512 * (L 0).val + 256 := by
  unfold blk1
  rw [Rect.mem_set_unit, k0_off1_eq]
  constructor
  · intro h; have := h 0; simpa using this
  · intro h a; obtain rfl : a = 0 := Subsingleton.elim _ _; simpa using h

theorem mem_blk2 (L : grid0.Coords) (i : S16384.Idx) :
    i ∈ blk2 L ↔ 1024 * (L 1).val + 512 * (L 0).val + 256 ≤ (i 0).val ∧ (i 0).val < 1024 * (L 1).val + 512 * (L 0).val + 512 := by
  unfold blk2
  rw [Rect.mem_set_unit, k0_off2_eq]
  constructor
  · intro h; have := h 0; simpa [Nat.add_assoc] using this
  · intro h a; obtain rfl : a = 0 := Subsingleton.elim _ _; simpa [Nat.add_assoc] using h

/-- The tile's entries are the 512 from `512 (2 s + c)` on. -/
theorem mem_blk (L : grid0.Coords) (i : S16384.Idx) :
    i ∈ blk L ↔ 1024 * (L 1).val + 512 * (L 0).val ≤ (i 0).val ∧ (i 0).val < 1024 * (L 1).val + 512 * (L 0).val + 512 := by
  unfold blk
  rw [Finset.mem_union, mem_blk1, mem_blk2]
  omega

theorem blk_disjoint (L : grid0.Coords) : Disjoint (blk1 L) (blk2 L) := by
  rw [Finset.disjoint_left]
  intro i h1 h2
  rw [mem_blk1] at h1
  rw [mem_blk2] at h2
  omega

/-! ## The table's read shares

The TensorCore's full share of the table goes out as read tokens: one per SparseCore, and of that one per vector
subcore. -/

/-- The read share of the table that tile `L` holds during its task. -/
def tabShare (L : grid0.Coords) : PosShare TreeShare :=
  Transfers.shareTokN (Transfers.shareTokN fullShare (L 0).val) (L 1).val

/-! ## What the task is handed and what it hands back -/

variable [FloatOps F] (m : (ℓ : Loc nD τ sig) → Buf (Elt F) ℓ)

/-- Handed to the task on tile `L`: its 512 entries of the two index arrays and its read share of the table, at the
    launch contents, and its 512 entries of the result, at the launch contents. -/
def goRes (d : Dev nD) (L : grid0.Coords) : sProp 𝕄 :=
  iprop((homeLoc d ↦[blk L]{fullShare} m (homeLoc d)) ∗ (awayLoc d ↦[blk L]{fullShare} m (awayLoc d))
    ∗ (tabLoc d ↦{tabShare L} m (tabLoc d)) ∗ (dLoc d ↦[blk L]{fullShare} m (dLoc d)))

/-- Handed back: the same inputs unchanged, and its 512 entries of the result holding the table at the home index
    less the table at the away index — the one function `dSpec` of the launch contents, at those entries. -/
def tdRes (d : Dev nD) (L : grid0.Coords) : sProp 𝕄 :=
  iprop((homeLoc d ↦[blk L]{fullShare} m (homeLoc d)) ∗ (awayLoc d ↦[blk L]{fullShare} m (awayLoc d))
    ∗ (tabLoc d ↦{tabShare L} m (tabLoc d))
    ∗ (dLoc d ↦[blk L]{fullShare} dSpec (m (homeLoc d)) (m (awayLoc d)) (m (tabLoc d))))

end Cert.Proof.KernelIdeal

end
-- ==== Proof.KernelIdeal.Tile.Setup.lean ====
/-
  A vector subcore's task, the set-up: the memrefs the task addresses, and how what the task holds is laid out for
  its run. Each 1024-entry scratch is held as its four 256-entry quarters (the task's copies and gathers each move
  exactly one quarter); the task's entries of the arrays in HBM as the two 256-entry slices it addresses; its ten DMA
  semaphores one by one; its read share of the table as read tokens, one for each of the four gathers that read the
  table at once.
-/
import proofs.«203773_g32736240730729_cont_9to1_2154_21_alg».proof.Proof.KernelIdeal.Tile.Defs
import Idealize.ShloMosaic.Lib.SparseCore.Ops
import Idealize.ShloMosaic.Lib.Pipeline.Kit

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The memrefs the task addresses -/

abbrev hV : Memref sig .scVector .hbm S16384 .i32 := Memref.whole main_arg0_scv
abbrev aV : Memref sig .scVector .hbm S16384 .i32 := Memref.whole main_arg1_scv
abbrev tV : Memref sig .scVector .hbm S100000 .f32 := Memref.whole main_arg3_scv
abbrev oV : Memref sig .scVector .hbm S16384 .f32 := Memref.whole main_v0_scv
abbrev sI : Memref sig .scVector .vmem S1024 .i32 := Memref.whole cc0_scratch0
abbrev sX : Memref sig .scVector .vmem S1024 .f32 := Memref.whole cc0_scratch1

/-- The four quarters of a 1024-entry scratch. -/
abbrev Q0 : Rect S1024 := Rect.unit (s := S1024) ![0] S256.size inb_S1024_S256_0
abbrev Q1 : Rect S1024 := Rect.unit (s := S1024) ![256] S256.size inb_S1024_S256_256
abbrev Q2 : Rect S1024 := Rect.unit (s := S1024) ![512] S256.size inb_S1024_S256_512
abbrev Q3 : Rect S1024 := Rect.unit (s := S1024) ![768] S256.size inb_S1024_S256_768

abbrev sI0 : Memref sig .scVector .vmem S256 .i32 := sI.slice Q0 (fun _ => rfl)
abbrev sI1 : Memref sig .scVector .vmem S256 .i32 := sI.slice Q1 (fun _ => rfl)
abbrev sI2 : Memref sig .scVector .vmem S256 .i32 := sI.slice Q2 (fun _ => rfl)
abbrev sI3 : Memref sig .scVector .vmem S256 .i32 := sI.slice Q3 (fun _ => rfl)
abbrev sX0 : Memref sig .scVector .vmem S256 .f32 := sX.slice Q0 (fun _ => rfl)
abbrev sX1 : Memref sig .scVector .vmem S256 .f32 := sX.slice Q1 (fun _ => rfl)
abbrev sX2 : Memref sig .scVector .vmem S256 .f32 := sX.slice Q2 (fun _ => rfl)
abbrev sX3 : Memref sig .scVector .vmem S256 .f32 := sX.slice Q3 (fun _ => rfl)

abbrev h1 (L : grid0.Coords) : Memref sig .scVector .hbm S256 .i32 := hV.slice (R1 L) (fun _ => rfl)
abbrev h2 (L : grid0.Coords) : Memref sig .scVector .hbm S256 .i32 := hV.slice (R2 L) (fun _ => rfl)
abbrev a1 (L : grid0.Coords) : Memref sig .scVector .hbm S256 .i32 := aV.slice (R1 L) (fun _ => rfl)
abbrev a2 (L : grid0.Coords) : Memref sig .scVector .hbm S256 .i32 := aV.slice (R2 L) (fun _ => rfl)
abbrev o1 (L : grid0.Coords) : Memref sig .scVector .hbm S256 .f32 := oV.slice (R1 L) (fun _ => rfl)
abbrev o2 (L : grid0.Coords) : Memref sig .scVector .hbm S256 .f32 := oV.slice (R2 L) (fun _ => rfl)

/-! ## The quarters of a scratch -/

theorem mem_Q (k : Nat) (inb) (i : S1024.Idx) :
    i ∈ (Rect.unit (s := S1024) ![k] S256.size inb).set ↔ k ≤ (i 0).val ∧ (i 0).val < k + 256 := by
  rw [Rect.mem_set_unit]
  constructor
  · intro h; have := h 0; simpa using this
  · intro h a; obtain rfl : a = 0 := Subsingleton.elim _ _; simpa using h

theorem Q_cover : (Finset.univ : Finset S1024.Idx) = Q0.set ∪ (Q1.set ∪ (Q2.set ∪ Q3.set)) := by
  ext i
  have hi : (i 0).val < 1024 := (i 0).isLt
  simp only [Finset.mem_univ, Finset.mem_union, mem_Q, true_iff]
  omega

theorem Q_disj01 : Disjoint Q0.set (Q1.set ∪ (Q2.set ∪ Q3.set)) := by
  rw [Finset.disjoint_left]; intro i h0 h; simp only [Finset.mem_union, mem_Q] at h0 h; omega
theorem Q_disj12 : Disjoint Q1.set (Q2.set ∪ Q3.set) := by
  rw [Finset.disjoint_left]; intro i h0 h; simp only [Finset.mem_union, mem_Q] at h0 h; omega
theorem Q_disj23 : Disjoint Q2.set Q3.set := by
  rw [Finset.disjoint_left]; intro i h0 h; simp only [mem_Q] at h0 h; omega

section Tile

variable (d : Dev nD) (L : grid0.Coords)

/-- The index scratch whole is its four quarters, each as the slice memref the program names holds it. -/
theorem pts_sI_split (f : Buf (Elt F) ((V d (cV L) (jV L)).loc cc0_scratch0)) :
    ((V d (cV L) (jV L)).loc cc0_scratch0 ↦{fullShare} f : sProp 𝕄)
      ⊣⊢ iprop((sI0.view.loc (V d (cV L) (jV L)) ↦[sI0.view.set]{fullShare} f) ∗ (sI1.view.loc (V d (cV L) (jV L)) ↦[sI1.view.set]{fullShare} f)
          ∗ (sI2.view.loc (V d (cV L) (jV L)) ↦[sI2.view.set]{fullShare} f) ∗ (sI3.view.loc (V d (cV L) (jV L)) ↦[sI3.view.set]{fullShare} f)) := by
  have e0 : sI0.view.set = Q0.set := View.set_slice_whole _ _
  have e1 : sI1.view.set = Q1.set := View.set_slice_whole _ _
  have e2 : sI2.view.set = Q2.set := View.set_slice_whole _ _
  have e3 : sI3.view.set = Q3.set := View.set_slice_whole _ _
  rw [e0, e1, e2, e3]
  have hu : ((V d (cV L) (jV L)).loc cc0_scratch0 ↦{fullShare} f : sProp 𝕄)
      = ((V d (cV L) (jV L)).loc cc0_scratch0 ↦[Q0.set ∪ (Q1.set ∪ (Q2.set ∪ Q3.set))]{fullShare} f) := by rw [← Q_cover]
  rw [hu]
  refine (pointsTo_union Q_disj01).trans (sep_congr_right ((pointsTo_union Q_disj12).trans (sep_congr_right (pointsTo_union Q_disj23))))

/-- The float scratch whole is its four quarters likewise. -/
theorem pts_sX_split (f : Buf (Elt F) ((V d (cV L) (jV L)).loc cc0_scratch1)) :
    ((V d (cV L) (jV L)).loc cc0_scratch1 ↦{fullShare} f : sProp 𝕄)
      ⊣⊢ iprop((sX0.view.loc (V d (cV L) (jV L)) ↦[sX0.view.set]{fullShare} f) ∗ (sX1.view.loc (V d (cV L) (jV L)) ↦[sX1.view.set]{fullShare} f)
          ∗ (sX2.view.loc (V d (cV L) (jV L)) ↦[sX2.view.set]{fullShare} f) ∗ (sX3.view.loc (V d (cV L) (jV L)) ↦[sX3.view.set]{fullShare} f)) := by
  have e0 : sX0.view.set = Q0.set := View.set_slice_whole _ _
  have e1 : sX1.view.set = Q1.set := View.set_slice_whole _ _
  have e2 : sX2.view.set = Q2.set := View.set_slice_whole _ _
  have e3 : sX3.view.set = Q3.set := View.set_slice_whole _ _
  rw [e0, e1, e2, e3]
  have hu : ((V d (cV L) (jV L)).loc cc0_scratch1 ↦{fullShare} f : sProp 𝕄)
      = ((V d (cV L) (jV L)).loc cc0_scratch1 ↦[Q0.set ∪ (Q1.set ∪ (Q2.set ∪ Q3.set))]{fullShare} f) := by rw [← Q_cover]
  rw [hu]
  refine (pointsTo_union Q_disj01).trans (sep_congr_right ((pointsTo_union Q_disj12).trans (sep_congr_right (pointsTo_union Q_disj23))))

/-- The four quarters of the index scratch, at whatever each holds, are the scratch whole at some contents. -/
theorem join_sI (f0 f1 f2 f3 : Buf (Elt F) ((V d (cV L) (jV L)).loc cc0_scratch0)) :
    iprop((sI0.view.loc (V d (cV L) (jV L)) ↦[sI0.view.set]{fullShare} f0) ∗ (sI1.view.loc (V d (cV L) (jV L)) ↦[sI1.view.set]{fullShare} f1)
        ∗ (sI2.view.loc (V d (cV L) (jV L)) ↦[sI2.view.set]{fullShare} f2) ∗ (sI3.view.loc (V d (cV L) (jV L)) ↦[sI3.view.set]{fullShare} f3))
      ⊢ (iprop(∃ f, (V d (cV L) (jV L)).loc cc0_scratch0 ↦{fullShare} f) : sProp 𝕄) := by
  have e0 : sI0.view.set = Q0.set := View.set_slice_whole _ _
  have e1 : sI1.view.set = Q1.set := View.set_slice_whole _ _
  have e2 : sI2.view.set = Q2.set := View.set_slice_whole _ _
  have e3 : sI3.view.set = Q3.set := View.set_slice_whole _ _
  rw [e0, e1, e2, e3]
  refine (sep_mono_right (sep_mono_right (pointsTo_join Q_disj23))).trans ?_
  refine (sep_mono_right (pointsTo_join Q_disj12)).trans ?_
  refine (pointsTo_join Q_disj01).trans ?_
  iintro H
  iexists _
  rw [Q_cover]
  iexact H

/-- The float scratch likewise. -/
theorem join_sX (f0 f1 f2 f3 : Buf (Elt F) ((V d (cV L) (jV L)).loc cc0_scratch1)) :
    iprop((sX0.view.loc (V d (cV L) (jV L)) ↦[sX0.view.set]{fullShare} f0) ∗ (sX1.view.loc (V d (cV L) (jV L)) ↦[sX1.view.set]{fullShare} f1)
        ∗ (sX2.view.loc (V d (cV L) (jV L)) ↦[sX2.view.set]{fullShare} f2) ∗ (sX3.view.loc (V d (cV L) (jV L)) ↦[sX3.view.set]{fullShare} f3))
      ⊢ (iprop(∃ f, (V d (cV L) (jV L)).loc cc0_scratch1 ↦{fullShare} f) : sProp 𝕄) := by
  have e0 : sX0.view.set = Q0.set := View.set_slice_whole _ _
  have e1 : sX1.view.set = Q1.set := View.set_slice_whole _ _
  have e2 : sX2.view.set = Q2.set := View.set_slice_whole _ _
  have e3 : sX3.view.set = Q3.set := View.set_slice_whole _ _
  rw [e0, e1, e2, e3]
  refine (sep_mono_right (sep_mono_right (pointsTo_join Q_disj23))).trans ?_
  refine (sep_mono_right (pointsTo_join Q_disj12)).trans ?_
  refine (pointsTo_join Q_disj01).trans ?_
  iintro H
  iexists _
  rw [Q_cover]
  iexact H

/-! ## The arrays in HBM as the tile's slice memrefs hold them -/

theorem pts_h1 (q : PosShare TreeShare) (f : Buf (Elt F) (homeLoc d)) :
    ((h1 L).view.loc (V d (cV L) (jV L)) ↦[(h1 L).view.set]{q} f : sProp 𝕄) = homeLoc d ↦[blk1 L]{q} f := by
  have e : (h1 L).view.set = blk1 L := View.set_slice_whole _ _
  rw [e]
theorem pts_h2 (q : PosShare TreeShare) (f : Buf (Elt F) (homeLoc d)) :
    ((h2 L).view.loc (V d (cV L) (jV L)) ↦[(h2 L).view.set]{q} f : sProp 𝕄) = homeLoc d ↦[blk2 L]{q} f := by
  have e : (h2 L).view.set = blk2 L := View.set_slice_whole _ _
  rw [e]
theorem pts_a1 (q : PosShare TreeShare) (f : Buf (Elt F) (awayLoc d)) :
    ((a1 L).view.loc (V d (cV L) (jV L)) ↦[(a1 L).view.set]{q} f : sProp 𝕄) = awayLoc d ↦[blk1 L]{q} f := by
  have e : (a1 L).view.set = blk1 L := View.set_slice_whole _ _
  rw [e]
theorem pts_a2 (q : PosShare TreeShare) (f : Buf (Elt F) (awayLoc d)) :
    ((a2 L).view.loc (V d (cV L) (jV L)) ↦[(a2 L).view.set]{q} f : sProp 𝕄) = awayLoc d ↦[blk2 L]{q} f := by
  have e : (a2 L).view.set = blk2 L := View.set_slice_whole _ _
  rw [e]
theorem pts_o1 (q : PosShare TreeShare) (f : Buf (Elt F) (dLoc d)) :
    ((o1 L).view.loc (V d (cV L) (jV L)) ↦[(o1 L).view.set]{q} f : sProp 𝕄) = dLoc d ↦[blk1 L]{q} f := by
  have e : (o1 L).view.set = blk1 L := View.set_slice_whole _ _
  rw [e]
theorem pts_o2 (q : PosShare TreeShare) (f : Buf (Elt F) (dLoc d)) :
    ((o2 L).view.loc (V d (cV L) (jV L)) ↦[(o2 L).view.set]{q} f : sProp 𝕄) = dLoc d ↦[blk2 L]{q} f := by
  have e : (o2 L).view.set = blk2 L := View.set_slice_whole _ _
  rw [e]
theorem pts_t (q : PosShare TreeShare) (f : Buf (Elt F) (tabLoc d)) :
    (tV.view.loc (V d (cV L) (jV L)) ↦{q} f : sProp 𝕄) = tabLoc d ↦{q} f := rfl

/-! ## The tile's own semaphores and buffers -/

/-- The ten DMA semaphores of the task, in the program's order. -/
abbrev semL : List (SemLoc sig) :=
  [.dma cc0_scratch2.sem, .dma cc0_scratch3.sem, .dma cc0_scratch4.sem, .dma cc0_scratch5.sem, .dma cc0_scratch6.sem,
   .dma cc0_scratch7.sem, .dma cc0_scratch8.sem, .dma cc0_scratch9.sem, .dma cc0_scratch10.sem, .dma cc0_scratch11.sem]
theorem semL_nodup : semL.Nodup := by decide
theorem semL_scoped : ∀ sm ∈ semL, (sm : SemLoc sig).isScoped .scVector = true := by decide
abbrev cellL (thr : Thread nD τ) : List (GSem nD τ sig) := semL.map fun sm => (thr, sm)
theorem cellL_nodup (thr : Thread nD τ) : (cellL thr).Nodup :=
  semL_nodup.map fun _ _ h => (Prod.mk.inj h).2
theorem cellL_sub : (cellL (V d (cV L) (jV L))).toFinset ⊆ (ownCells (V d (cV L) (jV L)) : Finset (GSem nD τ sig)) := by
  intro g hg
  rw [List.mem_toFinset, List.mem_map] at hg
  obtain ⟨sm, hsm, rfl⟩ := hg
  exact mem_ownCells.mpr ⟨rfl, semL_scoped sm hsm⟩

theorem ownSems0_V :
    (ownSems0 (V d (cV L) (jV L)) : sProp 𝕄)
      = iprop((semVal (V d (cV L) (jV L), SemLoc.dma cc0_scratch2.sem) 0 ∗ semVal (V d (cV L) (jV L), SemLoc.dma cc0_scratch3.sem) 0
            ∗ semVal (V d (cV L) (jV L), SemLoc.dma cc0_scratch4.sem) 0 ∗ semVal (V d (cV L) (jV L), SemLoc.dma cc0_scratch5.sem) 0
            ∗ semVal (V d (cV L) (jV L), SemLoc.dma cc0_scratch6.sem) 0 ∗ semVal (V d (cV L) (jV L), SemLoc.dma cc0_scratch7.sem) 0
            ∗ semVal (V d (cV L) (jV L), SemLoc.dma cc0_scratch8.sem) 0 ∗ semVal (V d (cV L) (jV L), SemLoc.dma cc0_scratch9.sem) 0
            ∗ semVal (V d (cV L) (jV L), SemLoc.dma cc0_scratch10.sem) 0 ∗ semVal (V d (cV L) (jV L), SemLoc.dma cc0_scratch11.sem) 0)
          ∗ bigSep (ownCells (V d (cV L) (jV L)) \ (cellL (V d (cV L) (jV L))).toFinset) fun g => semVal g 0) := by
  unfold SparseCore.Cfg.ownSems0
  rw [SparseCore.bigSep_sdiff_split' (cellL_sub d L), BI.bigSep_eq_bigSepL _ (cellL_nodup _)]
  rfl

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The table's four read tokens -/

theorem toks_peel {ℓ : Loc nD τ sig} {Sx : Finset (Idx ℓ)} {f : Buf (Elt F) ℓ} (q : PosShare TreeShare) (k : ℕ) :
    BI.bigSep (Finset.range (k + 1)) (fun i => (ℓ ↦[Sx]{Transfers.shareTokN q i} f : sProp 𝕄))
      = iprop((ℓ ↦[Sx]{Transfers.shareTokN q k} f) ∗ BI.bigSep (Finset.range k) (fun i => ℓ ↦[Sx]{Transfers.shareTokN q i} f)) := by
  rw [Finset.range_add_one, BI.bigSep_insert Finset.notMem_range_self]; rfl

/-- A share of an array as eight read tokens and a remainder: tokens 4 to 7 named, the rest kept together. -/
theorem toks8 {ℓ : Loc nD τ sig} {Sx : Finset (Idx ℓ)} {f : Buf (Elt F) ℓ} (q : PosShare TreeShare) :
    (ℓ ↦[Sx]{q} f : sProp 𝕄) ⊣⊢ iprop((ℓ ↦[Sx]{Transfers.shareTokN q 7} f) ∗ (ℓ ↦[Sx]{Transfers.shareTokN q 6} f)
        ∗ (ℓ ↦[Sx]{Transfers.shareTokN q 5} f) ∗ (ℓ ↦[Sx]{Transfers.shareTokN q 4} f)
        ∗ ((ℓ ↦[Sx]{Transfers.shareDrop q 8} f) ∗ BI.bigSep (Finset.range 4) (fun i => ℓ ↦[Sx]{Transfers.shareTokN q i} f))) := by
  refine (Transfers.pointsTo_toks_range q 8).trans ?_
  rw [show (8 : ℕ) = 7 + 1 from rfl, toks_peel, show (7 : ℕ) = 6 + 1 from rfl, toks_peel, show (6 : ℕ) = 5 + 1 from rfl, toks_peel,
    show (5 : ℕ) = 4 + 1 from rfl, toks_peel]
  constructor
  · iintro ⟨Hd, H7, H6, H5, H4, Hr⟩
    isplitl [H7]; · iexact H7
    isplitl [H6]; · iexact H6
    isplitl [H5]; · iexact H5
    isplitl [H4]; · iexact H4
    isplitl [Hd]; · iexact Hd
    iexact Hr
  · iintro ⟨H7, H6, H5, H4, Hd, Hr⟩
    isplitl [Hd]; · iexact Hd
    isplitl [H7]; · iexact H7
    isplitl [H6]; · iexact H6
    isplitl [H5]; · iexact H5
    isplitl [H4]; · iexact H4
    iexact Hr

end Tile

end Cert.Proof.KernelIdeal

end
-- ==== Proof.KernelIdeal.Tile.GatherVal.lean ====
/-
  What one indirect gather of the table delivers: entry `x` of the 256 gathered floats is the table at the index the
  `x`-th offset word names.
-/
import proofs.«203773_g32736240730729_cont_9to1_2154_21_alg».proof.Proof.KernelIdeal.Tile.Defs
import Idealize.ShloMosaic.Lib.SparseCore.Stream

noncomputable section

namespace Cert.Proof.KernelIdeal

open Cert.KernelIdeal Cert.KernelIdeal.Gen
open Idealize.ShloMosaic

/-- The offset list's `k`-th word in row-major order is the word at index `k`: the list has one axis. -/
theorem rowMajor_symm_S256 (x : S256.Idx) (h : S256.numel = S256.size (gathers_S100000_S256 : S100000.Gathers 0 S256).axis') :
    S256.rowMajor.symm ((x (gathers_S100000_S256 : S100000.Gathers 0 S256).axis').cast h.symm) = x := by
  rw [Equiv.symm_apply_eq]
  apply Fin.ext
  rw [Shape.rowMajor_val_one]
  rfl

/-- The gather's payload at entry `x` is the table at the row the `x`-th offset word names. -/
theorem gather_val {F : FTy → Type} (s : S100000.Idx → Elt F .f32) (w : S256.Idx → Elt F .i32)
    (hn : S256.numel = S256.size (gathers_S100000_S256 : S100000.Gathers 0 S256).axis')
    (hin : ∀ x, (w x).toNat < S100000.size (gathers_S100000_S256 : S100000.Gathers 0 S256).axis) (x : S256.Idx) :
    SparseCore.gatherPayload gathers_S100000_S256 s (SparseCore.rows w hn hin) x = s (Cert.Proof.PreFacts.takeIdx (w x)) := by
  unfold SparseCore.gatherPayload
  refine congrArg s (funext fun b => ?_)
  match b with
  | ⟨0, hb⟩ =>
    apply Fin.ext
    have e := Shape.Gathers.idx_axis (gathers_S100000_S256 : S100000.Gathers 0 S256) (SparseCore.rows w hn hin) x
    have e' : ((gathers_S100000_S256 : S100000.Gathers 0 S256).idx (SparseCore.rows w hn hin) x ⟨0, hb⟩).val
        = (SparseCore.rows w hn hin (x (gathers_S100000_S256 : S100000.Gathers 0 S256).axis')).val := congrArg Fin.val e
    rw [e']
    unfold SparseCore.rows
    show (w (S256.rowMajor.symm ((x (gathers_S100000_S256 : S100000.Gathers 0 S256).axis').cast hn.symm))).toNat = _
    rw [rowMajor_symm_S256 x hn]
    exact (Cert.Proof.PreFacts.takeIdx_val (w x) (hin x)).symm

end Cert.Proof.KernelIdeal

end
-- ==== Proof.KernelIdeal.Tile.Value.lean ====
/-
  A vector subcore's task, the values. The float scratch after the gathers holds, quarter by quarter, the table at the
  index words (`gq_val`: what a gather lands); each of the thirty-two 16-lane groups replaces sixteen entries of a
  half by their difference with the entries 512 further on (`Inv`, `Inv_step`: after `K` groups the first `16 K`
  entries of the half hold the differences); a half read back as the quarter the copy-out takes is lane by lane the
  difference of the two gathered rows (`half_val`), and what the copy-out lands in the task's entries of the result is
  the table at the home index less the table at the away index (`out_val1`, `out_val2`).
-/
import proofs.«203773_g32736240730729_cont_9to1_2154_21_alg».proof.Proof.KernelIdeal.Tile.Setup
import proofs.«203773_g32736240730729_cont_9to1_2154_21_alg».proof.Proof.KernelIdeal.Tile.GatherVal
import Idealize.ShloMosaic.Lib.Pipeline.Value

noncomputable section

namespace Cert.Proof.KernelIdeal

open Cert.KernelIdeal Cert.KernelIdeal.Gen
open Idealize.ShloMosaic
open Idealize.ShloMosaic.SparseCore (S V T)
open Idealize.SL Idealize.SL.RA Idealize.SL.BI
open scoped Idealize.SL.BI

variable {F : FTy → Type} [FloatOps F]

/-- The difference of two 16-lane vectors, lane by lane. -/
def sub16 (a b : Vec F S16 .f32) : Vec F S16 .f32 := fun y => FloatOps.subf (a y) (b y)

theorem k0_pay1_eq (a b : Vec F S16 .f32) : k0_pay1 a b = sub16 a b := by
  unfold k0_pay1; simp only [shapeCast_self]; rfl
theorem k0_pay2_eq (a b : Vec F S16 .f32) : k0_pay2 a b = sub16 a b := by
  unfold k0_pay2; simp only [shapeCast_self]; rfl
theorem k0_pay3_eq (a b : Vec F S16 .f32) : k0_pay3 a b = sub16 a b := by
  unfold k0_pay3; simp only [shapeCast_self]; rfl
theorem k0_pay4_eq (a b : Vec F S16 .f32) : k0_pay4 a b = sub16 a b := by
  unfold k0_pay4; simp only [shapeCast_self]; rfl
theorem k0_pay5_eq (a b : Vec F S16 .f32) : k0_pay5 a b = sub16 a b := by
  unfold k0_pay5; simp only [shapeCast_self]; rfl
theorem k0_pay6_eq (a b : Vec F S16 .f32) : k0_pay6 a b = sub16 a b := by
  unfold k0_pay6; simp only [shapeCast_self]; rfl
theorem k0_pay7_eq (a b : Vec F S16 .f32) : k0_pay7 a b = sub16 a b := by
  unfold k0_pay7; simp only [shapeCast_self]; rfl
theorem k0_pay8_eq (a b : Vec F S16 .f32) : k0_pay8 a b = sub16 a b := by
  unfold k0_pay8; simp only [shapeCast_self]; rfl
theorem k0_pay9_eq (a b : Vec F S16 .f32) : k0_pay9 a b = sub16 a b := by
  unfold k0_pay9; simp only [shapeCast_self]; rfl
theorem k0_pay10_eq (a b : Vec F S16 .f32) : k0_pay10 a b = sub16 a b := by
  unfold k0_pay10; simp only [shapeCast_self]; rfl
theorem k0_pay11_eq (a b : Vec F S16 .f32) : k0_pay11 a b = sub16 a b := by
  unfold k0_pay11; simp only [shapeCast_self]; rfl
theorem k0_pay12_eq (a b : Vec F S16 .f32) : k0_pay12 a b = sub16 a b := by
  unfold k0_pay12; simp only [shapeCast_self]; rfl
theorem k0_pay13_eq (a b : Vec F S16 .f32) : k0_pay13 a b = sub16 a b := by
  unfold k0_pay13; simp only [shapeCast_self]; rfl
theorem k0_pay14_eq (a b : Vec F S16 .f32) : k0_pay14 a b = sub16 a b := by
  unfold k0_pay14; simp only [shapeCast_self]; rfl
theorem k0_pay15_eq (a b : Vec F S16 .f32) : k0_pay15 a b = sub16 a b := by
  unfold k0_pay15; simp only [shapeCast_self]; rfl
theorem k0_pay16_eq (a b : Vec F S16 .f32) : k0_pay16 a b = sub16 a b := by
  unfold k0_pay16; simp only [shapeCast_self]; rfl
theorem k0_pay17_eq (a b : Vec F S16 .f32) : k0_pay17 a b = sub16 a b := by
  unfold k0_pay17; simp only [shapeCast_self]; rfl
theorem k0_pay18_eq (a b : Vec F S16 .f32) : k0_pay18 a b = sub16 a b := by
  unfold k0_pay18; simp only [shapeCast_self]; rfl
theorem k0_pay19_eq (a b : Vec F S16 .f32) : k0_pay19 a b = sub16 a b := by
  unfold k0_pay19; simp only [shapeCast_self]; rfl
theorem k0_pay20_eq (a b : Vec F S16 .f32) : k0_pay20 a b = sub16 a b := by
  unfold k0_pay20; simp only [shapeCast_self]; rfl
theorem k0_pay21_eq (a b : Vec F S16 .f32) : k0_pay21 a b = sub16 a b := by
  unfold k0_pay21; simp only [shapeCast_self]; rfl
theorem k0_pay22_eq (a b : Vec F S16 .f32) : k0_pay22 a b = sub16 a b := by
  unfold k0_pay22; simp only [shapeCast_self]; rfl
theorem k0_pay23_eq (a b : Vec F S16 .f32) : k0_pay23 a b = sub16 a b := by
  unfold k0_pay23; simp only [shapeCast_self]; rfl
theorem k0_pay24_eq (a b : Vec F S16 .f32) : k0_pay24 a b = sub16 a b := by
  unfold k0_pay24; simp only [shapeCast_self]; rfl
theorem k0_pay25_eq (a b : Vec F S16 .f32) : k0_pay25 a b = sub16 a b := by
  unfold k0_pay25; simp only [shapeCast_self]; rfl
theorem k0_pay26_eq (a b : Vec F S16 .f32) : k0_pay26 a b = sub16 a b := by
  unfold k0_pay26; simp only [shapeCast_self]; rfl
theorem k0_pay27_eq (a b : Vec F S16 .f32) : k0_pay27 a b = sub16 a b := by
  unfold k0_pay27; simp only [shapeCast_self]; rfl
theorem k0_pay28_eq (a b : Vec F S16 .f32) : k0_pay28 a b = sub16 a b := by
  unfold k0_pay28; simp only [shapeCast_self]; rfl
theorem k0_pay29_eq (a b : Vec F S16 .f32) : k0_pay29 a b = sub16 a b := by
  unfold k0_pay29; simp only [shapeCast_self]; rfl
theorem k0_pay30_eq (a b : Vec F S16 .f32) : k0_pay30 a b = sub16 a b := by
  unfold k0_pay30; simp only [shapeCast_self]; rfl
theorem k0_pay31_eq (a b : Vec F S16 .f32) : k0_pay31 a b = sub16 a b := by
  unfold k0_pay31; simp only [shapeCast_self]; rfl
theorem k0_pay32_eq (a b : Vec F S16 .f32) : k0_pay32 a b = sub16 a b := by
  unfold k0_pay32; simp only [shapeCast_self]; rfl

/-- An index of a 1024-entry scratch from its position. -/
def at1024 (n : ℕ) : S1024.Idx := ValueIdx.ix1 (⟨n % 1024, Nat.mod_lt _ (by decide)⟩ : Fin 1024)

theorem idx1024_ext {i j : S1024.Idx} (h : (i 0).val = (j 0).val) : i = j := by
  funext a; obtain rfl : a = 0 := Subsingleton.elim _ _; exact Fin.ext h

omit [FloatOps F] in
theorem at1024_val (n : ℕ) (h : n < 1024) : ((at1024 n) 0).val = n := Nat.mod_eq_of_lt h

/-- The 16 lanes at offset `o` of a 1024-entry scratch, as an index of the scratch. -/
theorem emb16 (o : ℕ) (inb : ∀ a, (![o] : Fin 1 → ℕ) a + S16.size a ≤ S1024.size a) (y : S16.Idx) :
    (((sX : Memref sig .scVector .vmem S1024 .f32).access (Rect.unit (s := S1024) ![o] S16.size inb)).emb y 0).val = o + (y 0).val := by
  show ((Rect.unit (s := S1024) ![o] S16.size inb).emb y 0).val = _
  rw [Rect.emb_apply]; simp

/-- The float scratch's contents as a function of the position. -/
abbrev XC (F : FTy → Type) : Type := (sX : Memref sig .scVector .vmem S1024 .f32).view.ty.Contents (Elt F)

theorem readAt16 (o : ℕ) (inb : ∀ a, (![o] : Fin 1 → ℕ) a + S16.size a ≤ S1024.size a) (f : XC F) (y : S16.Idx) (ho : o + 16 ≤ 1024) :
    (sX : Memref sig .scVector .vmem S1024 .f32).view.readAt (Elt F) (Rect.unit (s := S1024) ![o] S16.size inb).toLoadRect f y
      = f (at1024 (o + (y 0).val)) := by
  rw [View.readAt_rect, View.read_apply, cast_eq]
  congr 1
  apply idx1024_ext
  have hy : (y 0).val < 16 := (y 0).isLt
  rw [at1024_val _ (by omega)]
  exact emb16 o inb y

/-- After `K` of the sixteen 16-lane groups of a 256-entry half starting at `B`: the first `16 K` entries hold the
    differences, the others still the gathered rows. `G` is the scratch after the gathers, `G'` its other operand. -/
def Inv (B K : ℕ) (G G' f : XC F) : Prop :=
  ∀ i : S1024.Idx, B ≤ (i 0).val → (i 0).val < B + 256 →
    f i = if (i 0).val < B + 16 * K then FloatOps.subf (G i) (G' (at1024 ((i 0).val + 512))) else G i

theorem Inv_zero (B : ℕ) (G G' : XC F) : Inv B 0 G G' G := fun i _ _ => by
  rw [if_neg (by omega)]

theorem Inv_step {B K : ℕ} {G G' f : XC F} (h : Inv B K G G' f) (hK : K < 16) (hB : B + 256 ≤ 512) (o o' : ℕ) (ho : o = B + 16 * K) (ho' : o' = o + 512)
    (inb : ∀ a, (![o] : Fin 1 → ℕ) a + S16.size a ≤ S1024.size a) (inb' : ∀ a, (![o'] : Fin 1 → ℕ) a + S16.size a ≤ S1024.size a)
    (w : Vec F S16 .f32)
    (hw : w = sub16 ((sX : Memref sig .scVector .vmem S1024 .f32).view.readAt (Elt F) (Rect.unit (s := S1024) ![o] S16.size inb).toLoadRect f)
                    ((sX : Memref sig .scVector .vmem S1024 .f32).view.readAt (Elt F) (Rect.unit (s := S1024) ![o'] S16.size inb').toLoadRect G')) :
    Inv B (K + 1) G G' (View.write (Elt F) ((sX : Memref sig .scVector .vmem S1024 .f32).access (Rect.unit (s := S1024) ![o] S16.size inb)) f w Finset.univ) := by
  intro i hi1 hi2
  by_cases hin : o ≤ (i 0).val ∧ (i 0).val < o + 16
  · -- a lane of this group
    let y : S16.Idx := ValueIdx.ix1 (⟨(i 0).val - o, by show _ < 16; omega⟩ : Fin 16)
    have hy : (y 0).val = (i 0).val - o := rfl
    have hi : ((sX : Memref sig .scVector .vmem S1024 .f32).access (Rect.unit (s := S1024) ![o] S16.size inb)).emb y = i :=
      idx1024_ext (by rw [emb16, hy]; omega)
    rw [← hi, View.write_emb_of_mem _ _ (Finset.mem_univ y), cast_eq, hi, hw]
    show FloatOps.subf _ _ = _
    rw [readAt16 o inb f y (by omega), readAt16 o' inb' G' y (by omega), if_pos (by omega)]
    have e1 : at1024 (o + (y 0).val) = i := idx1024_ext (by rw [at1024_val _ (by omega), hy]; omega)
    have e2 : at1024 (o' + (y 0).val) = at1024 ((i 0).val + 512) := by rw [hy]; congr 1; omega
    rw [e1, e2, h i hi1 hi2, if_neg (by omega)]
  · -- elsewhere
    have hni : i ∉ ((sX : Memref sig .scVector .vmem S1024 .f32).access (Rect.unit (s := S1024) ![o] S16.size inb)).setOn Finset.univ := by
      intro hm
      rw [View.setOn_univ] at hm
      obtain ⟨y, -, rfl⟩ := Finset.mem_map.mp hm
      have hy : (y 0).val < 16 := (y 0).isLt
      apply hin
      rw [emb16]; omega
    rw [View.write_of_not_mem _ _ _ hni, h i hi1 hi2]
    by_cases hlt : (i 0).val < B + 16 * K
    · rw [if_pos hlt, if_pos (by omega)]
    · rw [if_neg hlt, if_neg (by omega)]

/-! ## Reading a quarter of the scratch, and a quarter a gather filled -/

omit [FloatOps F] in
theorem embQ (o : ℕ) (inb : ∀ a, (![o] : Fin 1 → ℕ) a + S256.size a ≤ S1024.size a) (y : S256.Idx) :
    (((sX : Memref sig .scVector .vmem S1024 .f32).slice (Rect.unit (s := S1024) ![o] S256.size inb) (fun _ => rfl)).view.emb y 0).val = o + (y 0).val := by
  show ((Rect.unit (s := S1024) ![o] S256.size inb).emb y 0).val = _
  rw [Rect.emb_apply]; simp

omit [FloatOps F] in
theorem readQ (o : ℕ) (inb : ∀ a, (![o] : Fin 1 → ℕ) a + S256.size a ≤ S1024.size a) (ho : o + 256 ≤ 1024) (f : XC F) (y : S256.Idx) :
    ((sX : Memref sig .scVector .vmem S1024 .f32).slice (Rect.unit (s := S1024) ![o] S256.size inb) (fun _ => rfl)).view.read (Elt F) f y
      = f (at1024 (o + (y 0).val)) := by
  rw [View.read_apply, cast_eq]
  congr 1
  apply idx1024_ext
  have hy : (y 0).val < 256 := (y 0).isLt
  rw [at1024_val _ (by omega)]
  exact embQ o inb y

omit [FloatOps F] in
/-- A quarter written whole reads back what was written. -/
theorem read_whole_write {κ : Kind} {sp : Space} {e : EltTy} (v : View sig κ sp S256 e) (g : v.ty.Contents (Elt F)) (w : S256.Idx → Elt F e) :
    v.read (Elt F) (v.writes (Elt F) g [⟨Rect.whole S256, w⟩]) = w := by
  funext x
  have h := View.read_writes_cons_emb v g (Rect.whole S256) w [] x
  rwa [Rect.emb_whole_apply] at h

omit [FloatOps F] in
theorem filledQ (o : ℕ) (inb : ∀ a, (![o] : Fin 1 → ℕ) a + S256.size a ≤ S1024.size a) (ho : o + 256 ≤ 1024) (g : XC F) (w : S256.Idx → Elt F .f32) (y : S256.Idx) :
    (((sX : Memref sig .scVector .vmem S1024 .f32).slice (Rect.unit (s := S1024) ![o] S256.size inb) (fun _ => rfl)).view.writes (Elt F) g [⟨Rect.whole S256, w⟩])
        (at1024 (o + (y 0).val)) = w y := by
  have h := congrFun (read_whole_write (F := F) ((sX : Memref sig .scVector .vmem S1024 .f32).slice (Rect.unit (s := S1024) ![o] S256.size inb) (fun _ => rfl)).view g w) y
  rwa [readQ o inb ho] at h

/-- A half of the scratch after its sixteen groups, read as the quarter the copy-out takes: lane by lane the difference of the two gathered rows. -/
theorem half_val (B : ℕ) (hB : B + 256 ≤ 512) (inb : ∀ a, (![B] : Fin 1 → ℕ) a + S256.size a ≤ S1024.size a)
    (inb' : ∀ a, (![B + 512] : Fin 1 → ℕ) a + S256.size a ≤ S1024.size a) (g g' f : XC F) (ga gb : S256.Idx → Elt F .f32)
    (h : Inv B 16
      (((sX : Memref sig .scVector .vmem S1024 .f32).slice (Rect.unit (s := S1024) ![B] S256.size inb) (fun _ => rfl)).view.writes (Elt F) g [⟨Rect.whole S256, ga⟩])
      (((sX : Memref sig .scVector .vmem S1024 .f32).slice (Rect.unit (s := S1024) ![B + 512] S256.size inb') (fun _ => rfl)).view.writes (Elt F) g' [⟨Rect.whole S256, gb⟩]) f)
    (y : S256.Idx) :
    ((sX : Memref sig .scVector .vmem S1024 .f32).slice (Rect.unit (s := S1024) ![B] S256.size inb) (fun _ => rfl)).view.read (Elt F) f y
      = FloatOps.subf (ga y) (gb y) := by
  have hy : (y 0).val < 256 := (y 0).isLt
  rw [readQ B inb (by omega), h _ (by rw [at1024_val _ (by omega)]; omega) (by rw [at1024_val _ (by omega)]; omega), if_pos (by rw [at1024_val _ (by omega)]; omega),
    filledQ B inb (by omega), at1024_val _ (by omega), show B + (y 0).val + 512 = B + 512 + (y 0).val by omega, filledQ (B + 512) inb' (by omega)]

/-! ## What a gather lands -/

omit [FloatOps F] in
theorem gather_val' (s : S100000.Idx → Elt F .f32) (w w' : S256.Idx → Elt F .i32) (e : w' = w)
    (hn : S256.numel = S256.size (gathers_S100000_S256 : S100000.Gathers 0 S256).axis')
    (hin : ∀ x, (w' x).toNat < S100000.size (gathers_S100000_S256 : S100000.Gathers 0 S256).axis) (x : S256.Idx) :
    SparseCore.gatherPayload gathers_S100000_S256 s (SparseCore.rows w' hn hin) x = s (Cert.Proof.PreFacts.takeIdx (w x)) := by
  subst e; exact gather_val s w' hn hin x

variable (m : (ℓ : Loc nD τ sig) → Buf (Elt F) ℓ) (d : Dev nD)

omit [FloatOps F] in
/-- The gather through a quarter of the index scratch that a copy filled with the words `wI`: lane `y` is the table at the index word `wI y` names. -/
theorem gq_val (inbT : ∀ a, (![0] : Fin 1 → ℕ) a + S100000.size a ≤ S100000.size a) (o : ℕ) (inbI : ∀ a, (![o] : Fin 1 → ℕ) a + S256.size a ≤ S1024.size a)
    (g : (sI : Memref sig .scVector .vmem S1024 .i32).view.ty.Contents (Elt F)) (wI : S256.Idx → Elt F .i32)
    (hn : S256.numel = S256.size (gathers_S100000_S256 : S100000.Gathers 0 S256).axis')
    (hin : ∀ x, (((sI : Memref sig .scVector .vmem S1024 .i32).slice (Rect.unit (s := S1024) ![o] S256.size inbI) (fun _ => rfl)).view.read (Elt F)
      (((sI : Memref sig .scVector .vmem S1024 .i32).slice (Rect.unit (s := S1024) ![o] S256.size inbI) (fun _ => rfl)).view.writes (Elt F) g [⟨Rect.whole S256, wI⟩]) x).toNat
        < S100000.size (gathers_S100000_S256 : S100000.Gathers 0 S256).axis) (y : S256.Idx) :
    SparseCore.gatherPayload gathers_S100000_S256
        (((tV : Memref sig .scVector .hbm S100000 .f32).slice (Rect.unit (s := S100000) ![0] S100000.size inbT) (fun _ => rfl)).view.read (Elt F) (m (tabLoc d)))
        (SparseCore.rows (((sI : Memref sig .scVector .vmem S1024 .i32).slice (Rect.unit (s := S1024) ![o] S256.size inbI) (fun _ => rfl)).view.read (Elt F)
          (((sI : Memref sig .scVector .vmem S1024 .i32).slice (Rect.unit (s := S1024) ![o] S256.size inbI) (fun _ => rfl)).view.writes (Elt F) g [⟨Rect.whole S256, wI⟩])) hn hin) y
      = m (tabLoc d) (Cert.Proof.PreFacts.takeIdx (wI y)) := by
  have eT : ((tV : Memref sig .scVector .hbm S100000 .f32).slice (Rect.unit (s := S100000) ![0] S100000.size inbT) (fun _ => rfl)).view.read (Elt F) (m (tabLoc d)) = m (tabLoc d) :=
    Memref.read_access_unit_zero (Elt F) (main_arg3_scv : Ref sig .scVector) (off := ![0]) (by funext a; obtain rfl : a = 0 := Subsingleton.elim _ _; rfl) inbT (m (tabLoc d))
  rw [eT]
  exact gather_val' (m (tabLoc d)) wI
    (((sI : Memref sig .scVector .vmem S1024 .i32).slice (Rect.unit (s := S1024) ![o] S256.size inbI) (fun _ => rfl)).view.read (Elt F)
      (((sI : Memref sig .scVector .vmem S1024 .i32).slice (Rect.unit (s := S1024) ![o] S256.size inbI) (fun _ => rfl)).view.writes (Elt F) g [⟨Rect.whole S256, wI⟩]))
    (read_whole_write (F := F) ((sI : Memref sig .scVector .vmem S1024 .i32).slice (Rect.unit (s := S1024) ![o] S256.size inbI) (fun _ => rfl)).view g wI) hn hin y

/-! ## The task's entries of the arrays in HBM -/

variable (L : grid0.Coords)

omit [FloatOps F] in
theorem read_h1 (y : S256.Idx) : (h1 L).view.read (Elt F) (m (homeLoc d)) y = m (homeLoc d) ((R1 L).emb y) := by
  rw [View.read_apply, cast_eq]; rfl
omit [FloatOps F] in
theorem read_h2 (y : S256.Idx) : (h2 L).view.read (Elt F) (m (homeLoc d)) y = m (homeLoc d) ((R2 L).emb y) := by
  rw [View.read_apply, cast_eq]; rfl
omit [FloatOps F] in
theorem read_a1 (y : S256.Idx) : (a1 L).view.read (Elt F) (m (awayLoc d)) y = m (awayLoc d) ((R1 L).emb y) := by
  rw [View.read_apply, cast_eq]; rfl
omit [FloatOps F] in
theorem read_a2 (y : S256.Idx) : (a2 L).view.read (Elt F) (m (awayLoc d)) y = m (awayLoc d) ((R2 L).emb y) := by
  rw [View.read_apply, cast_eq]; rfl

/-- What the first copy-out lands: the 256 lanes `W`, each the result's entry there. -/
theorem out_val1 (W : S256.Idx → Elt F .f32)
    (hW : ∀ y, W y = dSpec (m (homeLoc d)) (m (awayLoc d)) (m (tabLoc d)) ((R1 L).emb y)) :
    ∀ i ∈ blk1 L, ((o1 L).view.writes (Elt F) (m (dLoc d)) [⟨Rect.whole S256, W⟩]) i = dSpec (m (homeLoc d)) (m (awayLoc d)) (m (tabLoc d)) i := by
  intro i hi
  obtain ⟨y, rfl⟩ := (R1 L).exists_idx_of_mem hi
  have h := congrFun (read_whole_write (F := F) (o1 L).view (m (dLoc d)) W) y
  rw [View.read_apply, cast_eq] at h
  exact h.trans (hW y)

/-- The second likewise. -/
theorem out_val2 (W : S256.Idx → Elt F .f32)
    (hW : ∀ y, W y = dSpec (m (homeLoc d)) (m (awayLoc d)) (m (tabLoc d)) ((R2 L).emb y)) :
    ∀ i ∈ blk2 L, ((o2 L).view.writes (Elt F) (m (dLoc d)) [⟨Rect.whole S256, W⟩]) i = dSpec (m (homeLoc d)) (m (awayLoc d)) (m (tabLoc d)) i := by
  intro i hi
  obtain ⟨y, rfl⟩ := (R2 L).exists_idx_of_mem hi
  have h := congrFun (read_whole_write (F := F) (o2 L).view (m (dLoc d)) W) y
  rw [View.read_apply, cast_eq] at h
  exact h.trans (hW y)

omit [FloatOps F] in
/-- The index words a copy landed in a quarter of the index scratch are in range when the words copied are. -/
theorem hin_of {κ : Kind} {sp : Space} (v : View sig κ sp S256 .i32) (g : v.ty.Contents (Elt F)) (w : S256.Idx → Elt F .i32)
    (hw : ∀ x, (w x).toNat < 100000) : ∀ x, (v.read (Elt F) (v.writes (Elt F) g [⟨Rect.whole S256, w⟩]) x).toNat < 100000 := by
  intro x; rw [read_whole_write]; exact hw x

omit [FloatOps F] in
theorem hw_h1 (hidx : ∀ d j, (m (homeLoc d) j).toNat < 100000 ∧ (m (awayLoc d) j).toNat < 100000) :
    ∀ x, ((h1 L).view.read (Elt F) (m (homeLoc d)) x).toNat < 100000 := fun x => by
  rw [read_h1]; exact (hidx d _).1
omit [FloatOps F] in
theorem hw_h2 (hidx : ∀ d j, (m (homeLoc d) j).toNat < 100000 ∧ (m (awayLoc d) j).toNat < 100000) :
    ∀ x, ((h2 L).view.read (Elt F) (m (homeLoc d)) x).toNat < 100000 := fun x => by
  rw [read_h2]; exact (hidx d _).1
omit [FloatOps F] in
theorem hw_a1 (hidx : ∀ d j, (m (homeLoc d) j).toNat < 100000 ∧ (m (awayLoc d) j).toNat < 100000) :
    ∀ x, ((a1 L).view.read (Elt F) (m (awayLoc d)) x).toNat < 100000 := fun x => by
  rw [read_a1]; exact (hidx d _).2
omit [FloatOps F] in
theorem hw_a2 (hidx : ∀ d j, (m (homeLoc d) j).toNat < 100000 ∧ (m (awayLoc d) j).toNat < 100000) :
    ∀ x, ((a2 L).view.read (Elt F) (m (awayLoc d)) x).toNat < 100000 := fun x => by
  rw [read_a2]; exact (hidx d _).2

end Cert.Proof.KernelIdeal

end
-- ==== Proof.KernelIdeal.Tile.lean ====
/-
  A vector subcore's task of the SparseCore call, run once at a symbolic tile: from its 512 entries of the two index
  arrays, its read share of the table and its 512 entries of the result, the task copies its index words into its
  index scratch, gathers the table at them into its float scratch, subtracts the away rows from the home rows sixteen
  lanes at a time, and copies the two 256-entry halves out; it hands back the inputs unchanged and its entries of the
  result holding the table at the home index less the table at the away index.
-/
import proofs.«203773_g32736240730729_cont_9to1_2154_21_alg».proof.Proof.KernelIdeal.Tile.Setup
import proofs.«203773_g32736240730729_cont_9to1_2154_21_alg».proof.Proof.KernelIdeal.Tile.Value
import Idealize.ShloMosaic.Lib.Tactic

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ) (d : Dev nD) (L : grid0.Coords)

/-- The task on the vector subcore at grid coordinates `L` of device `d`. -/
theorem tile_body (hF : (K (F := F)).Facts) (hidx : ∀ d j, (m (homeLoc d) j).toNat < 100000 ∧ (m (awayLoc d) j).toNat < 100000)
    (O : CellTallies nD τ sig (HIx 1)) (W : Waits sig (HIx 1)) (hO : ∀ g, O g none = 0) :
    iprop(levAts (K (F := F)).L (K (F := F)).lev ∗ emp ∗ goRes m d L ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L (Memref.whole main_arg0_scv) (Memref.isWhole_whole _) (Memref.whole main_arg1_scv) (Memref.isWhole_whole _) (Memref.whole main_arg3_scv) (Memref.isWhole_whole _) (Memref.whole main_v0_scv) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11)
          fun _ => iprop(tdRes m d L ∗ scopedBufs (V d (cV L) (jV L)) ∗ scopedSems0 (V d (cV L) (jV L)) ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold goRes blk
  iintro ⟨#Hlv, -, ⟨Hh, Ha, Ht, Ho⟩, ⟨⟨%fi, Hi⟩, ⟨%fx, Hx⟩, Hbufs⟩, ⟨⟨Hs2, Hs3, Hs4, Hs5, Hs6, Hs7, Hs8, Hs9, Hs10, Hs11⟩, Hsems⟩, HO⟩
  ihave Hmw := ((K (F := F)).mayWaits_none (thr := V d (cV L) (jV L)) hO) $$ Hlv
  -- the arrays in HBM as the two slices the task addresses
  ihave Hh' := (pointsTo_union (blk_disjoint L)).1 $$ Hh
  icases Hh' with ⟨Hh1, Hh2⟩
  ihave Ha' := (pointsTo_union (blk_disjoint L)).1 $$ Ha
  icases Ha' with ⟨Ha1, Ha2⟩
  ihave Ho' := (pointsTo_union (blk_disjoint L)).1 $$ Ho
  icases Ho' with ⟨Ho1, Ho2⟩
  ihave Hh1 := (Entails.of_eq (pts_h1 (F := F) d L _ _).symm) $$ Hh1
  ihave Hh2 := (Entails.of_eq (pts_h2 (F := F) d L _ _).symm) $$ Hh2
  ihave Ha1 := (Entails.of_eq (pts_a1 (F := F) d L _ _).symm) $$ Ha1
  ihave Ha2 := (Entails.of_eq (pts_a2 (F := F) d L _ _).symm) $$ Ha2
  ihave Ho1 := (Entails.of_eq (pts_o1 (F := F) d L _ _).symm) $$ Ho1
  ihave Ho2 := (Entails.of_eq (pts_o2 (F := F) d L _ _).symm) $$ Ho2
  -- the table's read tokens, one for each gather
  ihave Ht' := (toks8 (F := F) (tabShare L)).1 $$ Ht
  icases Ht' with ⟨Ht7, Ht6, Ht5, Ht4, Htr⟩
  ihave Ht4 := (Entails.of_eq (pts_t (F := F) d L _ _).symm) $$ Ht4
  ihave Ht5 := (Entails.of_eq (pts_t (F := F) d L _ _).symm) $$ Ht5
  ihave Ht6 := (Entails.of_eq (pts_t (F := F) d L _ _).symm) $$ Ht6
  ihave Ht7 := (Entails.of_eq (pts_t (F := F) d L _ _).symm) $$ Ht7
  -- the scratches' quarters
  ihave Hi' := (pts_sI_split (F := F) d L fi).1 $$ Hi
  icases Hi' with ⟨Hi0, Hi1, Hi2, Hi3⟩
  ihave Hx' := (pts_sX_split (F := F) d L fx).1 $$ Hx
  icases Hx' with ⟨Hx0, Hx1, Hx2, Hx3⟩
  -- the index words each gather reads are in range
  have hin0 := fun g => hin_of (F := F) sI0.view g _ (hw_h1 m d L hidx)
  have hin1 := fun g => hin_of (F := F) sI1.view g _ (hw_h2 m d L hidx)
  have hin2 := fun g => hin_of (F := F) sI2.view g _ (hw_a1 m d L hidx)
  have hin3 := fun g => hin_of (F := F) sI3.view g _ (hw_a2 m d L hidx)
  sl_exec_parts
  -- the values: the first half of the float scratch, group by group
  let GA : XC F := sX0.view.writes (Elt F) sX0.view.junk [⟨Rect.whole S256, tile_body.sl.gather4 m d L hin0⟩]
  let GA' : XC F := sX2.view.writes (Elt F) sX2.view.junk [⟨Rect.whole S256, tile_body.sl.gather5 m d L hin2⟩]
  have a0 : Inv 0 0 GA GA' GA := Inv_zero 0 GA GA'
  have a1 : Inv 0 1 GA GA' (tile_body.sl.Hx0_w1 m d L hin0 hin2) :=
    Inv_step a0 (by omega) (by omega) 0 512 rfl rfl _ _ _ (k0_pay1_eq _ _)
  have a2 : Inv 0 2 GA GA' (tile_body.sl.Hx0_w2 m d L hin0 hin2) :=
    Inv_step a1 (by omega) (by omega) 16 528 rfl rfl _ _ _ (k0_pay2_eq _ _)
  have a3 : Inv 0 3 GA GA' (tile_body.sl.Hx0_w3 m d L hin0 hin2) :=
    Inv_step a2 (by omega) (by omega) 32 544 rfl rfl _ _ _ (k0_pay3_eq _ _)
  have a4 : Inv 0 4 GA GA' (tile_body.sl.Hx0_w4 m d L hin0 hin2) :=
    Inv_step a3 (by omega) (by omega) 48 560 rfl rfl _ _ _ (k0_pay4_eq _ _)
  have a5 : Inv 0 5 GA GA' (tile_body.sl.Hx0_w5 m d L hin0 hin2) :=
    Inv_step a4 (by omega) (by omega) 64 576 rfl rfl _ _ _ (k0_pay5_eq _ _)
  have a6 : Inv 0 6 GA GA' (tile_body.sl.Hx0_w6 m d L hin0 hin2) :=
    Inv_step a5 (by omega) (by omega) 80 592 rfl rfl _ _ _ (k0_pay6_eq _ _)
  have a7 : Inv 0 7 GA GA' (tile_body.sl.Hx0_w7 m d L hin0 hin2) :=
    Inv_step a6 (by omega) (by omega) 96 608 rfl rfl _ _ _ (k0_pay7_eq _ _)
  have a8 : Inv 0 8 GA GA' (tile_body.sl.Hx0_w8 m d L hin0 hin2) :=
    Inv_step a7 (by omega) (by omega) 112 624 rfl rfl _ _ _ (k0_pay8_eq _ _)
  have a9 : Inv 0 9 GA GA' (tile_body.sl.Hx0_w9 m d L hin0 hin2) :=
    Inv_step a8 (by omega) (by omega) 128 640 rfl rfl _ _ _ (k0_pay9_eq _ _)
  have a10 : Inv 0 10 GA GA' (tile_body.sl.Hx0_w10 m d L hin0 hin2) :=
    Inv_step a9 (by omega) (by omega) 144 656 rfl rfl _ _ _ (k0_pay10_eq _ _)
  have a11 : Inv 0 11 GA GA' (tile_body.sl.Hx0_w11 m d L hin0 hin2) :=
    Inv_step a10 (by omega) (by omega) 160 672 rfl rfl _ _ _ (k0_pay11_eq _ _)
  have a12 : Inv 0 12 GA GA' (tile_body.sl.Hx0_w12 m d L hin0 hin2) :=
    Inv_step a11 (by omega) (by omega) 176 688 rfl rfl _ _ _ (k0_pay12_eq _ _)
  have a13 : Inv 0 13 GA GA' (tile_body.sl.Hx0_w13 m d L hin0 hin2) :=
    Inv_step a12 (by omega) (by omega) 192 704 rfl rfl _ _ _ (k0_pay13_eq _ _)
  have a14 : Inv 0 14 GA GA' (tile_body.sl.Hx0_w14 m d L hin0 hin2) :=
    Inv_step a13 (by omega) (by omega) 208 720 rfl rfl _ _ _ (k0_pay14_eq _ _)
  have a15 : Inv 0 15 GA GA' (tile_body.sl.Hx0_w15 m d L hin0 hin2) :=
    Inv_step a14 (by omega) (by omega) 224 736 rfl rfl _ _ _ (k0_pay15_eq _ _)
  have a16 : Inv 0 16 GA GA' (tile_body.sl.Hx0_w16 m d L hin0 hin2) :=
    Inv_step a15 (by omega) (by omega) 240 752 rfl rfl _ _ _ (k0_pay16_eq _ _)
  -- the second half
  let GB : XC F := sX1.view.writes (Elt F) sX1.view.junk [⟨Rect.whole S256, tile_body.sl.gather6 m d L hin1⟩]
  let GB' : XC F := sX3.view.writes (Elt F) sX3.view.junk [⟨Rect.whole S256, tile_body.sl.gather7 m d L hin3⟩]
  have b0 : Inv 256 0 GB GB' GB := Inv_zero 256 GB GB'
  have b1 : Inv 256 1 GB GB' (tile_body.sl.Hx1_w17 m d L hin1 hin3) :=
    Inv_step b0 (by omega) (by omega) 256 768 rfl rfl _ _ _ (k0_pay17_eq _ _)
  have b2 : Inv 256 2 GB GB' (tile_body.sl.Hx1_w18 m d L hin1 hin3) :=
    Inv_step b1 (by omega) (by omega) 272 784 rfl rfl _ _ _ (k0_pay18_eq _ _)
  have b3 : Inv 256 3 GB GB' (tile_body.sl.Hx1_w19 m d L hin1 hin3) :=
    Inv_step b2 (by omega) (by omega) 288 800 rfl rfl _ _ _ (k0_pay19_eq _ _)
  have b4 : Inv 256 4 GB GB' (tile_body.sl.Hx1_w20 m d L hin1 hin3) :=
    Inv_step b3 (by omega) (by omega) 304 816 rfl rfl _ _ _ (k0_pay20_eq _ _)
  have b5 : Inv 256 5 GB GB' (tile_body.sl.Hx1_w21 m d L hin1 hin3) :=
    Inv_step b4 (by omega) (by omega) 320 832 rfl rfl _ _ _ (k0_pay21_eq _ _)
  have b6 : Inv 256 6 GB GB' (tile_body.sl.Hx1_w22 m d L hin1 hin3) :=
    Inv_step b5 (by omega) (by omega) 336 848 rfl rfl _ _ _ (k0_pay22_eq _ _)
  have b7 : Inv 256 7 GB GB' (tile_body.sl.Hx1_w23 m d L hin1 hin3) :=
    Inv_step b6 (by omega) (by omega) 352 864 rfl rfl _ _ _ (k0_pay23_eq _ _)
  have b8 : Inv 256 8 GB GB' (tile_body.sl.Hx1_w24 m d L hin1 hin3) :=
    Inv_step b7 (by omega) (by omega) 368 880 rfl rfl _ _ _ (k0_pay24_eq _ _)
  have b9 : Inv 256 9 GB GB' (tile_body.sl.Hx1_w25 m d L hin1 hin3) :=
    Inv_step b8 (by omega) (by omega) 384 896 rfl rfl _ _ _ (k0_pay25_eq _ _)
  have b10 : Inv 256 10 GB GB' (tile_body.sl.Hx1_w26 m d L hin1 hin3) :=
    Inv_step b9 (by omega) (by omega) 400 912 rfl rfl _ _ _ (k0_pay26_eq _ _)
  have b11 : Inv 256 11 GB GB' (tile_body.sl.Hx1_w27 m d L hin1 hin3) :=
    Inv_step b10 (by omega) (by omega) 416 928 rfl rfl _ _ _ (k0_pay27_eq _ _)
  have b12 : Inv 256 12 GB GB' (tile_body.sl.Hx1_w28 m d L hin1 hin3) :=
    Inv_step b11 (by omega) (by omega) 432 944 rfl rfl _ _ _ (k0_pay28_eq _ _)
  have b13 : Inv 256 13 GB GB' (tile_body.sl.Hx1_w29 m d L hin1 hin3) :=
    Inv_step b12 (by omega) (by omega) 448 960 rfl rfl _ _ _ (k0_pay29_eq _ _)
  have b14 : Inv 256 14 GB GB' (tile_body.sl.Hx1_w30 m d L hin1 hin3) :=
    Inv_step b13 (by omega) (by omega) 464 976 rfl rfl _ _ _ (k0_pay30_eq _ _)
  have b15 : Inv 256 15 GB GB' (tile_body.sl.Hx1_w31 m d L hin1 hin3) :=
    Inv_step b14 (by omega) (by omega) 480 992 rfl rfl _ _ _ (k0_pay31_eq _ _)
  have b16 : Inv 256 16 GB GB' (tile_body.sl.Hx1_w32 m d L hin1 hin3) :=
    Inv_step b15 (by omega) (by omega) 496 1008 rfl rfl _ _ _ (k0_pay32_eq _ _)
  -- what each gather landed: the table at the index words of the task's entries
  have g4 : ∀ y, tile_body.sl.gather4 m d L hin0 y = m (tabLoc d) (Cert.Proof.PreFacts.takeIdx (m (homeLoc d) ((R1 L).emb y))) := fun y =>
    (gq_val m d _ 0 _ _ _ _ _ y).trans (congrArg (fun w => m (tabLoc d) (Cert.Proof.PreFacts.takeIdx w)) (read_h1 m d L y))
  have g5 : ∀ y, tile_body.sl.gather5 m d L hin2 y = m (tabLoc d) (Cert.Proof.PreFacts.takeIdx (m (awayLoc d) ((R1 L).emb y))) := fun y =>
    (gq_val m d _ 512 _ _ _ _ _ y).trans (congrArg (fun w => m (tabLoc d) (Cert.Proof.PreFacts.takeIdx w)) (read_a1 m d L y))
  have g6 : ∀ y, tile_body.sl.gather6 m d L hin1 y = m (tabLoc d) (Cert.Proof.PreFacts.takeIdx (m (homeLoc d) ((R2 L).emb y))) := fun y =>
    (gq_val m d _ 256 _ _ _ _ _ y).trans (congrArg (fun w => m (tabLoc d) (Cert.Proof.PreFacts.takeIdx w)) (read_h2 m d L y))
  have g7 : ∀ y, tile_body.sl.gather7 m d L hin3 y = m (tabLoc d) (Cert.Proof.PreFacts.takeIdx (m (awayLoc d) ((R2 L).emb y))) := fun y =>
    (gq_val m d _ 768 _ _ _ _ _ y).trans (congrArg (fun w => m (tabLoc d) (Cert.Proof.PreFacts.takeIdx w)) (read_a2 m d L y))
  -- what each copy out carries: the result at the task's entries
  have hW1 : ∀ y, tile_body.sl.dma64 m d L hin0 hin2 y = dSpec (m (homeLoc d)) (m (awayLoc d)) (m (tabLoc d)) ((R1 L).emb y) := fun y => by
    have h := half_val 0 (by omega) _ _ _ _ _ _ _ a16 y
    rw [g4, g5] at h
    exact h
  have hW2 : ∀ y, tile_body.sl.dma128 m d L hin1 hin3 y = dSpec (m (homeLoc d)) (m (awayLoc d)) (m (tabLoc d)) ((R2 L).emb y) := fun y => by
    have h := half_val 256 (by omega) _ _ _ _ _ _ _ b16 y
    rw [g6, g7] at h
    exact h
  sl_step
  unfold tdRes blk
  isplitl [Hh1 Hh2 Ha1 Ha2 Ht4 Ht5 Ht6 Ht7 Htr Ho1 Ho2]
  · isplitl [Hh1 Hh2]
    · iapply (pointsTo_union (blk_disjoint L)).2
      isplitl [Hh1]
      · iapply (Entails.of_eq (pts_h1 (F := F) d L _ _)); iexact Hh1
      · iapply (Entails.of_eq (pts_h2 (F := F) d L _ _)); iexact Hh2
    isplitl [Ha1 Ha2]
    · iapply (pointsTo_union (blk_disjoint L)).2
      isplitl [Ha1]
      · iapply (Entails.of_eq (pts_a1 (F := F) d L _ _)); iexact Ha1
      · iapply (Entails.of_eq (pts_a2 (F := F) d L _ _)); iexact Ha2
    isplitl [Ht4 Ht5 Ht6 Ht7 Htr]
    · iapply (toks8 (F := F) (tabShare L)).2
      isplitl [Ht7]; · iexact Ht7
      isplitl [Ht6]; · iexact Ht6
      isplitl [Ht5]; · iexact Ht5
      isplitl [Ht4]; · iexact Ht4
      iexact Htr
    · iapply (pointsTo_union (blk_disjoint L)).2
      isplitl [Ho1]
      · iapply (Entails.of_eq (pointsTo_congr (out_val1 m d L _ hW1)))
        iapply (Entails.of_eq (pts_o1 (F := F) d L _ _)); iexact Ho1
      · iapply (Entails.of_eq (pointsTo_congr (out_val2 m d L _ hW2)))
        iapply (Entails.of_eq (pts_o2 (F := F) d L _ _)); iexact Ho2
  isplitl [Hi0 Hi1 Hi2 Hi3 Hx0 Hx1 Hx2 Hx3 Hbufs]
  · isplitl [Hi0 Hi1 Hi2 Hi3]
    · iapply (join_sI (F := F) d L _ _ _ _)
      isplitl [Hi0]; · iexact Hi0
      isplitl [Hi1]; · iexact Hi1
      isplitl [Hi2]; · iexact Hi2
      iexact Hi3
    isplitl [Hx0 Hx1 Hx2 Hx3]
    · iapply (join_sX (F := F) d L _ _ _ _)
      isplitl [Hx0]; · iexact Hx0
      isplitl [Hx1]; · iexact Hx1
      isplitl [Hx2]; · iexact Hx2
      iexact Hx3
    iexact Hbufs
  isplitl [Hs2 Hs3 Hs4 Hs5 Hs6 Hs7 Hs8 Hs9 Hs10 Hs11 Hsems]
  · isplitl [Hs2 Hs3 Hs4 Hs5 Hs6 Hs7 Hs8 Hs9 Hs10 Hs11]
    · isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      iexact Hs11
    iexact Hsems
  iexists (insert (SemLoc.dma cc0_scratch11.sem, none) (insert (SemLoc.dma cc0_scratch10.sem, none) (insert (SemLoc.dma cc0_scratch9.sem, none) (insert (SemLoc.dma cc0_scratch8.sem, none) (insert (SemLoc.dma cc0_scratch7.sem, none) (insert (SemLoc.dma cc0_scratch6.sem, none) (insert (SemLoc.dma cc0_scratch5.sem, none) (insert (SemLoc.dma cc0_scratch4.sem, none) (insert (SemLoc.dma cc0_scratch3.sem, none) (insert (SemLoc.dma cc0_scratch2.sem, none) W)))))))))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact .inl hp
  · iexact HO

end Cert.Proof.KernelIdeal

end
-- ==== Proof.KernelIdeal.Split.lean ====
/-
  The whole arrays dealt out to the 32 tiles and joined back: each 16384-entry array is its 32 blocks of 512, the table's
  full share is one read share per tile and a remainder, and what the tiles hand back is the arrays whole again, the result
  holding the one function each tile wrote its block of.
-/
import proofs.«203773_g32736240730729_cont_9to1_2154_21_alg».proof.Proof.KernelIdeal.Tile.Defs
import Idealize.ShloMosaic.Rules.PointsTo
import Idealize.ShloMosaic.Lib.Transfers

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

variable [FloatOps F] (m : (ℓ : Loc nD τ sig) → Buf (Elt F) ℓ)

/-! ## The tiles' entries: 32 blocks of 512, pairwise disjoint, covering the batch -/

/-- The tiles, as pairs (SparseCore, vector subcore). -/
abbrev Tiles : Type := Fin (grid0.bound 0) × Fin (grid0.bound 1)

/-- Tile `(c, s)`'s entries are the 512 from `1024 s + 512 c` on. -/
theorem mem_blk_tile (c : Fin (grid0.bound 0)) (s : Fin (grid0.bound 1)) (i : S16384.Idx) :
    i ∈ blk (coordsV c s) ↔ 1024 * s.val + 512 * c.val ≤ (i 0).val ∧ (i 0).val < 1024 * s.val + 512 * c.val + 512 :=
  mem_blk (coordsV c s) i

/-- Two tiles' entries are disjoint: an entry in both would give `2 s + c = 2 s' + c'` with `c, c' < 2`. -/
theorem blk_tiles_disjoint : ∀ p ∈ (Finset.univ : Finset Tiles), ∀ p' ∈ (Finset.univ : Finset Tiles), p ≠ p' →
    Disjoint (blk (coordsV p.1 p.2)) (blk (coordsV p'.1 p'.2)) := by
  rintro ⟨c, s⟩ - ⟨c', s'⟩ - hne
  rw [Finset.disjoint_left]
  intro i h1 h2
  have h1 := (mem_blk_tile c s i).mp h1
  have h2 := (mem_blk_tile c' s' i).mp h2
  have hc : c.val < 2 := c.isLt
  have hc' : c'.val < 2 := c'.isLt
  have h : s.val = s'.val ∧ c.val = c'.val := by omega
  exact hne (Prod.ext (Fin.ext h.2) (Fin.ext h.1))

/-- Every entry `x < 16384` is some tile's: tile `(x % 1024 / 512, x / 1024)`'s. -/
theorem blk_tiles_cover : (Finset.univ : Finset Tiles).biUnion (fun p => blk (coordsV p.1 p.2)) = Finset.univ := by
  ext i
  simp only [Finset.mem_biUnion, Finset.mem_univ, true_and, iff_true]
  have hi : (i 0).val < 16384 := (i 0).isLt
  refine ⟨(⟨(i 0).val % 1024 / 512, ?_⟩, ⟨(i 0).val / 1024, ?_⟩), ?_⟩
  · show _ < 2; omega
  · show _ < 16; omega
  · rw [mem_blk_tile]
    show 1024 * ((i 0).val / 1024) + 512 * ((i 0).val % 1024 / 512) ≤ (i 0).val
      ∧ (i 0).val < 1024 * ((i 0).val / 1024) + 512 * ((i 0).val % 1024 / 512) + 512
    omega

/-! ## A whole 16384-entry array is its 32 blocks -/

theorem homePts_tiles (d : Dev nD) (f : Buf (Elt F) (homeLoc d)) :
    (homeLoc d ↦{fullShare} f : sProp 𝕄) = bigSep Finset.univ fun p : Tiles => homeLoc d ↦[blk (coordsV p.1 p.2)]{fullShare} f := by
  rw [← pointsTo_biUnion Finset.univ (ℓ := homeLoc d) (fun p : Tiles => blk (coordsV p.1 p.2)) blk_tiles_disjoint, blk_tiles_cover]; try rfl

theorem awayPts_tiles (d : Dev nD) (f : Buf (Elt F) (awayLoc d)) :
    (awayLoc d ↦{fullShare} f : sProp 𝕄) = bigSep Finset.univ fun p : Tiles => awayLoc d ↦[blk (coordsV p.1 p.2)]{fullShare} f := by
  rw [← pointsTo_biUnion Finset.univ (ℓ := awayLoc d) (fun p : Tiles => blk (coordsV p.1 p.2)) blk_tiles_disjoint, blk_tiles_cover]; try rfl

theorem dPts_tiles (d : Dev nD) (f : Buf (Elt F) (dLoc d)) :
    (dLoc d ↦{fullShare} f : sProp 𝕄) = bigSep Finset.univ fun p : Tiles => dLoc d ↦[blk (coordsV p.1 p.2)]{fullShare} f := by
  rw [← pointsTo_biUnion Finset.univ (ℓ := dLoc d) (fun p : Tiles => blk (coordsV p.1 p.2)) blk_tiles_disjoint, blk_tiles_cover]; try rfl

/-! ## The table's read shares: one per tile, and what is left -/

/-- Every share of the table no tile is handed: what is left of the full share after one token per SparseCore, and of each
    SparseCore's token after one token per vector subcore. -/
def tabRem (d : Dev nD) : sProp 𝕄 :=
  iprop((tabLoc d ↦{Transfers.shareDrop fullShare (grid0.bound 0)} m (tabLoc d))
    ∗ bigSep Finset.univ fun c : Fin (grid0.bound 0) =>
        tabLoc d ↦{Transfers.shareDrop (Transfers.shareTokN fullShare c.val) (grid0.bound 1)} m (tabLoc d))

/-- Three separated parts, the last brought to the front. -/
theorem sep_rot {A B C : sProp 𝕄} : iprop(A ∗ B ∗ C) = iprop(C ∗ A ∗ B) := by
  have h : iprop(A ∗ B ∗ C) ⊣⊢ iprop(C ∗ A ∗ B) := by
    constructor
    · iintro ⟨HA, HB, HC⟩
      isplitl [HC]; · iexact HC
      isplitl [HA]; · iexact HA
      iexact HB
    · iintro ⟨HC, HA, HB⟩
      isplitl [HA]; · iexact HA
      isplitl [HB]; · iexact HB
      iexact HC
  exact BI.equiv_iff.mp ⟨h.1, h.2⟩

/-- The full share of the table is the tiles' read shares and the rest. -/
theorem tabPts_tiles (d : Dev nD) :
    (tabLoc d ↦{fullShare} m (tabLoc d) : sProp 𝕄)
      = iprop((bigSep Finset.univ fun p : Tiles => tabLoc d ↦{tabShare (coordsV p.1 p.2)} m (tabLoc d)) ∗ tabRem m d) := by
  have h0 : (tabLoc d ↦{fullShare} m (tabLoc d) : sProp 𝕄)
      = iprop((tabLoc d ↦{Transfers.shareDrop fullShare (grid0.bound 0)} m (tabLoc d))
          ∗ bigSep Finset.univ fun c : Fin (grid0.bound 0) => tabLoc d ↦{Transfers.shareTok fullShare (grid0.bound 0) c} m (tabLoc d)) :=
    BI.equiv_iff.mp ⟨(Transfers.pointsTo_toks fullShare (grid0.bound 0)).1, (Transfers.pointsTo_toks fullShare (grid0.bound 0)).2⟩
  have h1 : ∀ c : Fin (grid0.bound 0),
      (tabLoc d ↦{Transfers.shareTok fullShare (grid0.bound 0) c} m (tabLoc d) : sProp 𝕄)
        = iprop((tabLoc d ↦{Transfers.shareDrop (Transfers.shareTokN fullShare c.val) (grid0.bound 1)} m (tabLoc d))
            ∗ bigSep Finset.univ fun s : Fin (grid0.bound 1) => tabLoc d ↦{tabShare (coordsV c s)} m (tabLoc d)) := fun c =>
    BI.equiv_iff.mp ⟨(Transfers.pointsTo_toks (Transfers.shareTokN fullShare c.val) (grid0.bound 1)).1,
      (Transfers.pointsTo_toks (Transfers.shareTokN fullShare c.val) (grid0.bound 1)).2⟩
  rw [h0, bigSep_congr (fun c _ => h1 c), bigSep_sep']
  unfold tabRem
  rw [bigSep_univ_prod (fun p : Tiles => (tabLoc d ↦{tabShare (coordsV p.1 p.2)} m (tabLoc d) : sProp 𝕄))]
  exact sep_rot

/-! ## Dealing the arrays out to the tiles, and joining them back -/

/-- What the tiles are handed, array by array. -/
theorem goRes_tiles (d : Dev nD) :
    (bigSep Finset.univ fun c : Fin (grid0.bound 0) => bigSep Finset.univ fun s : Fin (grid0.bound 1) => goRes m d (coordsV c s))
      = (iprop((bigSep Finset.univ fun p : Tiles => homeLoc d ↦[blk (coordsV p.1 p.2)]{fullShare} m (homeLoc d))
          ∗ (bigSep Finset.univ fun p : Tiles => awayLoc d ↦[blk (coordsV p.1 p.2)]{fullShare} m (awayLoc d))
          ∗ (bigSep Finset.univ fun p : Tiles => tabLoc d ↦{tabShare (coordsV p.1 p.2)} m (tabLoc d))
          ∗ (bigSep Finset.univ fun p : Tiles => dLoc d ↦[blk (coordsV p.1 p.2)]{fullShare} m (dLoc d))) : sProp 𝕄) := by
  refine (bigSep_univ_prod (fun p : Tiles => goRes m d (coordsV p.1 p.2))).symm.trans ?_
  unfold goRes
  rw [bigSep_sep', bigSep_sep', bigSep_sep']

/-- What the tiles hand back, array by array. -/
theorem tdRes_tiles (d : Dev nD) :
    (bigSep Finset.univ fun c : Fin (grid0.bound 0) => bigSep Finset.univ fun s : Fin (grid0.bound 1) => tdRes m d (coordsV c s))
      = (iprop((bigSep Finset.univ fun p : Tiles => homeLoc d ↦[blk (coordsV p.1 p.2)]{fullShare} m (homeLoc d))
          ∗ (bigSep Finset.univ fun p : Tiles => awayLoc d ↦[blk (coordsV p.1 p.2)]{fullShare} m (awayLoc d))
          ∗ (bigSep Finset.univ fun p : Tiles => tabLoc d ↦{tabShare (coordsV p.1 p.2)} m (tabLoc d))
          ∗ (bigSep Finset.univ fun p : Tiles =>
              dLoc d ↦[blk (coordsV p.1 p.2)]{fullShare} dSpec (m (homeLoc d)) (m (awayLoc d)) (m (tabLoc d)))) : sProp 𝕄) := by
  refine (bigSep_univ_prod (fun p : Tiles => tdRes m d (coordsV p.1 p.2))).symm.trans ?_
  unfold tdRes
  rw [bigSep_sep', bigSep_sep', bigSep_sep']

/-- The four whole arrays go out as every tile's share of them, and the table's undealt shares stay behind. -/
theorem deal (d : Dev nD) :
    iprop((homeLoc d ↦{fullShare} m (homeLoc d)) ∗ (awayLoc d ↦{fullShare} m (awayLoc d))
        ∗ (tabLoc d ↦{fullShare} m (tabLoc d)) ∗ (dLoc d ↦{fullShare} m (dLoc d)))
      ⊢ (iprop((bigSep Finset.univ fun c : Fin (grid0.bound 0) => bigSep Finset.univ fun s : Fin (grid0.bound 1) => goRes m d (coordsV c s))
          ∗ tabRem m d) : sProp 𝕄) := by
  rw [goRes_tiles, homePts_tiles, awayPts_tiles, dPts_tiles, tabPts_tiles]
  iintro ⟨Hh, Ha, ⟨Ht, Hr⟩, Hd⟩
  isplitr [Hr]
  · isplitl [Hh]; · iexact Hh
    isplitl [Ha]; · iexact Ha
    isplitl [Ht]; · iexact Ht
    iexact Hd
  · iexact Hr

/-- What the tiles hand back, with the table's undealt shares, is the three input arrays whole and unchanged and the result
    array whole, holding the one function every tile wrote its entries of. -/
theorem join (d : Dev nD) :
    iprop((bigSep Finset.univ fun c : Fin (grid0.bound 0) => bigSep Finset.univ fun s : Fin (grid0.bound 1) => tdRes m d (coordsV c s))
        ∗ tabRem m d)
      ⊢ (iprop((homeLoc d ↦{fullShare} m (homeLoc d)) ∗ (awayLoc d ↦{fullShare} m (awayLoc d))
          ∗ (tabLoc d ↦{fullShare} m (tabLoc d))
          ∗ (dLoc d ↦{fullShare} dSpec (m (homeLoc d)) (m (awayLoc d)) (m (tabLoc d)))) : sProp 𝕄) := by
  rw [tdRes_tiles, homePts_tiles, awayPts_tiles, dPts_tiles, tabPts_tiles]
  iintro ⟨⟨Hh, Ha, Ht, Hd⟩, Hr⟩
  isplitl [Hh]; · iexact Hh
  isplitl [Ha]; · iexact Ha
  isplitr [Hd]
  · isplitl [Ht]; · iexact Ht
    iexact Hr
  · iexact Hd

instance goRes_storable (d : Dev nD) (L : grid0.Coords) : BI.Storable (upEmb : UEmb _ 𝕄) (goRes m d L) := by
  unfold goRes; infer_instance

instance tdRes_storable (d : Dev nD) (L : grid0.Coords) : BI.Storable (upEmb : UEmb _ 𝕄) (tdRes m d L) := by
  unfold tdRes; infer_instance

end Cert.Proof.KernelIdeal

end
-- ==== Proof.KernelIdeal.Regions.Body1.lean ====
/-
  The first TensorCore kernel's body as one triple: on whole staging memrefs holding a block of the transposed
  features, the weights and the one-word bias, it leaves the three as they were and the output memref at the body's
  payload of them.
-/
import proofs.«203773_g32736240730729_cont_9to1_2154_21_alg».proof.Proof.KernelIdeal.Common
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The body's accesses -/

abbrev r1_x : Rect S64x8192 := Rect.unit (s := S64x8192) ![0, 0] S64x8192.size inb_S64x8192_S64x8192_0_0
abbrev r1_b : Rect S64 := Rect.unit (s := S64) ![0] S64.size inb_S64_S64_0
abbrev r1_m : Rect S1 := Rect.unit (s := S1) ![0] S1.size inb_S1_S1_0
abbrev r1_y : Rect S8192 := Rect.unit (s := S8192) ![0] S8192.size inb_S8192_S8192_0

/-- The one word the body reads of the bias buffer, from what the buffer reads. -/
abbrev word1 (x3 : Vec F S1 .f32) : Elt F .f32 :=
  View.ld x3 r1_m (Shape.Idx.first (numel1_S1.symm ▸ Nat.one_pos))

/-- What the body leaves in the output window's buffer: its one store, whose payload is the skeleton's, of what it
    loaded of the three inputs. -/
def out1 (x1 : Vec F S64x8192 .f32) (x2 : Vec F S64 .f32) (x3 : Vec F S1 .f32) : Vec F S8192 .f32 :=
  View.canon [⟨r1_y, k1_pay1 (View.ld x1 r1_x) (View.ld x2 r1_b) (word1 x3)⟩]

/-- The store is of the whole buffer. -/
theorem storeCover1 (p0 : Vec F S8192 .f32) (y : S8192.Idx) :
    ∃ pc ∈ ([⟨r1_y, p0⟩] : List (View.Piece (Elt F) S8192 .f32)), y ∈ pc.1.set :=
  View.cover_of_tiled [⟨r1_y, p0⟩] S8192.size (by rfl) y

set_option maxHeartbeats 1000000 in
/-- The body on whole staging memrefs: the inputs' at read contents `x1`, `x2`, `x3` and the output's at anything; it runs to
    the continuation holding the inputs' as they were and the output's at `out1` of them. -/
theorem sound_kernel1 (c : Dev nD) (E : Set ℕ) (i : grid1.Coords)
    (arg1 : Memref sig .tc .vmem S64x8192 .f32) (harg1 : arg1.IsWhole) (arg2 : Memref sig .tc .vmem S64 .f32) (harg2 : arg2.IsWhole)
    (arg3 : Memref sig .tc .smem S1 .f32) (harg3 : arg3.IsWhole) (arg4 : Memref sig .tc .vmem S8192 .f32) (harg4 : arg4.IsWhole)
    (x1 : Vec F S64x8192 .f32) (x2 : Vec F S64 .f32) (x3 : Vec F S1 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (out1 x1 x2 x3)) -∗ K ⟨⟩))
      ⊢ wp frame (wpE (defs₀ (F := F)) Variants.none c none) E (cc1__matvec_body i arg1 harg1 arg2 harg2 arg3 harg3 arg4 harg4) K := by
  simp only [cc1__matvec_body_eq_skeleton]; unfold cc1__matvec_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (storeCover1 _)

end Cert.Proof.KernelIdeal

end
-- ==== Proof.KernelIdeal.Regions.Body2.lean ====
/-
  The second TensorCore kernel's body as one triple: on whole staging memrefs holding the two arrays it adds, it leaves
  them as they were and the output memref at the body's payload of them.
-/
import proofs.«203773_g32736240730729_cont_9to1_2154_21_alg».proof.Proof.KernelIdeal.Common
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The body's access -/

abbrev r2 : Rect S16384 := Rect.unit (s := S16384) ![0] S16384.size inb_S16384_S16384_0

/-- What the body leaves in the output window's buffer: its one store, whose payload is the skeleton's, of what it
    loaded of the two inputs. -/
def out2 (x0 x1 : Vec F S16384 .f32) : Vec F S16384 .f32 :=
  View.canon [⟨r2, k2_pay1 (View.ld x0 r2) (View.ld x1 r2)⟩]

/-- The store is of the whole buffer. -/
theorem storeCover2 (p0 : Vec F S16384 .f32) (y : S16384.Idx) :
    ∃ pc ∈ ([⟨r2, p0⟩] : List (View.Piece (Elt F) S16384 .f32)), y ∈ pc.1.set :=
  View.cover_of_tiled [⟨r2, p0⟩] S16384.size (by rfl) y

set_option maxHeartbeats 1000000 in
/-- The body on whole staging memrefs: the inputs' at read contents `x0`, `x1` and the output's at anything; it runs to
    the continuation holding the inputs' as they were and the output's at `out2` of them. -/
theorem sound_kernel2 (c : Dev nD) (E : Set ℕ)
    (arg0 : Memref sig .tc .vmem S16384 .f32) (harg0 : arg0.IsWhole) (arg1 : Memref sig .tc .vmem S16384 .f32) (harg1 : arg1.IsWhole)
    (arg2 : Memref sig .tc .vmem S16384 .f32) (harg2 : arg2.IsWhole)
    (x0 x1 : Vec F S16384 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2 x0 x1)) -∗ K ⟨⟩))
      ⊢ wp frame (wpE (defs₀ (F := F)) Variants.none c none) E (cc2__combine_body arg0 harg0 arg1 harg1 arg2 harg2) K := by
  simp only [cc2__combine_body_eq_skeleton]; unfold cc2__combine_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (storeCover2 _)

end Cert.Proof.KernelIdeal

end
-- ==== Proof.KernelIdeal.Regions.Data.lean ====
/-
  The two TensorCore regions' proof data: what each window's array holds when its region is entered (parameters: the
  transposed features, the weights, the bias, the SparseCore call's result, and whatever the two result arrays held),
  what the body leaves in each staging buffer at each grid point, and the body obligations.
-/
import proofs.«203773_g32736240730729_cont_9to1_2154_21_alg».proof.Proof.KernelIdeal.Common
import proofs.«203773_g32736240730729_cont_9to1_2154_21_alg».proof.Proof.KernelIdeal.Regions.Body1
import proofs.«203773_g32736240730729_cont_9to1_2154_21_alg».proof.Proof.KernelIdeal.Regions.Body2
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The prefetched tables' admissible contents: no pipeline has a table. -/
abbrev adm : (p : Fin 2) → (pcfgs (F := F) p).Adm := fun p => (cfgs p).toPCfg_adm

/-- The pairs a core's waits may have recorded around the regions: those recorded before them (`W`), and the
    pipelines' own, which sit at the index `none`. -/
abbrev recB (W : Waits sig (HIx 1)) : Set (SemLoc sig × HIx 1) := {p | p ∈ W ∨ p.2 = none}

/-! # Region 1: the matrix-vector kernel (pipeline 0), grid of two points -/

section Region1

variable (XT : Vec F S64x16384 .f32) (β : Vec F S64 .f32) (μ : Vec F S1 .f32) (y0 : Vec F S16384 .f32)
  (B : Set (SemLoc sig × HIx 1))

/-- Each window's array when the region is entered: the transposed features, the weights, the bias, and the result
    array at whatever it held. -/
def A1 (c : Dev nD) : (w : Fin cfg1.W) → Buf (Elt F) ((cfg1.win w).arr.view.loc (c : Thread nD τ))
  | ⟨0, _⟩ => XT
  | ⟨1, _⟩ => β
  | ⟨2, _⟩ => μ
  | ⟨3, _⟩ => y0

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (A1 XT β μ y0 c w)

/-- The proof data: the arrays as the region finds them; after the body at point `t` each input's buffer at its block
    and the output's at the body's store of the three input blocks; the invariant the scoped buffers no window
    stages, untouched; nothing owed; full shares. -/
def dat1 (c : Dev nD) : Dat τ (Elt F) (HIx 1) ℕ UU ℕ cfg1 c where
  A w := A1 XT β μ y0 c w
  after w t := match w with
    | ⟨0, _⟩ => iblk1 XT β μ y0 c 0 t
    | ⟨1, _⟩ => iblk1 XT β μ y0 c 1 t
    | ⟨2, _⟩ => iblk1 XT β μ y0 c 2 t
    | ⟨3, _⟩ => out1 (iblk1 XT β μ y0 c 0 t) (iblk1 XT β μ y0 c 1 t) (iblk1 XT β μ y0 c 2 t)
  Φ _ := Pipeline.scopedRest (Ix := HIx 1) (Name := ℕ) (U := UU) (Lvl := ℕ) (Val := Elt F) spec1 c
  q _ := fullShare
  owed _ := 0
  recorded _ := B

theorem A_eq1 (c : Dev nD) (w : Fin cfg1.W) : (dat1 XT β μ y0 B c).A w = A1 XT β μ y0 c w := by
  dsimp only [dat1]

theorem after1_0 (c : Dev nD) (t : Fin cfg1.N) : (dat1 XT β μ y0 B c).after 0 t = iblk1 XT β μ y0 c 0 t := by dsimp only [dat1]
theorem after1_1 (c : Dev nD) (t : Fin cfg1.N) : (dat1 XT β μ y0 B c).after 1 t = iblk1 XT β μ y0 c 1 t := by dsimp only [dat1]
theorem after1_2 (c : Dev nD) (t : Fin cfg1.N) : (dat1 XT β μ y0 B c).after 2 t = iblk1 XT β μ y0 c 2 t := by dsimp only [dat1]
theorem after1_3 (c : Dev nD) (t : Fin cfg1.N) :
    (dat1 XT β μ y0 B c).after 3 t = out1 (iblk1 XT β μ y0 c 0 t) (iblk1 XT β μ y0 c 1 t) (iblk1 XT β μ y0 c 2 t) := by dsimp only [dat1]

/-- Each input's current staging buffer holds its block at every point, fetched there or not: unfetched, the block
    index has not moved and the body left the block in place. -/
theorem before1_0 (c : Dev nD) (t : Fin cfg1.N) (d) : (dat1 XT β μ y0 B c).before 0 t d = iblk1 XT β μ y0 c 0 t :=
  ((dat1 XT β μ y0 B c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 XT β μ y0 B c).before 1 t d = iblk1 XT β μ y0 c 1 t :=
  ((dat1 XT β μ y0 B c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 XT β μ y0 B c).before 2 t d = iblk1 XT β μ y0 c 2 t :=
  ((dat1 XT β μ y0 B c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 XT β μ y0 B c).Φ t.castSucc ∗ (dat1 XT β μ y0 B c).owesAt none t.castSucc
    ∗ (∃ d, owns (c : Thread nD τ) (st1_0 t) fullShare ((dat1 XT β μ y0 B c).before 0 t d))
    ∗ (∃ d, owns (c : Thread nD τ) (st1_1 t) fullShare ((dat1 XT β μ y0 B c).before 1 t d))
    ∗ (∃ d, owns (c : Thread nD τ) (st1_2 t) fullShare ((dat1 XT β μ y0 B c).before 2 t d))
    ∗ (∃ d, owns (c : Thread nD τ) (st1_3 t) fullShare ((dat1 XT β μ y0 B c).before 3 t d)))

/-- and what it returns. -/
def bodyPost1 (c : Dev nD) (t : Fin cfg1.N) : sProp 𝕄 :=
  iprop((dat1 XT β μ y0 B c).Φ t.succ ∗ (dat1 XT β μ y0 B c).owesAt none t.succ
    ∗ owns (c : Thread nD τ) (st1_0 t) fullShare ((dat1 XT β μ y0 B c).after 0 t)
    ∗ owns (c : Thread nD τ) (st1_1 t) fullShare ((dat1 XT β μ y0 B c).after 1 t)
    ∗ owns (c : Thread nD τ) (st1_2 t) fullShare ((dat1 XT β μ y0 B c).after 2 t)
    ∗ owns (c : Thread nD τ) (st1_3 t) fullShare ((dat1 XT β μ y0 B c).after 3 t))

/-- The body at any point: the inputs' memrefs hold their blocks, so the body's triple applies; the invariant and the
    core's `owes` pass through unread. -/
theorem sound_body1 (c : Dev nD) (t : Fin cfg1.N) :
    bodyPre1 XT β μ y0 B c t ⊢ wp frame (wpE (defs₀ (F := F)) Variants.none c none) Set.univ (bodyAt1 t) (fun _ => bodyPost1 XT β μ y0 B c t) := by
  unfold bodyPre1 bodyPost1 bodyAt1
  simp only [before1_0, before1_1, before1_2]
  rw [show (dat1 XT β μ y0 B c).Φ t.succ = (dat1 XT β μ y0 B c).Φ t.castSucc from rfl,
    show (dat1 XT β μ y0 B c).owesAt none t.succ = (dat1 XT β μ y0 B c).owesAt none t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 XT β μ y0 c 0 t) (iblk1 XT β μ y0 c 1 t) (iblk1 XT β μ y0 c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) XT β μ y0 B c) (defs₀ (F := F)) Variants.none none Set.univ := fun t => by
  rw [bigSep_W1, bigSep_W1]
  exact sound_body1 XT β μ y0 B c t

end Region1

/-! # Region 2: the combining kernel (pipeline 1), one point -/

section Region2

variable (Y DD o0 : Vec F S16384 .f32) (B : Set (SemLoc sig × HIx 1))

/-- Each window's array when the region is entered: the first kernel's result, the SparseCore call's, and the result
    array at whatever it held. -/
def A2 (c : Dev nD) : (w : Fin cfg2.W) → Buf (Elt F) ((cfg2.win w).arr.view.loc (c : Thread nD τ))
  | ⟨0, _⟩ => Y
  | ⟨1, _⟩ => DD
  | ⟨2, _⟩ => o0

/-- Window `w`'s block at the point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (A2 Y DD o0 c w)

/-- The proof data, as the first region's. -/
def dat2 (c : Dev nD) : Dat τ (Elt F) (HIx 1) ℕ UU ℕ cfg2 c where
  A w := A2 Y DD o0 c w
  after w t := match w with
    | ⟨0, _⟩ => iblk2 Y DD o0 c 0 t
    | ⟨1, _⟩ => iblk2 Y DD o0 c 1 t
    | ⟨2, _⟩ => out2 (iblk2 Y DD o0 c 0 t) (iblk2 Y DD o0 c 1 t)
  Φ _ := Pipeline.scopedRest (Ix := HIx 1) (Name := ℕ) (U := UU) (Lvl := ℕ) (Val := Elt F) spec2 c
  q _ := fullShare
  owed _ := 0
  recorded _ := B

theorem A_eq2 (c : Dev nD) (w : Fin cfg2.W) : (dat2 Y DD o0 B c).A w = A2 Y DD o0 c w := by
  dsimp only [dat2]

theorem after2_0 (c : Dev nD) (t : Fin cfg2.N) : (dat2 Y DD o0 B c).after 0 t = iblk2 Y DD o0 c 0 t := by dsimp only [dat2]
theorem after2_1 (c : Dev nD) (t : Fin cfg2.N) : (dat2 Y DD o0 B c).after 1 t = iblk2 Y DD o0 c 1 t := by dsimp only [dat2]
theorem after2_2 (c : Dev nD) (t : Fin cfg2.N) :
    (dat2 Y DD o0 B c).after 2 t = out2 (iblk2 Y DD o0 c 0 t) (iblk2 Y DD o0 c 1 t) := by dsimp only [dat2]

theorem before2_0 (c : Dev nD) (t : Fin cfg2.N) (d) : (dat2 Y DD o0 B c).before 0 t d = iblk2 Y DD o0 c 0 t :=
  ((dat2 Y DD o0 B c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 Y DD o0 B c).before 1 t d = iblk2 Y DD o0 c 1 t :=
  ((dat2 Y DD o0 B c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 Y DD o0 B c).Φ t.castSucc ∗ (dat2 Y DD o0 B c).owesAt none t.castSucc
    ∗ (∃ d, owns (c : Thread nD τ) (st2_0 t) fullShare ((dat2 Y DD o0 B c).before 0 t d))
    ∗ (∃ d, owns (c : Thread nD τ) (st2_1 t) fullShare ((dat2 Y DD o0 B c).before 1 t d))
    ∗ (∃ d, owns (c : Thread nD τ) (st2_2 t) fullShare ((dat2 Y DD o0 B c).before 2 t d)))

def bodyPost2 (c : Dev nD) (t : Fin cfg2.N) : sProp 𝕄 :=
  iprop((dat2 Y DD o0 B c).Φ t.succ ∗ (dat2 Y DD o0 B c).owesAt none t.succ
    ∗ owns (c : Thread nD τ) (st2_0 t) fullShare ((dat2 Y DD o0 B c).after 0 t)
    ∗ owns (c : Thread nD τ) (st2_1 t) fullShare ((dat2 Y DD o0 B c).after 1 t)
    ∗ owns (c : Thread nD τ) (st2_2 t) fullShare ((dat2 Y DD o0 B c).after 2 t))

theorem sound_body2 (c : Dev nD) (t : Fin cfg2.N) :
    bodyPre2 Y DD o0 B c t ⊢ wp frame (wpE (defs₀ (F := F)) Variants.none c none) Set.univ (bodyAt2 t) (fun _ => bodyPost2 Y DD o0 B c t) := by
  unfold bodyPre2 bodyPost2 bodyAt2
  simp only [before2_0, before2_1]
  rw [show (dat2 Y DD o0 B c).Φ t.succ = (dat2 Y DD o0 B c).Φ t.castSucc from rfl,
    show (dat2 Y DD o0 B c).owesAt none t.succ = (dat2 Y DD o0 B c).owesAt none t.castSucc from rfl,
    after2_0, after2_1, after2_2]
  iintro ⟨HΦ, Ho, ⟨%d0, H0⟩, ⟨%d1, H1⟩, ⟨%d2, H2⟩⟩
  iapply (sound_kernel2 c Set.univ _ _ _ _ _ _ (iblk2 Y DD o0 c 0 t) (iblk2 Y DD o0 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) Y DD o0 B c) (defs₀ (F := F)) Variants.none none Set.univ := fun t => by
  rw [bigSep_W2, bigSep_W2]
  exact sound_body2 Y DD o0 B c t

end Region2

end Cert.Proof.KernelIdeal

end
-- ==== Proof.KernelIdeal.Regions.Values.lean ====
/-
  What the two regions leave in their result arrays. The first kernel's output blocks tile its array: grid point `t`
  writes columns `[8192 t, 8192 t + 8192)`, and what it writes is the body's payload of block `t` of the transposed
  features, of the weights and of the bias word; so the array ends at that function of the three, index by index. The
  second kernel's one block is its whole array.
-/
import proofs.«203773_g32736240730729_cont_9to1_2154_21_alg».proof.Proof.KernelIdeal.Common
import proofs.«203773_g32736240730729_cont_9to1_2154_21_alg».proof.Proof.KernelIdeal.Regions.Data
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

theorem zeroOffs1 : (![0] : Fin 1 → Nat) = fun _ => 0 := funext fun a => by fin_cases a; rfl
theorem zeroOffs2 : (![0, 0] : Fin 2 → Nat) = fun _ => 0 := funext fun a => by fin_cases a <;> rfl

/-- The one-word shape has one index. -/
theorem idxS1_eq (a b : S1.Idx) : a = b := funext fun i => by
  match i with
  | ⟨0, h⟩ =>
    have ha : (a ⟨0, h⟩).val < 1 := (a ⟨0, h⟩).isLt
    have hb : (b ⟨0, h⟩).val < 1 := (b ⟨0, h⟩).isLt
    exact Fin.ext (by omega)

/-! # Region 1 -/

section Region1

variable (XT : Vec F S64x16384 .f32) (β : Vec F S64 .f32) (μ : Vec F S1 .f32) (y0 : Vec F S16384 .f32)
  (B : Set (SemLoc sig × HIx 1))

/-- The printed index maps, decided over the grid: the features' block moves along the columns with the point, the
    weights' and the bias's stay, the output's block is the point's. -/
theorem idx_facts1 : ∀ t : Fin cfg1.N, win1_0.index t (0 : Fin 2) = 0 ∧ win1_0.index t (1 : Fin 2) = t.val
    ∧ win1_1.index t (0 : Fin 1) = 0 ∧ win1_2.index t (0 : Fin 1) = 0 ∧ win1_3.index t (0 : Fin 1) = t.val ∧ t.val < 2 :=
  (by decide +kernel : ∀ t : Fin grid1.N, _)

/-- The specification at an index of block `b`: the payload of that block, at the index's place in it. -/
theorem ySpec_at (b : Fin 2) (j : S8192.Idx) (i : S16384.Idx) (hi : (i 0).val = 8192 * b.val + (j 0).val) :
    ySpec XT β μ i = k1_pay1 (xtBlock XT b) β (μ (ValueIdx.ix1 0)) j := by
  have hj : (j 0).val < 8192 := (j 0).isLt
  have hb : b.val < 2 := b.isLt
  have key : ∀ (b' : Fin 2) (j' : S8192.Idx), b' = b → j' = j →
      k1_pay1 (xtBlock XT b') β (μ (ValueIdx.ix1 0)) j' = k1_pay1 (xtBlock XT b) β (μ (ValueIdx.ix1 0)) j := by
    rintro _ _ rfl rfl; rfl
  unfold ySpec
  refine key _ _ (Fin.ext ?_) (funext fun a => Fin.ext ?_)
  · show (i 0).val / 8192 = b.val; omega
  · match a with
    | ⟨0, _⟩ => show (i 0).val % 8192 = (j 0).val; omega

/-- The features' block at point `t` is block `t` of the transposed features. -/
theorem iblk1_0 (c : Dev nD) (t : Fin cfg1.N) (ht : t.val < 2) : iblk1 XT β μ y0 c 0 t = xtBlock XT ⟨t.val, ht⟩ := by
  obtain ⟨e0, e1, -⟩ := idx_facts1 t
  funext y
  show XT (((cfg1.win 0).blk t).view.emb y) = XT (ValueIdx.ix2 (y 0) ⟨8192 * t.val + (y 1).val, _⟩)
  refine congrArg XT (funext fun a => Fin.ext ?_)
  match a with
  | ⟨0, _⟩ => show win1_0.index t (0 : Fin 2) * 64 + 1 * (y 0).val = (y 0).val; omega
  | ⟨1, _⟩ => show win1_0.index t (1 : Fin 2) * 8192 + 1 * (y 1).val = 8192 * t.val + (y 1).val; omega

/-- The weights' block is the weights. -/
theorem iblk1_1 (c : Dev nD) (t : Fin cfg1.N) : iblk1 XT β μ y0 c 1 t = β := by
  obtain ⟨-, -, e2, -⟩ := idx_facts1 t
  funext y
  show β (((cfg1.win 1).blk t).view.emb y) = β y
  refine congrArg β (funext fun a => Fin.ext ?_)
  match a with
  | ⟨0, _⟩ => show win1_1.index t (0 : Fin 1) * 64 + 1 * (y 0).val = (y 0).val; omega

/-- The word the body reads of the bias's block is the bias's word. -/
theorem word1_iblk (c : Dev nD) (t : Fin cfg1.N) : word1 (iblk1 XT β μ y0 c 2 t) = μ (ValueIdx.ix1 0) := by
  show μ _ = μ _
  exact congrArg μ (idxS1_eq _ _)

/-- WHAT POINT `t` WRITES BACK is block `t` of the specification. -/
theorem flushed1_eq (c : Dev nD) (t : Fin cfg1.N) :
    (dat1 XT β μ y0 B c).flushed 3 t = ((cfg1.win 3).blk t).view.read (Elt F) (ySpec XT β μ) := by
  show (cfg1.win 3).cut (grid1.coords t) ((dat1 XT β μ y0 B c).after 3 t) = _
  rw [after1_3]
  unfold out1
  rw [View.canon_unit_zero zeroOffs1]
  simp only [View.ld_unit_zero (S := S64x8192) zeroOffs2, View.ld_unit_zero (S := S64) zeroOffs1]
  obtain ⟨e0, e1, e2, e3, e4, ht⟩ := idx_facts1 t
  rw [iblk1_0 XT β μ y0 c t ht, iblk1_1, word1_iblk]
  funext j
  show k1_pay1 (xtBlock XT ⟨t.val, ht⟩) β (μ (ValueIdx.ix1 0)) j = ySpec XT β μ (((cfg1.win 3).blk t).view.emb j)
  refine (ySpec_at XT β μ ⟨t.val, ht⟩ j _ ?_).symm
  show win1_3.index t (0 : Fin 1) * 8192 + 1 * (j 0).val = 8192 * t.val + (j 0).val
  omega

/-- An index of the array is in point `t`'s block iff its coordinate is in the block's range. -/
theorem mem_yblock (t : Fin cfg1.N) (i : S16384.Idx) :
    i ∈ ((cfg1.win 3).blk t).view.set ↔ ∀ a : Fin 1, win1_3.index t a * S8192.size a ≤ (i a).val ∧ (i a).val < win1_3.index t a * S8192.size a + S8192.size a := by
  show i ∈ ((View.whole main_v2).slice (win1_3.rect t)).set ↔ _
  rw [View.set_slice_whole, Rect.mem_set_unit]
  exact Iff.rfl

/-- Every index of the array is in some point's block: the one whose number is the index over the block's length. -/
theorem arrCover1 (i : S16384.Idx) : ∃ t : Fin cfg1.N, (cfg1.win 3).flush t = true ∧ i ∈ ((cfg1.win 3).blk t).view.set := by
  have hi : (i 0).val < 16384 := (i 0).isLt
  let t : Fin cfg1.N := ⟨(i 0).val / 8192, by rw [show cfg1.N = 2 from N_1]; omega⟩
  obtain ⟨-, -, -, -, e4, -⟩ := idx_facts1 t
  refine ⟨t, flush1_3 t, ?_⟩
  rw [mem_yblock]
  intro a
  match a with
  | ⟨0, _⟩ =>
    show win1_3.index t (0 : Fin 1) * 8192 ≤ (i 0).val ∧ (i 0).val < win1_3.index t (0 : Fin 1) * 8192 + 8192
    have : win1_3.index t (0 : Fin 1) = (i 0).val / 8192 := e4
    omega

/-- THE RESULT ARRAY after the region: the specification. -/
theorem final1 (c : Dev nD) : (dat1 XT β μ y0 B c).arrAt 3 cfg1.N = ySpec XT β μ :=
  (dat1 XT β μ y0 B c).arrAt_eq_of_cover 3 (ySpec XT β μ) (fun t _ => flushed1_eq XT β μ y0 B c t) arrCover1

/-- The input arrays are as the region found them. -/
theorem final1_0 (c : Dev nD) : (dat1 XT β μ y0 B c).arrAt 0 cfg1.N = XT := (dat1 XT β μ y0 B c).arrAt_in 0 rfl _
theorem final1_1 (c : Dev nD) : (dat1 XT β μ y0 B c).arrAt 1 cfg1.N = β := (dat1 XT β μ y0 B c).arrAt_in 1 rfl _
theorem final1_2 (c : Dev nD) : (dat1 XT β μ y0 B c).arrAt 2 cfg1.N = μ := (dat1 XT β μ y0 B c).arrAt_in 2 rfl _

end Region1

/-! # Region 2 -/

section Region2

variable (Y DD o0 : Vec F S16384 .f32) (B : Set (SemLoc sig × HIx 1))

theorem idx_facts2 : ∀ t : Fin cfg2.N, win2_0.index t (0 : Fin 1) = 0 ∧ win2_1.index t (0 : Fin 1) = 0 ∧ win2_2.index t (0 : Fin 1) = 0 :=
  (by decide +kernel : ∀ t : Fin grid2.N, _)

/-- Each input's one block is its array. -/
theorem iblk2_0 (c : Dev nD) (t : Fin cfg2.N) : iblk2 Y DD o0 c 0 t = Y := by
  obtain ⟨e0, -, -⟩ := idx_facts2 t
  funext y
  show Y (((cfg2.win 0).blk t).view.emb y) = Y y
  refine congrArg Y (funext fun a => Fin.ext ?_)
  match a with
  | ⟨0, _⟩ => show win2_0.index t (0 : Fin 1) * 16384 + 1 * (y 0).val = (y 0).val; omega
theorem iblk2_1 (c : Dev nD) (t : Fin cfg2.N) : iblk2 Y DD o0 c 1 t = DD := by
  obtain ⟨-, e1, -⟩ := idx_facts2 t
  funext y
  show DD (((cfg2.win 1).blk t).view.emb y) = DD y
  refine congrArg DD (funext fun a => Fin.ext ?_)
  match a with
  | ⟨0, _⟩ => show win2_1.index t (0 : Fin 1) * 16384 + 1 * (y 0).val = (y 0).val; omega

/-- WHAT THE POINT WRITES BACK is the one block of the specification. -/
theorem flushed2_eq (c : Dev nD) (t : Fin cfg2.N) :
    (dat2 Y DD o0 B c).flushed 2 t = ((cfg2.win 2).blk t).view.read (Elt F) (outSpec Y DD) := by
  show (cfg2.win 2).cut (grid2.coords t) ((dat2 Y DD o0 B c).after 2 t) = _
  rw [after2_2]
  unfold out2
  rw [View.canon_unit_zero zeroOffs1]
  simp only [View.ld_unit_zero (S := S16384) zeroOffs1]
  obtain ⟨e0, e1, e2⟩ := idx_facts2 t
  rw [iblk2_0, iblk2_1]
  funext j
  show k2_pay1 Y DD j = outSpec Y DD (((cfg2.win 2).blk t).view.emb j)
  unfold outSpec
  refine congrArg (k2_pay1 Y DD) (funext fun a => Fin.ext ?_)
  match a with
  | ⟨0, _⟩ => show (j 0).val = win2_2.index t (0 : Fin 1) * 16384 + 1 * (j 0).val; omega

theorem mem_oblock (t : Fin cfg2.N) (i : S16384.Idx) :
    i ∈ ((cfg2.win 2).blk t).view.set ↔ ∀ a : Fin 1, win2_2.index t a * S16384.size a ≤ (i a).val ∧ (i a).val < win2_2.index t a * S16384.size a + S16384.size a := by
  show i ∈ ((View.whole main_v3).slice (win2_2.rect t)).set ↔ _
  rw [View.set_slice_whole, Rect.mem_set_unit]
  exact Iff.rfl

theorem arrCover2 (i : S16384.Idx) : ∃ t : Fin cfg2.N, (cfg2.win 2).flush t = true ∧ i ∈ ((cfg2.win 2).blk t).view.set := by
  have hi : (i 0).val < 16384 := (i 0).isLt
  obtain ⟨-, -, e2⟩ := idx_facts2 t2_0
  refine ⟨t2_0, flush2_2 t2_0, ?_⟩
  rw [mem_oblock]
  intro a
  match a with
  | ⟨0, _⟩ =>
    show win2_2.index t2_0 (0 : Fin 1) * 16384 ≤ (i 0).val ∧ (i 0).val < win2_2.index t2_0 (0 : Fin 1) * 16384 + 16384
    omega

/-- THE RESULT ARRAY after the region: the specification. -/
theorem final2 (c : Dev nD) : (dat2 Y DD o0 B c).arrAt 2 cfg2.N = outSpec Y DD :=
  (dat2 Y DD o0 B c).arrAt_eq_of_cover 2 (outSpec Y DD) (fun t _ => flushed2_eq Y DD o0 B c t) arrCover2

theorem final2_0 (c : Dev nD) : (dat2 Y DD o0 B c).arrAt 0 cfg2.N = Y := (dat2 Y DD o0 B c).arrAt_in 0 rfl _
theorem final2_1 (c : Dev nD) : (dat2 Y DD o0 B c).arrAt 1 cfg2.N = DD := (dat2 Y DD o0 B c).arrAt_in 1 rfl _

end Region2

end Cert.Proof.KernelIdeal

end
-- ==== Proof.KernelIdeal.Regions.lean ====
/-
  The two TensorCore regions run one after the other. From the region boundary, the transposed features, the weights,
  the bias and the SparseCore call's result each held whole, the two result arrays held at anything, and the core owing
  nothing, the two custom calls run to the boundary with the four inputs as they were, the first result array at the
  matrix-vector specification and the second at the combining specification of it and the SparseCore call's result; the
  core still owes nothing, and its waits recorded only pairs of the pipelines' own index besides those recorded before.
-/
import proofs.«203773_g32736240730729_cont_9to1_2154_21_alg».proof.Proof.KernelIdeal.Common
import proofs.«203773_g32736240730729_cont_9to1_2154_21_alg».proof.Proof.KernelIdeal.Regions.Values
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The two custom calls, in order. -/
def regionsProg : Prog (TpuEff nD τ sig (Elt F) (ΛP (F := F)) .tc) PUnit :=
  .op (.customCall (Pipeline.entry 0) ()) fun _ => .op (.customCall (Pipeline.entry 1) ()) fun _ => .ret ⟨⟩

/-! ## The pipelines' staging cells' ghost state at launch -/

/-- The launch element of the staging cells' rounds: every cell at its first round, every duty token dealt. -/
def ghost₀ : UP := initOf (Pipeline.cells cfgs cellOf_inj) (Pipeline.launchToks cfgs cellOf_inj)

/-- Owning it deals, core by core, both pipelines' cells' ghost state and duty tokens. -/
theorem fund_regions : (BI.own (EP ghost₀) : sProp 𝕄)
    ⊢ iprop(|==> bigSep Finset.univ fun d : Dev nD => Pipeline.ghostOn (pcfgs (F := F)) adm EP Finset.univ d) := by
  refine (Pipeline.fund_ghost (Ix := HIx 1) (Val := Elt F) (Name := ℕ) (U := UU) (Lvl := ℕ) cfgs EP cellOf_inj).trans (bupd_mono ?_)
  rw [← bigSep_sep']
  exact bigSep_mono fun c _ =>
    show iprop((bigSep Finset.univ fun p => Pipeline.cellsGhost cfgs EP p c)
        ∗ bigSep Finset.univ fun p => (Pipeline.toksInit cfgs EP p c : sProp 𝕄))
      ⊢ Pipeline.ghostOn (pcfgs (F := F)) adm EP Finset.univ c
    from Entails.of_eq (by rw [← bigSep_sep']; rfl)

/-! ## The proof data family and the thread states -/

section Segs

variable (XT : Vec F S64x16384 .f32) (β : Vec F S64 .f32) (μ : Vec F S1 .f32) (DD y0 o0 : Vec F S16384 .f32)
  (W : Waits sig (HIx 1))

/-- Both pipelines' proof data, each at its region's entry contents: the second region finds the first result array
    at the first region's specification. -/
def pdats : (p : Fin 2) → (c : Dev nD) → Dat τ (Elt F) (HIx 1) ℕ UU ℕ (Pipeline.pin (pcfgs (F := F)) adm p) c
  | ⟨0, _⟩ => fun c => dat1 XT β μ y0 (recB W) c
  | ⟨1, _⟩ => fun c => dat2 (ySpec XT β μ) DD o0 (recB W) c

/-- The core owing nothing, its recorded pairs those recorded before the regions and pairs at the pipelines' index. -/
abbrev owesR (c : Dev nD) : sProp 𝕄 := Pipeline.owesWithin c (0 : CellTallies nD τ sig (HIx 1)) (recB W)

/-- The thread state: the six arrays at contents `Yc` (first result) and `Oc` (second result), the core owing nothing. -/
abbrev regState (Yc Oc : Vec F S16384 .f32) (c : Dev nD) : sProp 𝕄 :=
  iprop((xtLoc c ↦{fullShare} XT) ∗ (betaLoc c ↦{fullShare} β) ∗ (muLoc c ↦{fullShare} μ) ∗ (yLoc c ↦{fullShare} Yc)
    ∗ (dLoc c ↦{fullShare} DD) ∗ (outLoc c ↦{fullShare} Oc) ∗ owesR W c)

/-- The pipelines' own waits record pairs at the index `none`, so a bound that admits every such pair absorbs them. -/
theorem bound_sub {cfg : Pipeline.Cfg sig Λ₀} {c : Dev nD} (dat : Dat τ (Elt F) (HIx 1) ℕ UU ℕ cfg c)
    (hrec : ∀ t, dat.recorded t = recB W) (t : Fin (cfg.N + 1)) : dat.bound none t ⊆ recB W := by
  intro p hp
  rcases hp with hp | ⟨w, s, rfl⟩
  · rw [hrec] at hp; exact hp
  · exact Or.inr rfl

/-! ## The regions as segments -/

set_option backward.isDefEq.respectTransparency.types false in
/-- REGION 1 (the matrix-vector kernel): entered with the first result array at anything, left with it at the
    specification. Its four arrays go into the pipeline; the SparseCore call's result and the second result array
    bypass it; the invariant is the scoped buffers no window stages; nothing owed; no semaphore of the kernel's own. -/
def reg1 : Pipeline.RegionSeg (pcfgs (F := F)) adm (pdats XT β μ DD y0 o0 W) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 XT β μ y0 (recB W) c).loose
  hwaits := Pipeline.hwaits_of_owed_zero _ _ _ _ (K (F := F)).L (K (F := F)).lev 0 fun _ _ => rfl
  pre c := regState XT β μ DD W y0 o0 c
  post c := regState XT β μ DD W (ySpec XT β μ) o0 c
  X _ := iprop(emp)
  Y _ := iprop(emp)
  Z c := iprop((dLoc c ↦{fullShare} DD) ∗ (outLoc c ↦{fullShare} o0))
  hentry c := by
    rw [Pipeline.ownSems0_none,
      Pipeline.arrays_eq (Pipeline.pin (pcfgs (F := F)) adm) (pdats XT β μ DD y0 o0 W) 0 c launch1.arr_whole
        ((pdats XT β μ DD y0 o0 W 0 c).share_full fun _ => rfl), bigSep_W1]
    iintro ⟨⟨Hxt, Hβ, Hμ, Hy, Hd, Hout, HO⟩, -, -⟩
    imodintro
    isplitl [Hxt Hβ Hμ Hy]
    · isplitl [Hxt]; · iexact Hxt
      isplitl [Hβ]; · iexact Hβ
      isplitl [Hμ]; · iexact Hμ
      iexact Hy
    isplitr; · unfold Pipeline.prefHeld; rw [show (Finset.univ : Finset (Fin 0)) = ∅ from rfl, BI.bigSep_empty]; iempintro
    isplitl [HO]
    · iapply (Pipeline.owesWithin_mono c _ (fun p hp => Or.inl hp)); iexact HO
    isplitr; · iempintro
    isplitl [Hd]; · iexact Hd
    iexact Hout
  hin c := by
    rw [show (pdats XT β μ DD y0 o0 W 0 c).Φ 0 = Pipeline.scopedRest spec1 c from rfl]
    iintro ⟨-, -, Hr⟩
    iexact Hr
  hout c := by
    rw [Pipeline.ownSems0_none, show (pdats XT β μ DD y0 o0 W 0 c).Φ (Fin.last _) = Pipeline.scopedRest spec1 c from rfl]
    iintro Hr
    isplitr; · iempintro
    isplitr; · iempintro
    iexact Hr
  hexit c := by
    rw [Pipeline.arrays_eq (Pipeline.pin (pcfgs (F := F)) adm) (pdats XT β μ DD y0 o0 W) 0 c launch1.arr_whole
        ((pdats XT β μ DD y0 o0 W 0 c).share_full fun _ => rfl), bigSep_W1]
    have h0 : (pdats XT β μ DD y0 o0 W 0 c).arrAt 0 cfg1.N = XT := final1_0 XT β μ y0 (recB W) c
    have h1 : (pdats XT β μ DD y0 o0 W 0 c).arrAt 1 cfg1.N = β := final1_1 XT β μ y0 (recB W) c
    have h2 : (pdats XT β μ DD y0 o0 W 0 c).arrAt 2 cfg1.N = μ := final1_2 XT β μ y0 (recB W) c
    have h3 : (pdats XT β μ DD y0 o0 W 0 c).arrAt 3 cfg1.N = ySpec XT β μ := final1 XT β μ y0 (recB W) c
    iintro ⟨⟨Hxt, Hβ, Hμ, Hy⟩, HO, -, Hd, Hout⟩
    imodintro
    isplitl [Hxt]; · rw [← h0]; iexact Hxt
    isplitl [Hβ]; · rw [← h1]; iexact Hβ
    isplitl [Hμ]; · rw [← h2]; iexact Hμ
    isplitl [Hy]; · rw [← h3]; iexact Hy
    isplitl [Hd]; · iexact Hd
    isplitl [Hout]; · iexact Hout
    iapply (Pipeline.owesWithin_mono c _ (bound_sub W (pdats XT β μ DD y0 o0 W 0 c) (fun _ => rfl) (Fin.last _))); iexact HO

set_option backward.isDefEq.respectTransparency.types false in
/-- REGION 2 (the combining kernel): entered with the first result array at its specification and the second at
    anything, left with the second at its specification. The features, the weights and the bias bypass it. -/
def reg2 : Pipeline.RegionSeg (pcfgs (F := F)) adm (pdats XT β μ DD y0 o0 W) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (ySpec XT β μ) DD o0 (recB W) c).loose
  hwaits := Pipeline.hwaits_of_owed_zero _ _ _ _ (K (F := F)).L (K (F := F)).lev 1 fun _ _ => rfl
  pre c := regState XT β μ DD W (ySpec XT β μ) o0 c
  post c := regState XT β μ DD W (ySpec XT β μ) (outSpec (ySpec XT β μ) DD) c
  X _ := iprop(emp)
  Y _ := iprop(emp)
  Z c := iprop((xtLoc c ↦{fullShare} XT) ∗ (betaLoc c ↦{fullShare} β) ∗ (muLoc c ↦{fullShare} μ))
  hentry c := by
    rw [Pipeline.ownSems0_none,
      Pipeline.arrays_eq (Pipeline.pin (pcfgs (F := F)) adm) (pdats XT β μ DD y0 o0 W) 1 c launch2.arr_whole
        ((pdats XT β μ DD y0 o0 W 1 c).share_full fun _ => rfl), bigSep_W2]
    iintro ⟨⟨Hxt, Hβ, Hμ, Hy, Hd, Hout, HO⟩, -, -⟩
    imodintro
    isplitl [Hy Hd Hout]
    · isplitl [Hy]; · iexact Hy
      isplitl [Hd]; · iexact Hd
      iexact Hout
    isplitr; · unfold Pipeline.prefHeld; rw [show (Finset.univ : Finset (Fin 0)) = ∅ from rfl, BI.bigSep_empty]; iempintro
    isplitl [HO]
    · iapply (Pipeline.owesWithin_mono c _ (fun p hp => Or.inl hp)); iexact HO
    isplitr; · iempintro
    isplitl [Hxt]; · iexact Hxt
    isplitl [Hβ]; · iexact Hβ
    iexact Hμ
  hin c := by
    rw [show (pdats XT β μ DD y0 o0 W 1 c).Φ 0 = Pipeline.scopedRest spec2 c from rfl]
    iintro ⟨-, -, Hr⟩
    iexact Hr
  hout c := by
    rw [Pipeline.ownSems0_none, show (pdats XT β μ DD y0 o0 W 1 c).Φ (Fin.last _) = Pipeline.scopedRest spec2 c from rfl]
    iintro Hr
    isplitr; · iempintro
    isplitr; · iempintro
    iexact Hr
  hexit c := by
    rw [Pipeline.arrays_eq (Pipeline.pin (pcfgs (F := F)) adm) (pdats XT β μ DD y0 o0 W) 1 c launch2.arr_whole
        ((pdats XT β μ DD y0 o0 W 1 c).share_full fun _ => rfl), bigSep_W2]
    have h0 : (pdats XT β μ DD y0 o0 W 1 c).arrAt 0 cfg2.N = ySpec XT β μ := final2_0 (ySpec XT β μ) DD o0 (recB W) c
    have h1 : (pdats XT β μ DD y0 o0 W 1 c).arrAt 1 cfg2.N = DD := final2_1 (ySpec XT β μ) DD o0 (recB W) c
    have h2 : (pdats XT β μ DD y0 o0 W 1 c).arrAt 2 cfg2.N = outSpec (ySpec XT β μ) DD := final2 (ySpec XT β μ) DD o0 (recB W) c
    iintro ⟨⟨Hy, Hd, Hout⟩, HO, -, Hxt, Hβ, Hμ⟩
    imodintro
    isplitl [Hxt]; · iexact Hxt
    isplitl [Hβ]; · iexact Hβ
    isplitl [Hμ]; · iexact Hμ
    isplitl [Hy]; · rw [← h0]; iexact Hy
    isplitl [Hd]; · rw [← h1]; iexact Hd
    isplitl [Hout]; · rw [← h2]; iexact Hout
    iapply (Pipeline.owesWithin_mono c _ (bound_sub W (pdats XT β μ DD y0 o0 W 1 c) (fun _ => rfl) (Fin.last _))); iexact HO

end Segs

/-! ## The step that runs both -/

set_option backward.isDefEq.respectTransparency.types false in
/-- Both regions in order, on core `d`. -/
theorem wp_regions (d : Dev nD) (XT : Buf (Elt F) (xtLoc d)) (β : Buf (Elt F) (betaLoc d)) (μ : Buf (Elt F) (muLoc d))
    (dd : Buf (Elt F) (dLoc d)) (W : Waits sig (HIx 1)) (Φ : PUnit → sProp 𝕄) :
    iprop(levAts (K (F := F)).L (K (F := F)).lev ∗ boundary (T d) ∗ Pipeline.ghostOn (pcfgs (F := F)) adm EP Finset.univ d ∗ owes (T d) 0 W
        ∗ (xtLoc d ↦{fullShare} XT) ∗ (betaLoc d ↦{fullShare} β) ∗ (muLoc d ↦{fullShare} μ) ∗ (dLoc d ↦{fullShare} dd)
        ∗ (∃ f, yLoc d ↦{fullShare} f) ∗ (∃ f, outLoc d ↦{fullShare} f)
        ∗ (iprop(boundary (T d) ∗ (xtLoc d ↦{fullShare} XT) ∗ (betaLoc d ↦{fullShare} β) ∗ (muLoc d ↦{fullShare} μ) ∗ (dLoc d ↦{fullShare} dd)
              ∗ (yLoc d ↦{fullShare} ySpec XT β μ) ∗ (outLoc d ↦{fullShare} outSpec (ySpec XT β μ) dd)
              ∗ ∃ W', ⌜∀ p ∈ W', p ∈ W ∨ p.2 = none⌝ ∗ owes (T d) 0 W') -∗ Φ ⟨⟩))
      ⊢ wp frame (wpE (D (F := F)) 𝒱 (T d) none) Set.univ regionsProg Φ := by
  iintro ⟨Hlev, Hb, Hg, Ho, Hxt, Hβ, Hμ, Hd, ⟨%y0, Hy⟩, ⟨%o0, Hout⟩, Hk⟩
  have hrun := Pipeline.wp_segs (pcfgs (F := F)) adm (pdats XT β μ dd y0 o0 W) none cellOf_inj EP defs₀ 𝒱₀ (K (F := F)).L (K (F := F)).lev d (Q := Φ)
    [.region (reg1 XT β μ dd y0 o0 W), .region (reg2 XT β μ dd y0 o0 W)] Finset.univ
    (regState XT β μ dd W y0 o0) (regState XT β μ dd W (ySpec XT β μ) (outSpec (ySpec XT β μ) dd))
    (by simp only [Pipeline.Seg.pipes_region, Pipeline.Seg.pipes_nil]; decide) (fun p _ => Finset.mem_univ p)
    ⟨fun _ => .rfl, fun _ => .rfl, fun _ => .rfl⟩
  iapply hrun
  isplitl [Hk]
  · iintro ⟨Hb, Hxt, Hβ, Hμ, Hy, Hd, Hout, ⟨%W', %hW', HO⟩⟩
    iapply Hk
    isplitl [Hb]; · iexact Hb
    isplitl [Hxt]; · iexact Hxt
    isplitl [Hβ]; · iexact Hβ
    isplitl [Hμ]; · iexact Hμ
    isplitl [Hd]; · iexact Hd
    isplitl [Hy]; · iexact Hy
    isplitl [Hout]; · iexact Hout
    iexists W'; isplitr; · ipureintro; exact fun p hp => hW' (Finset.mem_coe.mpr hp)
    iexact HO
  isplitl [Hb]; · iexact Hb
  isplitr [Hlev Hg]
  · isplitl [Hxt]; · iexact Hxt
    isplitl [Hβ]; · iexact Hβ
    isplitl [Hμ]; · iexact Hμ
    isplitl [Hy]; · iexact Hy
    isplitl [Hd]; · iexact Hd
    isplitl [Hout]; · iexact Hout
    iexists W; isplitr; · ipureintro; exact fun p hp => Or.inl (Finset.mem_coe.mp hp)
    iexact Ho
  isplitl [Hlev]; · iexact Hlev
  iexact Hg

end Cert.Proof.KernelIdeal

end
-- ==== Proof.KernelIdeal.Run.lean ====
/-
  The kernel program's run: the launch theorem at this program, from the run of one tile's task, the deal of the arrays
  among the tiles, and the run of the two TensorCore regions. Every weakly fair execution of the device's thirty-five
  threads terminates, nothing faulting, with the result array at the program's term of the six argument arrays and those
  unchanged — under the one hypothesis that the index words name rows of the table.
-/
import proofs.«203773_g32736240730729_cont_9to1_2154_21_alg».proof.Proof.KernelIdeal.Launch.Main
import proofs.«203773_g32736240730729_cont_9to1_2154_21_alg».proof.Proof.KernelIdeal.Tile
import proofs.«203773_g32736240730729_cont_9to1_2154_21_alg».proof.Proof.KernelIdeal.Split
import proofs.«203773_g32736240730729_cont_9to1_2154_21_alg».proof.Proof.KernelIdeal.Regions

noncomputable section

namespace Cert.Proof.KernelIdeal

open Cert.KernelIdeal Cert.KernelIdeal.Gen
open Idealize.ShloMosaic
open Idealize.SL Idealize.SL.BI Idealize.SL.Sem

variable {F : FTy → Type} [FloatOps F]
variable (m : (ℓ : Loc nD τ sig) → Buf (Elt F) ℓ) (ρ : Dev nD → PrngReg)

/-- Every home and away index word names a row of the table. -/
def IdxOK : Prop := ∀ (d : Dev nD) (j : S16384.Idx), ((m (homeLoc d) : Vec F S16384 .i32) j).toNat < 100000 ∧ ((m (awayLoc d) : Vec F S16384 .i32) j).toNat < 100000

def tileTask : TileTask (F := F) m where
  Hidx := IdxOK m
  goRes := goRes m
  tdRes := tdRes m
  go_storable := fun d L => goRes_storable m d L
  td_storable := fun d L => tdRes_storable m d L
  body := fun hF hidx d L O W hO => tile_body m d L hF hidx O W hO
  Rem := tabRem m
  deal := deal m
  join := join m

def regionsRun : RegionsRun (F := F) where
  adm := adm
  run := fun d XT β μ dd W Φ => wp_regions d XT β μ dd W Φ
  ghost₀ := ghost₀
  fund := fund_regions

theorem run [∀ e, Nonempty (Elt F e)] (hidx : IdxOK m) :
    θ_run (Cert.KernelIdeal.defs (F := F)) (Cert.KernelIdeal.threads (F := F)) ⟨m, fun _ => 0, ρ⟩ (QC m) :=
  run_main m ρ (tileTask m) regionsRun hidx

end Cert.Proof.KernelIdeal

end
-- ==== Proof.Kernel.Common.lean ====
/-
  Shared vocabulary of the kernel side: the program as the launch theorem sees it, the resource algebra
  (the launch handshakes' rounds beside the staging cells' rounds and the transfers' counters), and the
  pure functions the run's arrays are stated at.
-/
import proofs.«203773_g32736240730729_cont_9to1_2154_21_alg».proof.Defs
import proofs.«203773_g32736240730729_cont_9to1_2154_21_alg».proof.Proof.Gen.Kernel
import proofs.«203773_g32736240730729_cont_9to1_2154_21_alg».proof.Proof.Gen.Kernel.Skeleton
import proofs.«203773_g32736240730729_cont_9to1_2154_21_alg».proof.Proof.Gen.Kernel.Launch
import proofs.«203773_g32736240730729_cont_9to1_2154_21_alg».proof.Proof.Gen.Kernel.Points
import proofs.«203773_g32736240730729_cont_9to1_2154_21_alg».proof.Proof.PreFacts
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.Proof.Kernel

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## A tile's place -/

/-- A tile's coordinates from its SparseCore and its place in it. -/
def coordsV (c : Fin (grid0.bound 0)) (s : Fin (grid0.bound 1)) : grid0.Coords :=
  fun | 0 => c | 1 => s | ⟨_ + 2, h⟩ => absurd h (Nat.not_lt.2 (Nat.le_add_left _ _))

/-- The SparseCore and the vector subcore a tile's coordinates name. -/
abbrev cV (L : grid0.Coords) : Fin τ.nSC := (L 0).castLE hcore0
abbrev jV (L : grid0.Coords) : Fin τ.nSub := (L 1).castLE hsub0

/-! ## The resource algebra -/

/-- The launch handshakes' rounds. -/
abbrev UH : Type := URounds (GSem nD τ sig) ℕ
/-- The TensorCore pipelines' staging cells' rounds. -/
abbrev UP : Type := URounds (GSem nD τ sig) Unit
/-- The three side by side: the transfers' counters are found in the right by instance. -/
abbrev UU : Type := UH × (UP × Counters)

/-- The machine's algebra over them. -/
abbrev MM (F : FTy → Type) : Type := MT nD τ sig (HIx 1) (Elt F) ℕ UU ℕ

abbrev EH : Emb UH (MM F) := embL
def EP : Emb UP (MM F) := (Emb.inl : Emb UP (UP × Counters)).trans embR

instance EP_landsIn : (EP : Emb UP (MM F)).LandsIn (upEmb : UEmb _ (MM F)) := by unfold EP; infer_instance

/-! ## The arrays' locations -/

abbrev homeLoc (d : Dev nD) : Loc nD τ sig := (SparseCore.T d).loc main_arg0
abbrev awayLoc (d : Dev nD) : Loc nD τ sig := (SparseCore.T d).loc main_arg1
abbrev xLoc (d : Dev nD) : Loc nD τ sig := (SparseCore.T d).loc main_arg2
abbrev tabLoc (d : Dev nD) : Loc nD τ sig := (SparseCore.T d).loc main_arg3
abbrev betaLoc (d : Dev nD) : Loc nD τ sig := (SparseCore.T d).loc main_arg4
abbrev muLoc (d : Dev nD) : Loc nD τ sig := (SparseCore.T d).loc main_arg5
abbrev dLoc (d : Dev nD) : Loc nD τ sig := (SparseCore.T d).loc main_v0
abbrev xtLoc (d : Dev nD) : Loc nD τ sig := (SparseCore.T d).loc main_v1
abbrev yLoc (d : Dev nD) : Loc nD τ sig := (SparseCore.T d).loc main_v2
abbrev outLoc (d : Dev nD) : Loc nD τ sig := (SparseCore.T d).loc main_v3

/-! ## What the arrays hold after each stage, as pure functions of the argument arrays -/

section Spec

variable [FloatOps F]

/-- The SparseCore call's result: entry `j` is the table at the home index minus the table at the away index. -/
def dSpec (h a : Vec F S16384 .i32) (s : Vec F S100000 .f32) : Vec F S16384 .f32 :=
  fun j => FloatOps.subf (s (Cert.Proof.PreFacts.takeIdx (h j))) (s (Cert.Proof.PreFacts.takeIdx (a j)))

/-- The host transpose's result. -/
def xtSpec (X : Vec F S16384x64 .f32) : Vec F S64x16384 .f32 :=
  transpose S64x16384 [1, 0] X transposes_S16384x64_S64x16384_1_0

/-- Block `t` (of two) of the transposed features: columns `[8192 t, 8192 t + 8192)`. -/
def xtBlock (XT : Vec F S64x16384 .f32) (t : Fin 2) : Vec F S64x8192 .f32 :=
  fun y => XT (ValueIdx.ix2 (y 0) ⟨8192 * t.val + (y 1).val, by have h1 : (y 1).val < 8192 := (y 1).isLt; have h2 : t.val < 2 := t.isLt; show _ < 16384; omega⟩)

/-- The first TensorCore call's result: entry `b` is the body's payload of the block holding column `b`, read at `b`'s place in it. -/
def ySpec (XT : Vec F S64x16384 .f32) (β : Vec F S64 .f32) (μ : Vec F S1 .f32) : Vec F S16384 .f32 :=
  fun j => k1_pay1 (xtBlock XT ⟨(j 0).val / 8192, by have h1 : (j 0).val < 16384 := (j 0).isLt; show _ < 2; omega⟩) β (μ (ValueIdx.ix1 0))
    (ValueIdx.ix1 ⟨(j 0).val % 8192, Nat.mod_lt _ (by decide)⟩)

/-- The second TensorCore call's result: its body's payload of the two arrays. -/
def outSpec (y d : Vec F S16384 .f32) : Vec F S16384 .f32 := k2_pay1 y d

/-- The program's result as one function of its six argument arrays. -/
def kernelTerm (h a : Vec F S16384 .i32) (X : Vec F S16384x64 .f32) (s : Vec F S100000 .f32) (β : Vec F S64 .f32) (μ : Vec F S1 .f32) :
    Vec F S16384 .f32 :=
  outSpec (ySpec (xtSpec X) β μ) (dSpec h a s)

end Spec

end Cert.Proof.Kernel

end
-- ==== Proof.Kernel.Launch.Pay.lean ====
/-
  The launch theorem's obligations about the SparseCore call: what the handshakes carry (each tile's share of the
  index arrays, of the table and of the output, handed over as already dealt to the tiles), the tile obligation from
  the run of one tile's task, and the split of a SparseCore's operands among its tiles (the identity, the operands
  being handed over already dealt).
-/
import proofs.«203773_g32736240730729_cont_9to1_2154_21_alg».proof.Proof.Kernel.Common

noncomputable section

namespace Cert.Proof.Kernel

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MM F

/-! ## The program's facts -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_q (q : Fin 1) : (K (F := F)).nCore q = grid0.bound 0 := match q with | 0 => rfl
theorem nSub_q (q : Fin 1) : (K (F := F)).nSub q = grid0.bound 1 := match q with | 0 => rfl

variable [FloatOps F]
variable (m : (ℓ : Loc nD τ sig) → Buf (Elt F) ℓ)

/-! ## What is taken from the run of one tile's task -/

/-- One tile's task: what it is handed and hands back, the run of its body between the two, and how the whole arrays
    are dealt to the thirty-two tiles and come back from them — the output then holding the table's differences. -/
structure TileTask where
  /-- The index words are in range of the table. -/
  Hidx : Prop
  goRes : Dev nD → grid0.Coords → sProp 𝕄
  tdRes : Dev nD → grid0.Coords → sProp 𝕄
  go_storable : ∀ d L, BI.Storable (upEmb : UEmb _ 𝕄) (goRes d L)
  td_storable : ∀ d L, BI.Storable (upEmb : UEmb _ 𝕄) (tdRes d L)
  body : (K (F := F)).Facts → Hidx → ∀ (d : Dev nD) (L : grid0.Coords) (O : CellTallies nD τ sig (HIx 1)) (W : Waits sig (HIx 1)), (∀ g, O g none = 0) →
    iprop(levAts (K (F := F)).L (K (F := F)).lev ∗ emp ∗ goRes d L ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L (Memref.whole main_arg0_scv) (Memref.isWhole_whole _) (Memref.whole main_arg1_scv) (Memref.isWhole_whole _)
            (Memref.whole main_arg3_scv) (Memref.isWhole_whole _) (Memref.whole main_v0_scv) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7 cc0_scratch8 cc0_scratch9 cc0_scratch10 cc0_scratch11)
          fun _ => iprop(tdRes d L ∗ scopedBufs (V d (cV L) (jV L)) ∗ scopedSems0 (V d (cV L) (jV L))
            ∗ ∃ W', ⌜∀ p ∈ W', p ∈ W ∨ p.2 = none⌝ ∗ owes (V d (cV L) (jV L)) O W')
  /-- What of the table's share no tile is handed: kept by the TensorCore across the call. -/
  Rem : Dev nD → sProp 𝕄
  deal : ∀ d, iprop((homeLoc d ↦{fullShare} m (homeLoc d)) ∗ (awayLoc d ↦{fullShare} m (awayLoc d)) ∗ (tabLoc d ↦{fullShare} m (tabLoc d))
      ∗ (dLoc d ↦{fullShare} m (dLoc d)))
    ⊢ iprop((bigSep Finset.univ fun c : Fin (grid0.bound 0) => bigSep Finset.univ fun s : Fin (grid0.bound 1) => goRes d (coordsV c s)) ∗ Rem d)
  join : ∀ d, iprop((bigSep Finset.univ fun c : Fin (grid0.bound 0) => bigSep Finset.univ fun s : Fin (grid0.bound 1) => tdRes d (coordsV c s)) ∗ Rem d)
    ⊢ iprop((homeLoc d ↦{fullShare} m (homeLoc d)) ∗ (awayLoc d ↦{fullShare} m (awayLoc d)) ∗ (tabLoc d ↦{fullShare} m (tabLoc d))
      ∗ (dLoc d ↦{fullShare} dSpec (m (homeLoc d)) (m (awayLoc d)) (m (tabLoc d))))

variable {m} (TK : TileTask (F := F) m)

/-! ## What the handshakes carry -/

theorem lt_core (q : Fin 1) (c : Fin ((K (F := F)).nCore q)) : c.val < grid0.bound 0 := lt_of_lt_of_eq c.isLt (nCore_q q)
theorem lt_sub (q : Fin 1) (i : Fin ((K (F := F)).nSub q)) : i.val < grid0.bound 1 := lt_of_lt_of_eq i.isLt (nSub_q q)

/-- The coordinates of task `i` of SparseCore `c` of the call's grid. -/
def coordsQ (q : Fin 1) (c : Fin ((K (F := F)).nCore q)) (i : Fin ((K (F := F)).nSub q)) : grid0.Coords :=
  coordsV ⟨c.val, lt_core q c⟩ ⟨i.val, lt_sub q i⟩

/-- The call hands each SparseCore its sixteen tiles' shares already dealt, and takes them back so. -/
def P : (K (F := F)).Pay (nD := nD) (Val := Elt F) (Name := ℕ) (U := UU) where
  st := fun q d c => bigSep Finset.univ fun i : Fin ((K (F := F)).nSub q) => TK.goRes d (coordsQ q c i)
  dn := fun q d c => bigSep Finset.univ fun i : Fin ((K (F := F)).nSub q) => TK.tdRes d (coordsQ q c i)
  go := fun q d c i => TK.goRes d (coordsQ q c i)
  td := fun q d c i => TK.tdRes d (coordsQ q c i)
  x := fun _ _ => iprop(emp)

instance P_storable : (P TK).IsStorable where
  st q d c := by
    unfold P; dsimp only
    haveI := TK.go_storable; infer_instance
  dn q d c := by
    unfold P; dsimp only
    haveI := TK.td_storable; infer_instance
  go q d c i := by unfold P; exact TK.go_storable _ _
  td q d c i := by unfold P; exact TK.td_storable _ _

/-! ## The tile obligation -/

theorem defs₀_vector (c : Fin τ.nSC) (s : Fin τ.nSub) :
    defs₀ (F := F) (.scVector c s) 0 ()
      = SparseCore.onTile hcore0 hsub0 (fun c s => cc0_k (coordsV c s)
          (Memref.whole main_arg0_scv) (Memref.isWhole_whole _) (Memref.whole main_arg1_scv) (Memref.isWhole_whole _)
          (Memref.whole main_arg3_scv) (Memref.isWhole_whole _) (Memref.whole main_v0_scv) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 cc0_scratch9 cc0_scratch10 cc0_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hidx : TK.Hidx) : (K (F := F)).TileObl (D (F := F)) 𝒱 (P TK) v₀ 0 := by
  intro d c i O W hO _ _
  simp only [show (P TK).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (TK.body hF hidx d (coordsV ⟨_, hc.1⟩ ⟨_, hc.2⟩) O W hO).trans (wp_mono frame _ _ fun _ => obl_post)

/-! ## The split of a SparseCore's operands among its tiles -/

theorem vecSplit : (K (F := F)).VecSplit' (P TK) 0 := by
  intro d c
  show (bigSep Finset.univ fun i : Fin ((K (F := F)).nSub 0) => TK.goRes d (coordsQ 0 c i)) ⊢ |={Set.univ}=> iprop(
      (bigSep Finset.univ fun i : Fin ((K (F := F)).nSub 0) => TK.goRes d (coordsQ 0 c i))
      ∗ ((bigSep Finset.univ fun i : Fin ((K (F := F)).nSub 0) => TK.tdRes d (coordsQ 0 c i))
          -∗ (bigSep Finset.univ fun i : Fin ((K (F := F)).nSub 0) => TK.tdRes d (coordsQ 0 c i))))
  iintro H; imodintro
  isplitl [H]; · iexact H
  iintro H; iexact H

end Cert.Proof.Kernel

end
-- ==== Proof.Kernel.Launch.Main.lean ====
/-
  @main on the TensorCore, inside the launch theorem: the SparseCore call (the operands dealt to the tiles, the results
  joined), the host transpose, the two TensorCore regions run by their own rule, and what the final memory holds.
  Also the launch element: the handshakes' rounds, the staging cells' rounds funding the regions' ghost state, and the
  transfers' counters, of which the launch needs nothing.
-/
import proofs.«203773_g32736240730729_cont_9to1_2154_21_alg».proof.Proof.Kernel.Launch.Pay

noncomputable section

namespace Cert.Proof.Kernel

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MM F

variable [FloatOps F]
variable (m : (ℓ : Loc nD τ sig) → Buf (Elt F) ℓ) (ρ : Dev nD → PrngReg)

/-! ## What is taken from the two TensorCore regions -/

/-- The two regions, one after the other, as a program of the pipelines' signature. -/
def regionsProg₀ : Prog (TpuEff nD τ sig (Elt F) (ΛP (F := F)) .tc) PUnit :=
  .op (.customCall (Pipeline.entry 0) ()) fun _ => .op (.customCall (Pipeline.entry 1) ()) fun _ => .ret ⟨⟩

/-- The two regions' run: from the transposed features, the weights, the offset and the SparseCore call's result held
    whole (and the two result arrays at any contents), the pipelines' ghost state and a TensorCore that owes nothing,
    to the two result arrays at the bodies' payloads of their blocks; and the ghost state funded from a launch element. -/
structure RegionsRun where
  adm : (p : Fin 2) → (pcfgs (F := F) p).Adm
  run : ∀ (d : Dev nD) (XT : Buf (Elt F) (xtLoc d)) (β : Buf (Elt F) (betaLoc d)) (μ : Buf (Elt F) (muLoc d)) (dd : Buf (Elt F) (dLoc d))
      (W : Waits sig (HIx 1)) (Φ : PUnit → sProp 𝕄),
    iprop(levAts (K (F := F)).L (K (F := F)).lev ∗ boundary (T d) ∗ Pipeline.ghostOn pcfgs adm EP Finset.univ d ∗ owes (T d) 0 W
        ∗ (xtLoc d ↦{fullShare} XT) ∗ (betaLoc d ↦{fullShare} β) ∗ (muLoc d ↦{fullShare} μ) ∗ (dLoc d ↦{fullShare} dd)
        ∗ (∃ f, yLoc d ↦{fullShare} f) ∗ (∃ f, outLoc d ↦{fullShare} f)
        ∗ (iprop(boundary (T d) ∗ (xtLoc d ↦{fullShare} XT) ∗ (betaLoc d ↦{fullShare} β) ∗ (muLoc d ↦{fullShare} μ) ∗ (dLoc d ↦{fullShare} dd)
              ∗ (yLoc d ↦{fullShare} ySpec XT β μ) ∗ (outLoc d ↦{fullShare} outSpec (ySpec XT β μ) dd)
              ∗ ∃ W', ⌜∀ p ∈ W', p ∈ W ∨ p.2 = none⌝ ∗ owes (T d) 0 W') -∗ Φ ⟨⟩))
      ⊢ wp frame (wpE (D (F := F)) 𝒱 (T d) none) Set.univ (regionsProg₀ (F := F)) Φ
  ghost₀ : UP
  fund : (BI.own (EP ghost₀) : sProp 𝕄) ⊢ iprop(|==> bigSep Finset.univ fun d : Dev nD => Pipeline.ghostOn pcfgs adm EP Finset.univ d)

variable (TK : TileTask (F := F) m) (RK : RegionsRun (F := F))

/-! ## The launch element -/

def u₀ : UU := (initOf (K (F := F)).hsCells (K (F := F)).hsToks, (RK.ghost₀, 1))

/-- What @main's proof starts from beside the launch's deal: the regions' ghost state. -/
def G (d : Dev nD) : sProp 𝕄 := Pipeline.ghostOn pcfgs RK.adm EP Finset.univ d

omit [FloatOps F] in
theorem bigSep_emp' {I : Type} (s : Finset I) : (bigSep s fun _ => iprop(emp)) = (iprop(emp) : sProp 𝕄) := bigSep_emp_const s

theorem hu₀ : (ownU (u₀ RK) : sProp 𝕄)
    ⊢ |={Set.univ}=> iprop(BI.own (EH (initOf (K (F := F)).hsCells (K (F := F)).hsToks)) ∗ (bigSep Finset.univ fun d : Dev nD => G RK d)
        ∗ bigSep Finset.univ fun thr : Thread nD τ => bigSep Finset.univ fun q : Fin 1 => (P TK).x q thr) := by
  unfold u₀
  iintro Hu
  ihave H := (ownU_pair _ _) $$ Hu
  icases H with ⟨HH, HR⟩
  ihave HR' := (own_pair_emb (embR : Emb (UP × Counters) 𝕄) RK.ghost₀ (1 : Counters)) $$ HR
  icases HR' with ⟨HP, -⟩
  ihave HP' := (Entails.of_eq (show (BI.own (((Emb.inl : Emb UP (UP × Counters)).trans (embR : Emb (UP × Counters) 𝕄)) RK.ghost₀) : sProp 𝕄)
    = BI.own (EP RK.ghost₀) from rfl)) $$ HP
  imod RK.fund $$ HP' with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((homeLoc d ↦{fullShare} W main_arg0) ∗ (awayLoc d ↦{fullShare} W main_arg1) ∗ (xLoc d ↦{fullShare} W main_arg2)
      ∗ (tabLoc d ↦{fullShare} W main_arg3) ∗ (betaLoc d ↦{fullShare} W main_arg4) ∗ (muLoc d ↦{fullShare} W main_arg5)
      ∗ (dLoc d ↦{fullShare} W main_v0) ∗ (xtLoc d ↦{fullShare} W main_v1) ∗ (yLoc d ↦{fullShare} W main_v2) ∗ (outLoc d ↦{fullShare} W main_v3)) := by
  unfold unscopedBufs
  rw [show (Finset.univ.filter fun b : Ref sig .tc => ¬ b.isScoped) = {main_arg0, main_arg1, main_arg2, main_arg3, main_arg4, main_arg5, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The host transpose, as @main spells it. -/
abbrev opT : HloOp τ sig (Elt F) :=
  StableHlo.unary main_arg2 main_v1 ((transpose S64x16384 [1, 0] · transposes_S16384x64_S64x16384_1_0) : (⟨S16384x64, .f32⟩ : BufTy).Contents (Elt F) → (⟨S64x16384, .f32⟩ : BufTy).Contents (Elt F))

abbrev x' : DevRef τ sig := Proc.devRef .tc (main_arg2 : Ref sig .tc)
abbrev xt' : DevRef τ sig := Proc.devRef .tc (main_v1 : Ref sig .tc)
abbrev S2 : Finset (DevRef τ sig) := {x', xt'}

omit [FloatOps F] in
theorem held_S2 (d : Dev nD) (W : Valuation τ sig (Elt F)) :
    (held (T d) S2 W : sProp 𝕄) = iprop((xLoc d ↦{fullShare} W x') ∗ (xtLoc d ↦{fullShare} W xt')) := by
  unfold held S2
  rw [SparseCore.bigSep_insert' (by decide), bigSep_singleton]

theorem hT : (opT (F := F)).bufs ⊆ S2 := show ({x', xt'} : Finset (DevRef τ sig)) ⊆ S2 from Finset.Subset.refl _

def V0 (d : Dev nD) : Valuation τ sig (Elt F) := fun b => m (d, b)

/-- @main, regrouped: the call, the transpose, the two regions. -/
theorem main_eq (d : Dev nD) :
    main (F := F) d = ((K (F := F)).run d 0 >>= fun _ => hlo rfl (opT (F := F)) (fun _ => .ret PUnit.unit) >>= fun _ =>
      SparseCore.liftProg (Q := 1) (regionsProg₀ (F := F))) := rfl

/-- The TensorCore's handshake state but for what it owes. -/
def tcTail (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_eq (d : Dev nD) (n : ℕ) :
    ((K (F := F)).tcSt EH d n : sProp 𝕄)
      = iprop((∃ W, ⌜(K (F := F)).WBelow (T d) W (8 * n)⌝ ∗ owes (T d) ((K (F := F)).Otc d n) W) ∗ tcTail d n) := rfl

/-- What the call takes for the two SparseCores, and what it hands back. -/
theorem st0_eq (d : Dev nD) :
    (bigSep Finset.univ fun c : Fin ((K (F := F)).nCore 0) => (P TK).st 0 d c)
      = bigSep Finset.univ fun c : Fin (grid0.bound 0) => bigSep Finset.univ fun s : Fin (grid0.bound 1) => TK.goRes d (coordsV c s) := rfl
theorem dn0_eq (d : Dev nD) :
    (bigSep Finset.univ fun c : Fin ((K (F := F)).nCore 0) => (P TK).dn 0 d c)
      = bigSep Finset.univ fun c : Fin (grid0.bound 0) => bigSep Finset.univ fun s : Fin (grid0.bound 1) => TK.tdRes d (coordsV c s) := rfl

/-- What @main leaves the claim: the six arguments at their launch contents, the result at the program's term of them. -/
def FIN (d : Dev nD) : sProp 𝕄 :=
  iprop((homeLoc d ↦{fullShare} m (homeLoc d)) ∗ (awayLoc d ↦{fullShare} m (awayLoc d)) ∗ (xLoc d ↦{fullShare} m (xLoc d))
    ∗ (tabLoc d ↦{fullShare} m (tabLoc d)) ∗ (betaLoc d ↦{fullShare} m (betaLoc d)) ∗ (muLoc d ↦{fullShare} m (muLoc d))
    ∗ (outLoc d ↦{fullShare} kernelTerm (m (homeLoc d)) (m (awayLoc d)) (m (xLoc d)) (m (tabLoc d)) (m (betaLoc d)) (m (muLoc d))))

theorem hmain (κ : GSem nD τ sig → ℕ) (d : Dev nD) :
    iprop((K (F := F)).ctx EH (P TK) κ ∗ (K (F := F)).tcSt EH d 0 ∗ (K (F := F)).tcRes m ρ d ∗ G RK d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscopedBufs_eq, main_eq]
  simp only [wp_bind]
  iintro ⟨#Hctx, Hst, ⟨Hb, ⟨H0, H1, H2, H3, H4, H5, Hv0, Hv1, Hv2, Hv3⟩, -, -⟩, Hg⟩
  ihave Hlev := (SparseCore.Cfg.ctx_levAts (K := K (F := F)) κ) $$ Hctx
  -- the call: the index arrays, the table and the output dealt to the thirty-two tiles, and joined back
  ihave Hd := (TK.deal d) $$ [H0 H1 H3 Hv0]
  · isplitl [H0]; · iexact H0
    isplitl [H1]; · iexact H1
    isplitl [H3]; · iexact H3
    iexact Hv0
  icases Hd with ⟨Hgo, Hrem⟩
  iapply ((K (F := F)).wp_run (D (F := F)) 𝒱 (EH := EH) (P := P TK) κ d 0) $$ [Hst Hgo Hrem Hb H2 Hv1 H4 H5 Hv2 Hv3 Hg Hlev]
  isplitr; · iexact Hctx
  isplitl [Hst]; · iexact Hst
  isplitl [Hgo]
  · rw [st0_eq]; iexact Hgo
  iintro ⟨Hst, Hdn⟩
  ihave Hdn' := (Entails.of_eq (dn0_eq m TK d)) $$ Hdn
  ihave Hj := (TK.join d) $$ [Hdn' Hrem]
  · isplitl [Hdn']; · iexact Hdn'
    iexact Hrem
  icases Hj with ⟨H0, H1, H3, Hv0⟩
  -- the transpose, over the features and their transposed copy
  iapply (wp_hlo_within 𝒱 (SparseCore.T d) none Set.univ (op := opT) (S := S2) hT (V := V0 m d)) $$ [Hb H2 Hv1]
  · isplitl [Hb]; · iexact Hb
    rw [held_S2]
    isplitl [H2]; · iexact H2
    iexact Hv1
  iintro ⟨Hb, Hheld⟩
  ihave Hh := (Entails.of_eq (held_S2 (F := F) d _)) $$ Hheld
  icases Hh with ⟨H2, Hv1⟩
  rw [StableHlo.unary_result_ne (F := V0 m d) (h := show (main_arg2 : Ref sig .tc) ≠ main_v1 by decide), StableHlo.unary_result]
  rw [wp_ret]; imodintro
  -- the two regions: the TensorCore owes nothing any more
  ihave Hst' := (Entails.of_eq (tcSt_eq (F := F) d ((0 : Fin 1).val + 1))) $$ Hst
  icases Hst' with ⟨⟨%W, %hW, HO⟩, Htail⟩
  rw [(K (F := F)).Otc_end d (n := (0 : Fin 1).val + 1) (le_refl 1)]
  iapply ((K (F := F)).wp_liftProg (D (F := F)) 𝒱 (SparseCore.T d) Set.univ none (regionsProg₀ (F := F)) _)
  iapply (RK.run d _ _ _ _ W _) $$ [Hlev Hb Hg HO Hv1 H4 H5 Hv0 Hv2 Hv3 H0 H1 H2 H3 Htail]
  isplitl [Hlev]; · iexact Hlev
  isplitl [Hb]; · iexact Hb
  isplitl [Hg]; · iexact Hg
  isplitl [HO]; · iexact HO
  isplitl [Hv1]; · iexact Hv1
  isplitl [H4]; · iexact H4
  isplitl [H5]; · iexact H5
  isplitl [Hv0]; · iexact Hv0
  isplitl [Hv2]; · iexists _; iexact Hv2
  isplitl [Hv3]; · iexists _; iexact Hv3
  iintro ⟨-, -, H4, H5, -, -, Hout, %W', %hW', HO⟩
  unfold V0
  isplitl [HO Htail]
  · iapply (Entails.of_eq (tcSt_eq (F := F) d 1).symm)
    isplitl [HO]
    · iexists W'; isplitr
      · ipureintro; intro p hp
        rcases hW' p hp with h | h
        · exact hW p h
        · rw [h, SparseCore.Cfg.lev_none]; exact Nat.zero_le _
      · rw [(K (F := F)).Otc_end d (le_refl 1)]; iexact HO
    · iexact Htail
  unfold FIN kernelTerm xtSpec
  isplitl [H0]; · iexact H0
  isplitl [H1]; · iexact H1
  isplitl [H2]; · iexact H2
  isplitl [H3]; · iexact H3
  isplitl [H4]; · iexact H4
  isplitl [H5]; · iexact H5
  iexact Hout

/-! ## The final memory -/

def fq (d : Dev nD) (s' : Phys nD τ sig (Elt F)) : Prop :=
  s'.mem.mem (homeLoc d) = m (homeLoc d) ∧ s'.mem.mem (awayLoc d) = m (awayLoc d) ∧ s'.mem.mem (xLoc d) = m (xLoc d)
    ∧ s'.mem.mem (tabLoc d) = m (tabLoc d) ∧ s'.mem.mem (betaLoc d) = m (betaLoc d) ∧ s'.mem.mem (muLoc d) = m (muLoc d)
    ∧ s'.mem.mem (outLoc d) = kernelTerm (m (homeLoc d)) (m (awayLoc d)) (m (xLoc d)) (m (tabLoc d)) (m (betaLoc d)) (m (muLoc d))

omit [FloatOps F] in
/-- An array held whole beside the state interpretation is what the state's memory holds there. -/
theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  unfold FIN
  iintro ⟨⟨H0, H1, H2, H3, H4, H5, H6⟩, HSI⟩
  ihave R := (read_whole (F := F) _ _ s') $$ [H0 HSI]
  · isplitl [H0] <;> iassumption
  icases R with ⟨%h0, HSI⟩
  ihave R := (read_whole (F := F) _ _ s') $$ [H1 HSI]
  · isplitl [H1] <;> iassumption
  icases R with ⟨%h1, HSI⟩
  ihave R := (read_whole (F := F) _ _ s') $$ [H2 HSI]
  · isplitl [H2] <;> iassumption
  icases R with ⟨%h2, HSI⟩
  ihave R := (read_whole (F := F) _ _ s') $$ [H3 HSI]
  · isplitl [H3] <;> iassumption
  icases R with ⟨%h3, HSI⟩
  ihave R := (read_whole (F := F) _ _ s') $$ [H4 HSI]
  · isplitl [H4] <;> iassumption
  icases R with ⟨%h4, HSI⟩
  ihave R := (read_whole (F := F) _ _ s') $$ [H5 HSI]
  · isplitl [H5] <;> iassumption
  icases R with ⟨%h5, HSI⟩
  ihave R := (read_whole (F := F) _ _ s') $$ [H6 HSI]
  · isplitl [H6] <;> iassumption
  icases R with ⟨%h6, -⟩
  ipureintro; exact ⟨h0, h1, h2, h3, h4, h5, h6⟩

/-! ## The program's run -/

/-- Every device's result array holds the program's term of its argument arrays, and those are unchanged. -/
def QC : PUnit × MemSt nD τ sig (Elt F) → Prop := fun r => ∀ c : Dev nD,
  r.2.mem (outLoc c) = kernelTerm (m (homeLoc c)) (m (awayLoc c)) (m (xLoc c)) (m (tabLoc c)) (m (betaLoc c)) (m (muLoc c))
    ∧ r.2.mem (homeLoc c) = m (homeLoc c) ∧ r.2.mem (awayLoc c) = m (awayLoc c) ∧ r.2.mem (xLoc c) = m (xLoc c)
    ∧ r.2.mem (tabLoc c) = m (tabLoc c) ∧ r.2.mem (betaLoc c) = m (betaLoc c) ∧ r.2.mem (muLoc c) = m (muLoc c)

include RK in
theorem run_main [∀ e, Nonempty (Elt F e)] (hidx : TK.Hidx) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P TK) facts v₀
    (fun q hq => match q with | 0 => nomatch hq)
    (fun q _ => match q with | 0 => tileObl TK facts hidx)
    (fun q _ => match q with | 0 => SparseCore.Cfg.VecSplit.of_plain (vecSplit TK))
    m ρ main (G RK) (FIN m) (u₀ RK) (sep_elim_left.trans (hu₀ m TK RK)) (hmain m ρ TK RK) (fq m) (hfin m)
    (QC m) (fun s' h c => ⟨(h c).2.2.2.2.2.2, (h c).1, (h c).2.1, (h c).2.2.1, (h c).2.2.2.1, (h c).2.2.2.2.1, (h c).2.2.2.2.2.1⟩)

end Cert.Proof.Kernel

end
-- ==== Proof.Kernel.Tile.Defs.lean ====
/-
  One vector subcore's task of the SparseCore call: the 512 entries of the batch it owns, what it is handed
  when it is started, and what it hands back when it is done.

  Tile `L = (c, s)` has block number `2 s + c` and owns the entries `[512 (2 s + c), 512 (2 s + c) + 512)` of
  every 16384-entry array, which the program addresses as two consecutive 256-entry rectangles (at the offsets
  `k0_off1 L` and `k0_off2 L`). It reads its entries of the two index arrays, reads the whole table (every tile
  does, all at once: each holds a read share of it), and writes its entries of the result.
-/
import proofs.«203773_g32736240730729_cont_9to1_2154_21_alg».proof.Proof.Kernel.Common

noncomputable section

namespace Cert.Proof.Kernel

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The tile's place and its entries -/

/-- The two 256-entry rectangles of a 16384-entry array that tile `L` addresses: its first and second half. -/
abbrev R1 (L : grid0.Coords) : Rect S16384 := Rect.unit (s := S16384) (k0_off1 L) S256.size (k0_off1_inb L)
abbrev R2 (L : grid0.Coords) : Rect S16384 := Rect.unit (s := S16384) (k0_off2 L) S256.size (k0_off2_inb L)

/-- The first 256 of the tile's entries, -/
def blk1 (L : grid0.Coords) : Finset S16384.Idx := (R1 L).set
/-- the second 256, -/
def blk2 (L : grid0.Coords) : Finset S16384.Idx := (R2 L).set
/-- and all 512. -/
def blk (L : grid0.Coords) : Finset S16384.Idx := blk1 L ∪ blk2 L

theorem mem_blk1 (L : grid0.Coords) (i : S16384.Idx) :
    i ∈ blk1 L ↔ 1024 * (L 1).val + 512 * (L 0).val ≤ (i 0).val ∧ (i 0).val < 1024 * (L 1).val + 512 * (L 0).val + 256 := by
  unfold blk1
  rw [Rect.mem_set_unit, k0_off1_eq]
  constructor
  · intro h; have := h 0; simpa using this
  · intro h a; obtain rfl : a = 0 := Subsingleton.elim _ _; simpa using h

theorem mem_blk2 (L : grid0.Coords) (i : S16384.Idx) :
    i ∈ blk2 L ↔ 1024 * (L 1).val + 512 * (L 0).val + 256 ≤ (i 0).val ∧ (i 0).val < 1024 * (L 1).val + 512 * (L 0).val + 512 := by
  unfold blk2
  rw [Rect.mem_set_unit, k0_off2_eq]
  constructor
  · intro h; have := h 0; simpa [Nat.add_assoc] using this
  · intro h a; obtain rfl : a = 0 := Subsingleton.elim _ _; simpa [Nat.add_assoc] using h

/-- The tile's entries are the 512 from `512 (2 s + c)` on. -/
theorem mem_blk (L : grid0.Coords) (i : S16384.Idx) :
    i ∈ blk L ↔ 1024 * (L 1).val + 512 * (L 0).val ≤ (i 0).val ∧ (i 0).val < 1024 * (L 1).val + 512 * (L 0).val + 512 := by
  unfold blk
  rw [Finset.mem_union, mem_blk1, mem_blk2]
  omega

theorem blk_disjoint (L : grid0.Coords) : Disjoint (blk1 L) (blk2 L) := by
  rw [Finset.disjoint_left]
  intro i h1 h2
  rw [mem_blk1] at h1
  rw [mem_blk2] at h2
  omega

/-! ## The table's read shares

The TensorCore's full share of the table goes out as read tokens: one per SparseCore, and of that one per vector
subcore. -/

/-- The read share of the table that tile `L` holds during its task. -/
def tabShare (L : grid0.Coords) : PosShare TreeShare :=
  Transfers.shareTokN (Transfers.shareTokN fullShare (L 0).val) (L 1).val

/-! ## What the task is handed and what it hands back -/

variable [FloatOps F] (m : (ℓ : Loc nD τ sig) → Buf (Elt F) ℓ)

/-- Handed to the task on tile `L`: its 512 entries of the two index arrays and its read share of the table, at the
    launch contents, and its 512 entries of the result, at the launch contents. -/
def goRes (d : Dev nD) (L : grid0.Coords) : sProp 𝕄 :=
  iprop((homeLoc d ↦[blk L]{fullShare} m (homeLoc d)) ∗ (awayLoc d ↦[blk L]{fullShare} m (awayLoc d))
    ∗ (tabLoc d ↦{tabShare L} m (tabLoc d)) ∗ (dLoc d ↦[blk L]{fullShare} m (dLoc d)))

/-- Handed back: the same inputs unchanged, and its 512 entries of the result holding the table at the home index
    less the table at the away index — the one function `dSpec` of the launch contents, at those entries. -/
def tdRes (d : Dev nD) (L : grid0.Coords) : sProp 𝕄 :=
  iprop((homeLoc d ↦[blk L]{fullShare} m (homeLoc d)) ∗ (awayLoc d ↦[blk L]{fullShare} m (awayLoc d))
    ∗ (tabLoc d ↦{tabShare L} m (tabLoc d))
    ∗ (dLoc d ↦[blk L]{fullShare} dSpec (m (homeLoc d)) (m (awayLoc d)) (m (tabLoc d))))

end Cert.Proof.Kernel

end
-- ==== Proof.Kernel.Tile.Setup.lean ====
/-
  A vector subcore's task, the set-up: the memrefs the task addresses, and how what the task holds is laid out for
  its run. Each 1024-entry scratch is held as its four 256-entry quarters (the task's copies and gathers each move
  exactly one quarter); the task's entries of the arrays in HBM as the two 256-entry slices it addresses; its ten DMA
  semaphores one by one; its read share of the table as read tokens, one for each of the four gathers that read the
  table at once.
-/
import proofs.«203773_g32736240730729_cont_9to1_2154_21_alg».proof.Proof.Kernel.Tile.Defs
import Idealize.ShloMosaic.Lib.SparseCore.Ops
import Idealize.ShloMosaic.Lib.Pipeline.Kit

noncomputable section

namespace Cert.Proof.Kernel

open Cert.Kernel Cert.Kernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The memrefs the task addresses -/

abbrev hV : Memref sig .scVector .hbm S16384 .i32 := Memref.whole main_arg0_scv
abbrev aV : Memref sig .scVector .hbm S16384 .i32 := Memref.whole main_arg1_scv
abbrev tV : Memref sig .scVector .hbm S100000 .f32 := Memref.whole main_arg3_scv
abbrev oV : Memref sig .scVector .hbm S16384 .f32 := Memref.whole main_v0_scv
abbrev sI : Memref sig .scVector .vmem S1024 .i32 := Memref.whole cc0_scratch0
abbrev sX : Memref sig .scVector .vmem S1024 .f32 := Memref.whole cc0_scratch1

/-- The four quarters of a 1024-entry scratch. -/
abbrev Q0 : Rect S1024 := Rect.unit (s := S1024) ![0] S256.size inb_S1024_S256_0
abbrev Q1 : Rect S1024 := Rect.unit (s := S1024) ![256] S256.size inb_S1024_S256_256
abbrev Q2 : Rect S1024 := Rect.unit (s := S1024) ![512] S256.size inb_S1024_S256_512
abbrev Q3 : Rect S1024 := Rect.unit (s := S1024) ![768] S256.size inb_S1024_S256_768

abbrev sI0 : Memref sig .scVector .vmem S256 .i32 := sI.slice Q0 (fun _ => rfl)
abbrev sI1 : Memref sig .scVector .vmem S256 .i32 := sI.slice Q1 (fun _ => rfl)
abbrev sI2 : Memref sig .scVector .vmem S256 .i32 := sI.slice Q2 (fun _ => rfl)
abbrev sI3 : Memref sig .scVector .vmem S256 .i32 := sI.slice Q3 (fun _ => rfl)
abbrev sX0 : Memref sig .scVector .vmem S256 .f32 := sX.slice Q0 (fun _ => rfl)
abbrev sX1 : Memref sig .scVector .vmem S256 .f32 := sX.slice Q1 (fun _ => rfl)
abbrev sX2 : Memref sig .scVector .vmem S256 .f32 := sX.slice Q2 (fun _ => rfl)
abbrev sX3 : Memref sig .scVector .vmem S256 .f32 := sX.slice Q3 (fun _ => rfl)

abbrev h1 (L : grid0.Coords) : Memref sig .scVector .hbm S256 .i32 := hV.slice (R1 L) (fun _ => rfl)
abbrev h2 (L : grid0.Coords) : Memref sig .scVector .hbm S256 .i32 := hV.slice (R2 L) (fun _ => rfl)
abbrev a1 (L : grid0.Coords) : Memref sig .scVector .hbm S256 .i32 := aV.slice (R1 L) (fun _ => rfl)
abbrev a2 (L : grid0.Coords) : Memref sig .scVector .hbm S256 .i32 := aV.slice (R2 L) (fun _ => rfl)
abbrev o1 (L : grid0.Coords) : Memref sig .scVector .hbm S256 .f32 := oV.slice (R1 L) (fun _ => rfl)
abbrev o2 (L : grid0.Coords) : Memref sig .scVector .hbm S256 .f32 := oV.slice (R2 L) (fun _ => rfl)

/-! ## The quarters of a scratch -/

theorem mem_Q (k : Nat) (inb) (i : S1024.Idx) :
    i ∈ (Rect.unit (s := S1024) ![k] S256.size inb).set ↔ k ≤ (i 0).val ∧ (i 0).val < k + 256 := by
  rw [Rect.mem_set_unit]
  constructor
  · intro h; have := h 0; simpa using this
  · intro h a; obtain rfl : a = 0 := Subsingleton.elim _ _; simpa using h

theorem Q_cover : (Finset.univ : Finset S1024.Idx) = Q0.set ∪ (Q1.set ∪ (Q2.set ∪ Q3.set)) := by
  ext i
  have hi : (i 0).val < 1024 := (i 0).isLt
  simp only [Finset.mem_univ, Finset.mem_union, mem_Q, true_iff]
  omega

theorem Q_disj01 : Disjoint Q0.set (Q1.set ∪ (Q2.set ∪ Q3.set)) := by
  rw [Finset.disjoint_left]; intro i h0 h; simp only [Finset.mem_union, mem_Q] at h0 h; omega
theorem Q_disj12 : Disjoint Q1.set (Q2.set ∪ Q3.set) := by
  rw [Finset.disjoint_left]; intro i h0 h; simp only [Finset.mem_union, mem_Q] at h0 h; omega
theorem Q_disj23 : Disjoint Q2.set Q3.set := by
  rw [Finset.disjoint_left]; intro i h0 h; simp only [mem_Q] at h0 h; omega

section Tile

variable (d : Dev nD) (L : grid0.Coords)

/-- The index scratch whole is its four quarters, each as the slice memref the program names holds it. -/
theorem pts_sI_split (f : Buf (Elt F) ((V d (cV L) (jV L)).loc cc0_scratch0)) :
    ((V d (cV L) (jV L)).loc cc0_scratch0 ↦{fullShare} f : sProp 𝕄)
      ⊣⊢ iprop((sI0.view.loc (V d (cV L) (jV L)) ↦[sI0.view.set]{fullShare} f) ∗ (sI1.view.loc (V d (cV L) (jV L)) ↦[sI1.view.set]{fullShare} f)
          ∗ (sI2.view.loc (V d (cV L) (jV L)) ↦[sI2.view.set]{fullShare} f) ∗ (sI3.view.loc (V d (cV L) (jV L)) ↦[sI3.view.set]{fullShare} f)) := by
  have e0 : sI0.view.set = Q0.set := View.set_slice_whole _ _
  have e1 : sI1.view.set = Q1.set := View.set_slice_whole _ _
  have e2 : sI2.view.set = Q2.set := View.set_slice_whole _ _
  have e3 : sI3.view.set = Q3.set := View.set_slice_whole _ _
  rw [e0, e1, e2, e3]
  have hu : ((V d (cV L) (jV L)).loc cc0_scratch0 ↦{fullShare} f : sProp 𝕄)
      = ((V d (cV L) (jV L)).loc cc0_scratch0 ↦[Q0.set ∪ (Q1.set ∪ (Q2.set ∪ Q3.set))]{fullShare} f) := by rw [← Q_cover]
  rw [hu]
  refine (pointsTo_union Q_disj01).trans (sep_congr_right ((pointsTo_union Q_disj12).trans (sep_congr_right (pointsTo_union Q_disj23))))

/-- The float scratch whole is its four quarters likewise. -/
theorem pts_sX_split (f : Buf (Elt F) ((V d (cV L) (jV L)).loc cc0_scratch1)) :
    ((V d (cV L) (jV L)).loc cc0_scratch1 ↦{fullShare} f : sProp 𝕄)
      ⊣⊢ iprop((sX0.view.loc (V d (cV L) (jV L)) ↦[sX0.view.set]{fullShare} f) ∗ (sX1.view.loc (V d (cV L) (jV L)) ↦[sX1.view.set]{fullShare} f)
          ∗ (sX2.view.loc (V d (cV L) (jV L)) ↦[sX2.view.set]{fullShare} f) ∗ (sX3.view.loc (V d (cV L) (jV L)) ↦[sX3.view.set]{fullShare} f)) := by
  have e0 : sX0.view.set = Q0.set := View.set_slice_whole _ _
  have e1 : sX1.view.set = Q1.set := View.set_slice_whole _ _
  have e2 : sX2.view.set = Q2.set := View.set_slice_whole _ _
  have e3 : sX3.view.set = Q3.set := View.set_slice_whole _ _
  rw [e0, e1, e2, e3]
  have hu : ((V d (cV L) (jV L)).loc cc0_scratch1 ↦{fullShare} f : sProp 𝕄)
      = ((V d (cV L) (jV L)).loc cc0_scratch1 ↦[Q0.set ∪ (Q1.set ∪ (Q2.set ∪ Q3.set))]{fullShare} f) := by rw [← Q_cover]
  rw [hu]
  refine (pointsTo_union Q_disj01).trans (sep_congr_right ((pointsTo_union Q_disj12).trans (sep_congr_right (pointsTo_union Q_disj23))))

/-- The four quarters of the index scratch, at whatever each holds, are the scratch whole at some contents. -/
theorem join_sI (f0 f1 f2 f3 : Buf (Elt F) ((V d (cV L) (jV L)).loc cc0_scratch0)) :
    iprop((sI0.view.loc (V d (cV L) (jV L)) ↦[sI0.view.set]{fullShare} f0) ∗ (sI1.view.loc (V d (cV L) (jV L)) ↦[sI1.view.set]{fullShare} f1)
        ∗ (sI2.view.loc (V d (cV L) (jV L)) ↦[sI2.view.set]{fullShare} f2) ∗ (sI3.view.loc (V d (cV L) (jV L)) ↦[sI3.view.set]{fullShare} f3))
      ⊢ (iprop(∃ f, (V d (cV L) (jV L)).loc cc0_scratch0 ↦{fullShare} f) : sProp 𝕄) := by
  have e0 : sI0.view.set = Q0.set := View.set_slice_whole _ _
  have e1 : sI1.view.set = Q1.set := View.set_slice_whole _ _
  have e2 : sI2.view.set = Q2.set := View.set_slice_whole _ _
  have e3 : sI3.view.set = Q3.set := View.set_slice_whole _ _
  rw [e0, e1, e2, e3]
  refine (sep_mono_right (sep_mono_right (pointsTo_join Q_disj23))).trans ?_
  refine (sep_mono_right (pointsTo_join Q_disj12)).trans ?_
  refine (pointsTo_join Q_disj01).trans ?_
  iintro H
  iexists _
  rw [Q_cover]
  iexact H

/-- The float scratch likewise. -/
theorem join_sX (f0 f1 f2 f3 : Buf (Elt F) ((V d (cV L) (jV L)).loc cc0_scratch1)) :
    iprop((sX0.view.loc (V d (cV L) (jV L)) ↦[sX0.view.set]{fullShare} f0) ∗ (sX1.view.loc (V d (cV L) (jV L)) ↦[sX1.view.set]{fullShare} f1)
        ∗ (sX2.view.loc (V d (cV L) (jV L)) ↦[sX2.view.set]{fullShare} f2) ∗ (sX3.view.loc (V d (cV L) (jV L)) ↦[sX3.view.set]{fullShare} f3))
      ⊢ (iprop(∃ f, (V d (cV L) (jV L)).loc cc0_scratch1 ↦{fullShare} f) : sProp 𝕄) := by
  have e0 : sX0.view.set = Q0.set := View.set_slice_whole _ _
  have e1 : sX1.view.set = Q1.set := View.set_slice_whole _ _
  have e2 : sX2.view.set = Q2.set := View.set_slice_whole _ _
  have e3 : sX3.view.set = Q3.set := View.set_slice_whole _ _
  rw [e0, e1, e2, e3]
  refine (sep_mono_right (sep_mono_right (pointsTo_join Q_disj23))).trans ?_
  refine (sep_mono_right (pointsTo_join Q_disj12)).trans ?_
  refine (pointsTo_join Q_disj01).trans ?_
  iintro H
  iexists _
  rw [Q_cover]
  iexact H

/-! ## The arrays in HBM as the tile's slice memrefs hold them -/

theorem pts_h1 (q : PosShare TreeShare) (f : Buf (Elt F) (homeLoc d)) :
    ((h1 L).view.loc (V d (cV L) (jV L)) ↦[(h1 L).view.set]{q} f : sProp 𝕄) = homeLoc d ↦[blk1 L]{q} f := by
  have e : (h1 L).view.set = blk1 L := View.set_slice_whole _ _
  rw [e]
theorem pts_h2 (q : PosShare TreeShare) (f : Buf (Elt F) (homeLoc d)) :
    ((h2 L).view.loc (V d (cV L) (jV L)) ↦[(h2 L).view.set]{q} f : sProp 𝕄) = homeLoc d ↦[blk2 L]{q} f := by
  have e : (h2 L).view.set = blk2 L := View.set_slice_whole _ _
  rw [e]
theorem pts_a1 (q : PosShare TreeShare) (f : Buf (Elt F) (awayLoc d)) :
    ((a1 L).view.loc (V d (cV L) (jV L)) ↦[(a1 L).view.set]{q} f : sProp 𝕄) = awayLoc d ↦[blk1 L]{q} f := by
  have e : (a1 L).view.set = blk1 L := View.set_slice_whole _ _
  rw [e]
theorem pts_a2 (q : PosShare TreeShare) (f : Buf (Elt F) (awayLoc d)) :
    ((a2 L).view.loc (V d (cV L) (jV L)) ↦[(a2 L).view.set]{q} f : sProp 𝕄) = awayLoc d ↦[blk2 L]{q} f := by
  have e : (a2 L).view.set = blk2 L := View.set_slice_whole _ _
  rw [e]
theorem pts_o1 (q : PosShare TreeShare) (f : Buf (Elt F) (dLoc d)) :
    ((o1 L).view.loc (V d (cV L) (jV L)) ↦[(o1 L).view.set]{q} f : sProp 𝕄) = dLoc d ↦[blk1 L]{q} f := by
  have e : (o1 L).view.set = blk1 L := View.set_slice_whole _ _
  rw [e]
theorem pts_o2 (q : PosShare TreeShare) (f : Buf (Elt F) (dLoc d)) :
    ((o2 L).view.loc (V d (cV L) (jV L)) ↦[(o2 L).view.set]{q} f : sProp 𝕄) = dLoc d ↦[blk2 L]{q} f := by
  have e : (o2 L).view.set = blk2 L := View.set_slice_whole _ _
  rw [e]
theorem pts_t (q : PosShare TreeShare) (f : Buf (Elt F) (tabLoc d)) :
    (tV.view.loc (V d (cV L) (jV L)) ↦{q} f : sProp 𝕄) = tabLoc d ↦{q} f := rfl

/-! ## The tile's own semaphores and buffers -/

/-- The ten DMA semaphores of the task, in the program's order. -/
abbrev semL : List (SemLoc sig) :=
  [.dma cc0_scratch2.sem, .dma cc0_scratch3.sem, .dma cc0_scratch4.sem, .dma cc0_scratch5.sem, .dma cc0_scratch6.sem,
   .dma cc0_scratch7.sem, .dma cc0_scratch8.sem, .dma cc0_scratch9.sem, .dma cc0_scratch10.sem, .dma cc0_scratch11.sem]
theorem semL_nodup : semL.Nodup := by decide
theorem semL_scoped : ∀ sm ∈ semL, (sm : SemLoc sig).isScoped .scVector = true := by decide
abbrev cellL (thr : Thread nD τ) : List (GSem nD τ sig) := semL.map fun sm => (thr, sm)
theorem cellL_nodup (thr : Thread nD τ) : (cellL thr).Nodup :=
  semL_nodup.map fun _ _ h => (Prod.mk.inj h).2
theorem cellL_sub : (cellL (V d (cV L) (jV L))).toFinset ⊆ (ownCells (V d (cV L) (jV L)) : Finset (GSem nD τ sig)) := by
  intro g hg
  rw [List.mem_toFinset, List.mem_map] at hg
  obtain ⟨sm, hsm, rfl⟩ := hg
  exact mem_ownCells.mpr ⟨rfl, semL_scoped sm hsm⟩

theorem ownSems0_V :
    (ownSems0 (V d (cV L) (jV L)) : sProp 𝕄)
      = iprop((semVal (V d (cV L) (jV L), SemLoc.dma cc0_scratch2.sem) 0 ∗ semVal (V d (cV L) (jV L), SemLoc.dma cc0_scratch3.sem) 0
            ∗ semVal (V d (cV L) (jV L), SemLoc.dma cc0_scratch4.sem) 0 ∗ semVal (V d (cV L) (jV L), SemLoc.dma cc0_scratch5.sem) 0
            ∗ semVal (V d (cV L) (jV L), SemLoc.dma cc0_scratch6.sem) 0 ∗ semVal (V d (cV L) (jV L), SemLoc.dma cc0_scratch7.sem) 0
            ∗ semVal (V d (cV L) (jV L), SemLoc.dma cc0_scratch8.sem) 0 ∗ semVal (V d (cV L) (jV L), SemLoc.dma cc0_scratch9.sem) 0
            ∗ semVal (V d (cV L) (jV L), SemLoc.dma cc0_scratch10.sem) 0 ∗ semVal (V d (cV L) (jV L), SemLoc.dma cc0_scratch11.sem) 0)
          ∗ bigSep (ownCells (V d (cV L) (jV L)) \ (cellL (V d (cV L) (jV L))).toFinset) fun g => semVal g 0) := by
  unfold SparseCore.Cfg.ownSems0
  rw [SparseCore.bigSep_sdiff_split' (cellL_sub d L), BI.bigSep_eq_bigSepL _ (cellL_nodup _)]
  rfl

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The table's four read tokens -/

theorem toks_peel {ℓ : Loc nD τ sig} {Sx : Finset (Idx ℓ)} {f : Buf (Elt F) ℓ} (q : PosShare TreeShare) (k : ℕ) :
    BI.bigSep (Finset.range (k + 1)) (fun i => (ℓ ↦[Sx]{Transfers.shareTokN q i} f : sProp 𝕄))
      = iprop((ℓ ↦[Sx]{Transfers.shareTokN q k} f) ∗ BI.bigSep (Finset.range k) (fun i => ℓ ↦[Sx]{Transfers.shareTokN q i} f)) := by
  rw [Finset.range_add_one, BI.bigSep_insert Finset.notMem_range_self]; rfl

/-- A share of an array as eight read tokens and a remainder: tokens 4 to 7 named, the rest kept together. -/
theorem toks8 {ℓ : Loc nD τ sig} {Sx : Finset (Idx ℓ)} {f : Buf (Elt F) ℓ} (q : PosShare TreeShare) :
    (ℓ ↦[Sx]{q} f : sProp 𝕄) ⊣⊢ iprop((ℓ ↦[Sx]{Transfers.shareTokN q 7} f) ∗ (ℓ ↦[Sx]{Transfers.shareTokN q 6} f)
        ∗ (ℓ ↦[Sx]{Transfers.shareTokN q 5} f) ∗ (ℓ ↦[Sx]{Transfers.shareTokN q 4} f)
        ∗ ((ℓ ↦[Sx]{Transfers.shareDrop q 8} f) ∗ BI.bigSep (Finset.range 4) (fun i => ℓ ↦[Sx]{Transfers.shareTokN q i} f))) := by
  refine (Transfers.pointsTo_toks_range q 8).trans ?_
  rw [show (8 : ℕ) = 7 + 1 from rfl, toks_peel, show (7 : ℕ) = 6 + 1 from rfl, toks_peel, show (6 : ℕ) = 5 + 1 from rfl, toks_peel,
    show (5 : ℕ) = 4 + 1 from rfl, toks_peel]
  constructor
  · iintro ⟨Hd, H7, H6, H5, H4, Hr⟩
    isplitl [H7]; · iexact H7
    isplitl [H6]; · iexact H6
    isplitl [H5]; · iexact H5
    isplitl [H4]; · iexact H4
    isplitl [Hd]; · iexact Hd
    iexact Hr
  · iintro ⟨H7, H6, H5, H4, Hd, Hr⟩
    isplitl [Hd]; · iexact Hd
    isplitl [H7]; · iexact H7
    isplitl [H6]; · iexact H6
    isplitl [H5]; · iexact H5
    isplitl [H4]; · iexact H4
    iexact Hr

end Tile

end Cert.Proof.Kernel

end
-- ==== Proof.Kernel.Tile.GatherVal.lean ====
/-
  What one indirect gather of the table delivers: entry `x` of the 256 gathered floats is the table at the index the
  `x`-th offset word names.
-/
import proofs.«203773_g32736240730729_cont_9to1_2154_21_alg».proof.Proof.Kernel.Tile.Defs
import Idealize.ShloMosaic.Lib.SparseCore.Stream

noncomputable section

namespace Cert.Proof.Kernel

open Cert.Kernel Cert.Kernel.Gen
open Idealize.ShloMosaic

/-- The offset list's `k`-th word in row-major order is the word at index `k`: the list has one axis. -/
theorem rowMajor_symm_S256 (x : S256.Idx) (h : S256.numel = S256.size (gathers_S100000_S256 : S100000.Gathers 0 S256).axis') :
    S256.rowMajor.symm ((x (gathers_S100000_S256 : S100000.Gathers 0 S256).axis').cast h.symm) = x := by
  rw [Equiv.symm_apply_eq]
  apply Fin.ext
  rw [Shape.rowMajor_val_one]
  rfl

/-- The gather's payload at entry `x` is the table at the row the `x`-th offset word names. -/
theorem gather_val {F : FTy → Type} (s : S100000.Idx → Elt F .f32) (w : S256.Idx → Elt F .i32)
    (hn : S256.numel = S256.size (gathers_S100000_S256 : S100000.Gathers 0 S256).axis')
    (hin : ∀ x, (w x).toNat < S100000.size (gathers_S100000_S256 : S100000.Gathers 0 S256).axis) (x : S256.Idx) :
    SparseCore.gatherPayload gathers_S100000_S256 s (SparseCore.rows w hn hin) x = s (Cert.Proof.PreFacts.takeIdx (w x)) := by
  unfold SparseCore.gatherPayload
  refine congrArg s (funext fun b => ?_)
  match b with
  | ⟨0, hb⟩ =>
    apply Fin.ext
    have e := Shape.Gathers.idx_axis (gathers_S100000_S256 : S100000.Gathers 0 S256) (SparseCore.rows w hn hin) x
    have e' : ((gathers_S100000_S256 : S100000.Gathers 0 S256).idx (SparseCore.rows w hn hin) x ⟨0, hb⟩).val
        = (SparseCore.rows w hn hin (x (gathers_S100000_S256 : S100000.Gathers 0 S256).axis')).val := congrArg Fin.val e
    rw [e']
    unfold SparseCore.rows
    show (w (S256.rowMajor.symm ((x (gathers_S100000_S256 : S100000.Gathers 0 S256).axis').cast hn.symm))).toNat = _
    rw [rowMajor_symm_S256 x hn]
    exact (Cert.Proof.PreFacts.takeIdx_val (w x) (hin x)).symm

end Cert.Proof.Kernel

end
-- ==== Proof.Kernel.Tile.Value.lean ====
/-
  A vector subcore's task, the values. The float scratch after the gathers holds, quarter by quarter, the table at the
  index words (`gq_val`: what a gather lands); each of the thirty-two 16-lane groups replaces sixteen entries of a
  half by their difference with the entries 512 further on (`Inv`, `Inv_step`: after `K` groups the first `16 K`
  entries of the half hold the differences); a half read back as the quarter the copy-out takes is lane by lane the
  difference of the two gathered rows (`half_val`), and what the copy-out lands in the task's entries of the result is
  the table at the home index less the table at the away index (`out_val1`, `out_val2`).
-/
import proofs.«203773_g32736240730729_cont_9to1_2154_21_alg».proof.Proof.Kernel.Tile.Setup
import proofs.«203773_g32736240730729_cont_9to1_2154_21_alg».proof.Proof.Kernel.Tile.GatherVal
import Idealize.ShloMosaic.Lib.Pipeline.Value

noncomputable section

namespace Cert.Proof.Kernel

open Cert.Kernel Cert.Kernel.Gen
open Idealize.ShloMosaic
open Idealize.ShloMosaic.SparseCore (S V T)
open Idealize.SL Idealize.SL.RA Idealize.SL.BI
open scoped Idealize.SL.BI

variable {F : FTy → Type} [FloatOps F]

/-- The difference of two 16-lane vectors, lane by lane. -/
def sub16 (a b : Vec F S16 .f32) : Vec F S16 .f32 := fun y => FloatOps.subf (a y) (b y)

theorem k0_pay1_eq (a b : Vec F S16 .f32) : k0_pay1 a b = sub16 a b := by
  unfold k0_pay1; simp only [shapeCast_self]; rfl
theorem k0_pay2_eq (a b : Vec F S16 .f32) : k0_pay2 a b = sub16 a b := by
  unfold k0_pay2; simp only [shapeCast_self]; rfl
theorem k0_pay3_eq (a b : Vec F S16 .f32) : k0_pay3 a b = sub16 a b := by
  unfold k0_pay3; simp only [shapeCast_self]; rfl
theorem k0_pay4_eq (a b : Vec F S16 .f32) : k0_pay4 a b = sub16 a b := by
  unfold k0_pay4; simp only [shapeCast_self]; rfl
theorem k0_pay5_eq (a b : Vec F S16 .f32) : k0_pay5 a b = sub16 a b := by
  unfold k0_pay5; simp only [shapeCast_self]; rfl
theorem k0_pay6_eq (a b : Vec F S16 .f32) : k0_pay6 a b = sub16 a b := by
  unfold k0_pay6; simp only [shapeCast_self]; rfl
theorem k0_pay7_eq (a b : Vec F S16 .f32) : k0_pay7 a b = sub16 a b := by
  unfold k0_pay7; simp only [shapeCast_self]; rfl
theorem k0_pay8_eq (a b : Vec F S16 .f32) : k0_pay8 a b = sub16 a b := by
  unfold k0_pay8; simp only [shapeCast_self]; rfl
theorem k0_pay9_eq (a b : Vec F S16 .f32) : k0_pay9 a b = sub16 a b := by
  unfold k0_pay9; simp only [shapeCast_self]; rfl
theorem k0_pay10_eq (a b : Vec F S16 .f32) : k0_pay10 a b = sub16 a b := by
  unfold k0_pay10; simp only [shapeCast_self]; rfl
theorem k0_pay11_eq (a b : Vec F S16 .f32) : k0_pay11 a b = sub16 a b := by
  unfold k0_pay11; simp only [shapeCast_self]; rfl
theorem k0_pay12_eq (a b : Vec F S16 .f32) : k0_pay12 a b = sub16 a b := by
  unfold k0_pay12; simp only [shapeCast_self]; rfl
theorem k0_pay13_eq (a b : Vec F S16 .f32) : k0_pay13 a b = sub16 a b := by
  unfold k0_pay13; simp only [shapeCast_self]; rfl
theorem k0_pay14_eq (a b : Vec F S16 .f32) : k0_pay14 a b = sub16 a b := by
  unfold k0_pay14; simp only [shapeCast_self]; rfl
theorem k0_pay15_eq (a b : Vec F S16 .f32) : k0_pay15 a b = sub16 a b := by
  unfold k0_pay15; simp only [shapeCast_self]; rfl
theorem k0_pay16_eq (a b : Vec F S16 .f32) : k0_pay16 a b = sub16 a b := by
  unfold k0_pay16; simp only [shapeCast_self]; rfl
theorem k0_pay17_eq (a b : Vec F S16 .f32) : k0_pay17 a b = sub16 a b := by
  unfold k0_pay17; simp only [shapeCast_self]; rfl
theorem k0_pay18_eq (a b : Vec F S16 .f32) : k0_pay18 a b = sub16 a b := by
  unfold k0_pay18; simp only [shapeCast_self]; rfl
theorem k0_pay19_eq (a b : Vec F S16 .f32) : k0_pay19 a b = sub16 a b := by
  unfold k0_pay19; simp only [shapeCast_self]; rfl
theorem k0_pay20_eq (a b : Vec F S16 .f32) : k0_pay20 a b = sub16 a b := by
  unfold k0_pay20; simp only [shapeCast_self]; rfl
theorem k0_pay21_eq (a b : Vec F S16 .f32) : k0_pay21 a b = sub16 a b := by
  unfold k0_pay21; simp only [shapeCast_self]; rfl
theorem k0_pay22_eq (a b : Vec F S16 .f32) : k0_pay22 a b = sub16 a b := by
  unfold k0_pay22; simp only [shapeCast_self]; rfl
theorem k0_pay23_eq (a b : Vec F S16 .f32) : k0_pay23 a b = sub16 a b := by
  unfold k0_pay23; simp only [shapeCast_self]; rfl
theorem k0_pay24_eq (a b : Vec F S16 .f32) : k0_pay24 a b = sub16 a b := by
  unfold k0_pay24; simp only [shapeCast_self]; rfl
theorem k0_pay25_eq (a b : Vec F S16 .f32) : k0_pay25 a b = sub16 a b := by
  unfold k0_pay25; simp only [shapeCast_self]; rfl
theorem k0_pay26_eq (a b : Vec F S16 .f32) : k0_pay26 a b = sub16 a b := by
  unfold k0_pay26; simp only [shapeCast_self]; rfl
theorem k0_pay27_eq (a b : Vec F S16 .f32) : k0_pay27 a b = sub16 a b := by
  unfold k0_pay27; simp only [shapeCast_self]; rfl
theorem k0_pay28_eq (a b : Vec F S16 .f32) : k0_pay28 a b = sub16 a b := by
  unfold k0_pay28; simp only [shapeCast_self]; rfl
theorem k0_pay29_eq (a b : Vec F S16 .f32) : k0_pay29 a b = sub16 a b := by
  unfold k0_pay29; simp only [shapeCast_self]; rfl
theorem k0_pay30_eq (a b : Vec F S16 .f32) : k0_pay30 a b = sub16 a b := by
  unfold k0_pay30; simp only [shapeCast_self]; rfl
theorem k0_pay31_eq (a b : Vec F S16 .f32) : k0_pay31 a b = sub16 a b := by
  unfold k0_pay31; simp only [shapeCast_self]; rfl
theorem k0_pay32_eq (a b : Vec F S16 .f32) : k0_pay32 a b = sub16 a b := by
  unfold k0_pay32; simp only [shapeCast_self]; rfl

/-- An index of a 1024-entry scratch from its position. -/
def at1024 (n : ℕ) : S1024.Idx := ValueIdx.ix1 (⟨n % 1024, Nat.mod_lt _ (by decide)⟩ : Fin 1024)

theorem idx1024_ext {i j : S1024.Idx} (h : (i 0).val = (j 0).val) : i = j := by
  funext a; obtain rfl : a = 0 := Subsingleton.elim _ _; exact Fin.ext h

omit [FloatOps F] in
theorem at1024_val (n : ℕ) (h : n < 1024) : ((at1024 n) 0).val = n := Nat.mod_eq_of_lt h

/-- The 16 lanes at offset `o` of a 1024-entry scratch, as an index of the scratch. -/
theorem emb16 (o : ℕ) (inb : ∀ a, (![o] : Fin 1 → ℕ) a + S16.size a ≤ S1024.size a) (y : S16.Idx) :
    (((sX : Memref sig .scVector .vmem S1024 .f32).access (Rect.unit (s := S1024) ![o] S16.size inb)).emb y 0).val = o + (y 0).val := by
  show ((Rect.unit (s := S1024) ![o] S16.size inb).emb y 0).val = _
  rw [Rect.emb_apply]; simp

/-- The float scratch's contents as a function of the position. -/
abbrev XC (F : FTy → Type) : Type := (sX : Memref sig .scVector .vmem S1024 .f32).view.ty.Contents (Elt F)

theorem readAt16 (o : ℕ) (inb : ∀ a, (![o] : Fin 1 → ℕ) a + S16.size a ≤ S1024.size a) (f : XC F) (y : S16.Idx) (ho : o + 16 ≤ 1024) :
    (sX : Memref sig .scVector .vmem S1024 .f32).view.readAt (Elt F) (Rect.unit (s := S1024) ![o] S16.size inb).toLoadRect f y
      = f (at1024 (o + (y 0).val)) := by
  rw [View.readAt_rect, View.read_apply, cast_eq]
  congr 1
  apply idx1024_ext
  have hy : (y 0).val < 16 := (y 0).isLt
  rw [at1024_val _ (by omega)]
  exact emb16 o inb y

/-- After `K` of the sixteen 16-lane groups of a 256-entry half starting at `B`: the first `16 K` entries hold the
    differences, the others still the gathered rows. `G` is the scratch after the gathers, `G'` its other operand. -/
def Inv (B K : ℕ) (G G' f : XC F) : Prop :=
  ∀ i : S1024.Idx, B ≤ (i 0).val → (i 0).val < B + 256 →
    f i = if (i 0).val < B + 16 * K then FloatOps.subf (G i) (G' (at1024 ((i 0).val + 512))) else G i

theorem Inv_zero (B : ℕ) (G G' : XC F) : Inv B 0 G G' G := fun i _ _ => by
  rw [if_neg (by omega)]

theorem Inv_step {B K : ℕ} {G G' f : XC F} (h : Inv B K G G' f) (hK : K < 16) (hB : B + 256 ≤ 512) (o o' : ℕ) (ho : o = B + 16 * K) (ho' : o' = o + 512)
    (inb : ∀ a, (![o] : Fin 1 → ℕ) a + S16.size a ≤ S1024.size a) (inb' : ∀ a, (![o'] : Fin 1 → ℕ) a + S16.size a ≤ S1024.size a)
    (w : Vec F S16 .f32)
    (hw : w = sub16 ((sX : Memref sig .scVector .vmem S1024 .f32).view.readAt (Elt F) (Rect.unit (s := S1024) ![o] S16.size inb).toLoadRect f)
                    ((sX : Memref sig .scVector .vmem S1024 .f32).view.readAt (Elt F) (Rect.unit (s := S1024) ![o'] S16.size inb').toLoadRect G')) :
    Inv B (K + 1) G G' (View.write (Elt F) ((sX : Memref sig .scVector .vmem S1024 .f32).access (Rect.unit (s := S1024) ![o] S16.size inb)) f w Finset.univ) := by
  intro i hi1 hi2
  by_cases hin : o ≤ (i 0).val ∧ (i 0).val < o + 16
  · -- a lane of this group
    let y : S16.Idx := ValueIdx.ix1 (⟨(i 0).val - o, by show _ < 16; omega⟩ : Fin 16)
    have hy : (y 0).val = (i 0).val - o := rfl
    have hi : ((sX : Memref sig .scVector .vmem S1024 .f32).access (Rect.unit (s := S1024) ![o] S16.size inb)).emb y = i :=
      idx1024_ext (by rw [emb16, hy]; omega)
    rw [← hi, View.write_emb_of_mem _ _ (Finset.mem_univ y), cast_eq, hi, hw]
    show FloatOps.subf _ _ = _
    rw [readAt16 o inb f y (by omega), readAt16 o' inb' G' y (by omega), if_pos (by omega)]
    have e1 : at1024 (o + (y 0).val) = i := idx1024_ext (by rw [at1024_val _ (by omega), hy]; omega)
    have e2 : at1024 (o' + (y 0).val) = at1024 ((i 0).val + 512) := by rw [hy]; congr 1; omega
    rw [e1, e2, h i hi1 hi2, if_neg (by omega)]
  · -- elsewhere
    have hni : i ∉ ((sX : Memref sig .scVector .vmem S1024 .f32).access (Rect.unit (s := S1024) ![o] S16.size inb)).setOn Finset.univ := by
      intro hm
      rw [View.setOn_univ] at hm
      obtain ⟨y, -, rfl⟩ := Finset.mem_map.mp hm
      have hy : (y 0).val < 16 := (y 0).isLt
      apply hin
      rw [emb16]; omega
    rw [View.write_of_not_mem _ _ _ hni, h i hi1 hi2]
    by_cases hlt : (i 0).val < B + 16 * K
    · rw [if_pos hlt, if_pos (by omega)]
    · rw [if_neg hlt, if_neg (by omega)]

/-! ## Reading a quarter of the scratch, and a quarter a gather filled -/

omit [FloatOps F] in
theorem embQ (o : ℕ) (inb : ∀ a, (![o] : Fin 1 → ℕ) a + S256.size a ≤ S1024.size a) (y : S256.Idx) :
    (((sX : Memref sig .scVector .vmem S1024 .f32).slice (Rect.unit (s := S1024) ![o] S256.size inb) (fun _ => rfl)).view.emb y 0).val = o + (y 0).val := by
  show ((Rect.unit (s := S1024) ![o] S256.size inb).emb y 0).val = _
  rw [Rect.emb_apply]; simp

omit [FloatOps F] in
theorem readQ (o : ℕ) (inb : ∀ a, (![o] : Fin 1 → ℕ) a + S256.size a ≤ S1024.size a) (ho : o + 256 ≤ 1024) (f : XC F) (y : S256.Idx) :
    ((sX : Memref sig .scVector .vmem S1024 .f32).slice (Rect.unit (s := S1024) ![o] S256.size inb) (fun _ => rfl)).view.read (Elt F) f y
      = f (at1024 (o + (y 0).val)) := by
  rw [View.read_apply, cast_eq]
  congr 1
  apply idx1024_ext
  have hy : (y 0).val < 256 := (y 0).isLt
  rw [at1024_val _ (by omega)]
  exact embQ o inb y

omit [FloatOps F] in
/-- A quarter written whole reads back what was written. -/
theorem read_whole_write {κ : Kind} {sp : Space} {e : EltTy} (v : View sig κ sp S256 e) (g : v.ty.Contents (Elt F)) (w : S256.Idx → Elt F e) :
    v.read (Elt F) (v.writes (Elt F) g [⟨Rect.whole S256, w⟩]) = w := by
  funext x
  have h := View.read_writes_cons_emb v g (Rect.whole S256) w [] x
  rwa [Rect.emb_whole_apply] at h

omit [FloatOps F] in
theorem filledQ (o : ℕ) (inb : ∀ a, (![o] : Fin 1 → ℕ) a + S256.size a ≤ S1024.size a) (ho : o + 256 ≤ 1024) (g : XC F) (w : S256.Idx → Elt F .f32) (y : S256.Idx) :
    (((sX : Memref sig .scVector .vmem S1024 .f32).slice (Rect.unit (s := S1024) ![o] S256.size inb) (fun _ => rfl)).view.writes (Elt F) g [⟨Rect.whole S256, w⟩])
        (at1024 (o + (y 0).val)) = w y := by
  have h := congrFun (read_whole_write (F := F) ((sX : Memref sig .scVector .vmem S1024 .f32).slice (Rect.unit (s := S1024) ![o] S256.size inb) (fun _ => rfl)).view g w) y
  rwa [readQ o inb ho] at h

/-- A half of the scratch after its sixteen groups, read as the quarter the copy-out takes: lane by lane the difference of the two gathered rows. -/
theorem half_val (B : ℕ) (hB : B + 256 ≤ 512) (inb : ∀ a, (![B] : Fin 1 → ℕ) a + S256.size a ≤ S1024.size a)
    (inb' : ∀ a, (![B + 512] : Fin 1 → ℕ) a + S256.size a ≤ S1024.size a) (g g' f : XC F) (ga gb : S256.Idx → Elt F .f32)
    (h : Inv B 16
      (((sX : Memref sig .scVector .vmem S1024 .f32).slice (Rect.unit (s := S1024) ![B] S256.size inb) (fun _ => rfl)).view.writes (Elt F) g [⟨Rect.whole S256, ga⟩])
      (((sX : Memref sig .scVector .vmem S1024 .f32).slice (Rect.unit (s := S1024) ![B + 512] S256.size inb') (fun _ => rfl)).view.writes (Elt F) g' [⟨Rect.whole S256, gb⟩]) f)
    (y : S256.Idx) :
    ((sX : Memref sig .scVector .vmem S1024 .f32).slice (Rect.unit (s := S1024) ![B] S256.size inb) (fun _ => rfl)).view.read (Elt F) f y
      = FloatOps.subf (ga y) (gb y) := by
  have hy : (y 0).val < 256 := (y 0).isLt
  rw [readQ B inb (by omega), h _ (by rw [at1024_val _ (by omega)]; omega) (by rw [at1024_val _ (by omega)]; omega), if_pos (by rw [at1024_val _ (by omega)]; omega),
    filledQ B inb (by omega), at1024_val _ (by omega), show B + (y 0).val + 512 = B + 512 + (y 0).val by omega, filledQ (B + 512) inb' (by omega)]

/-! ## What a gather lands -/

omit [FloatOps F] in
theorem gather_val' (s : S100000.Idx → Elt F .f32) (w w' : S256.Idx → Elt F .i32) (e : w' = w)
    (hn : S256.numel = S256.size (gathers_S100000_S256 : S100000.Gathers 0 S256).axis')
    (hin : ∀ x, (w' x).toNat < S100000.size (gathers_S100000_S256 : S100000.Gathers 0 S256).axis) (x : S256.Idx) :
    SparseCore.gatherPayload gathers_S100000_S256 s (SparseCore.rows w' hn hin) x = s (Cert.Proof.PreFacts.takeIdx (w x)) := by
  subst e; exact gather_val s w' hn hin x

variable (m : (ℓ : Loc nD τ sig) → Buf (Elt F) ℓ) (d : Dev nD)

omit [FloatOps F] in
/-- The gather through a quarter of the index scratch that a copy filled with the words `wI`: lane `y` is the table at the index word `wI y` names. -/
theorem gq_val (inbT : ∀ a, (![0] : Fin 1 → ℕ) a + S100000.size a ≤ S100000.size a) (o : ℕ) (inbI : ∀ a, (![o] : Fin 1 → ℕ) a + S256.size a ≤ S1024.size a)
    (g : (sI : Memref sig .scVector .vmem S1024 .i32).view.ty.Contents (Elt F)) (wI : S256.Idx → Elt F .i32)
    (hn : S256.numel = S256.size (gathers_S100000_S256 : S100000.Gathers 0 S256).axis')
    (hin : ∀ x, (((sI : Memref sig .scVector .vmem S1024 .i32).slice (Rect.unit (s := S1024) ![o] S256.size inbI) (fun _ => rfl)).view.read (Elt F)
      (((sI : Memref sig .scVector .vmem S1024 .i32).slice (Rect.unit (s := S1024) ![o] S256.size inbI) (fun _ => rfl)).view.writes (Elt F) g [⟨Rect.whole S256, wI⟩]) x).toNat
        < S100000.size (gathers_S100000_S256 : S100000.Gathers 0 S256).axis) (y : S256.Idx) :
    SparseCore.gatherPayload gathers_S100000_S256
        (((tV : Memref sig .scVector .hbm S100000 .f32).slice (Rect.unit (s := S100000) ![0] S100000.size inbT) (fun _ => rfl)).view.read (Elt F) (m (tabLoc d)))
        (SparseCore.rows (((sI : Memref sig .scVector .vmem S1024 .i32).slice (Rect.unit (s := S1024) ![o] S256.size inbI) (fun _ => rfl)).view.read (Elt F)
          (((sI : Memref sig .scVector .vmem S1024 .i32).slice (Rect.unit (s := S1024) ![o] S256.size inbI) (fun _ => rfl)).view.writes (Elt F) g [⟨Rect.whole S256, wI⟩])) hn hin) y
      = m (tabLoc d) (Cert.Proof.PreFacts.takeIdx (wI y)) := by
  have eT : ((tV : Memref sig .scVector .hbm S100000 .f32).slice (Rect.unit (s := S100000) ![0] S100000.size inbT) (fun _ => rfl)).view.read (Elt F) (m (tabLoc d)) = m (tabLoc d) :=
    Memref.read_access_unit_zero (Elt F) (main_arg3_scv : Ref sig .scVector) (off := ![0]) (by funext a; obtain rfl : a = 0 := Subsingleton.elim _ _; rfl) inbT (m (tabLoc d))
  rw [eT]
  exact gather_val' (m (tabLoc d)) wI
    (((sI : Memref sig .scVector .vmem S1024 .i32).slice (Rect.unit (s := S1024) ![o] S256.size inbI) (fun _ => rfl)).view.read (Elt F)
      (((sI : Memref sig .scVector .vmem S1024 .i32).slice (Rect.unit (s := S1024) ![o] S256.size inbI) (fun _ => rfl)).view.writes (Elt F) g [⟨Rect.whole S256, wI⟩]))
    (read_whole_write (F := F) ((sI : Memref sig .scVector .vmem S1024 .i32).slice (Rect.unit (s := S1024) ![o] S256.size inbI) (fun _ => rfl)).view g wI) hn hin y

/-! ## The task's entries of the arrays in HBM -/

variable (L : grid0.Coords)

omit [FloatOps F] in
theorem read_h1 (y : S256.Idx) : (h1 L).view.read (Elt F) (m (homeLoc d)) y = m (homeLoc d) ((R1 L).emb y) := by
  rw [View.read_apply, cast_eq]; rfl
omit [FloatOps F] in
theorem read_h2 (y : S256.Idx) : (h2 L).view.read (Elt F) (m (homeLoc d)) y = m (homeLoc d) ((R2 L).emb y) := by
  rw [View.read_apply, cast_eq]; rfl
omit [FloatOps F] in
theorem read_a1 (y : S256.Idx) : (a1 L).view.read (Elt F) (m (awayLoc d)) y = m (awayLoc d) ((R1 L).emb y) := by
  rw [View.read_apply, cast_eq]; rfl
omit [FloatOps F] in
theorem read_a2 (y : S256.Idx) : (a2 L).view.read (Elt F) (m (awayLoc d)) y = m (awayLoc d) ((R2 L).emb y) := by
  rw [View.read_apply, cast_eq]; rfl

/-- What the first copy-out lands: the 256 lanes `W`, each the result's entry there. -/
theorem out_val1 (W : S256.Idx → Elt F .f32)
    (hW : ∀ y, W y = dSpec (m (homeLoc d)) (m (awayLoc d)) (m (tabLoc d)) ((R1 L).emb y)) :
    ∀ i ∈ blk1 L, ((o1 L).view.writes (Elt F) (m (dLoc d)) [⟨Rect.whole S256, W⟩]) i = dSpec (m (homeLoc d)) (m (awayLoc d)) (m (tabLoc d)) i := by
  intro i hi
  obtain ⟨y, rfl⟩ := (R1 L).exists_idx_of_mem hi
  have h := congrFun (read_whole_write (F := F) (o1 L).view (m (dLoc d)) W) y
  rw [View.read_apply, cast_eq] at h
  exact h.trans (hW y)

/-- The second likewise. -/
theorem out_val2 (W : S256.Idx → Elt F .f32)
    (hW : ∀ y, W y = dSpec (m (homeLoc d)) (m (awayLoc d)) (m (tabLoc d)) ((R2 L).emb y)) :
    ∀ i ∈ blk2 L, ((o2 L).view.writes (Elt F) (m (dLoc d)) [⟨Rect.whole S256, W⟩]) i = dSpec (m (homeLoc d)) (m (awayLoc d)) (m (tabLoc d)) i := by
  intro i hi
  obtain ⟨y, rfl⟩ := (R2 L).exists_idx_of_mem hi
  have h := congrFun (read_whole_write (F := F) (o2 L).view (m (dLoc d)) W) y
  rw [View.read_apply, cast_eq] at h
  exact h.trans (hW y)

omit [FloatOps F] in
/-- The index words a copy landed in a quarter of the index scratch are in range when the words copied are. -/
theorem hin_of {κ : Kind} {sp : Space} (v : View sig κ sp S256 .i32) (g : v.ty.Contents (Elt F)) (w : S256.Idx → Elt F .i32)
    (hw : ∀ x, (w x).toNat < 100000) : ∀ x, (v.read (Elt F) (v.writes (Elt F) g [⟨Rect.whole S256, w⟩]) x).toNat < 100000 := by
  intro x; rw [read_whole_write]; exact hw x

omit [FloatOps F] in
theorem hw_h1 (hidx : ∀ d j, (m (homeLoc d) j).toNat < 100000 ∧ (m (awayLoc d) j).toNat < 100000) :
    ∀ x, ((h1 L).view.read (Elt F) (m (homeLoc d)) x).toNat < 100000 := fun x => by
  rw [read_h1]; exact (hidx d _).1
omit [FloatOps F] in
theorem hw_h2 (hidx : ∀ d j, (m (homeLoc d) j).toNat < 100000 ∧ (m (awayLoc d) j).toNat < 100000) :
    ∀ x, ((h2 L).view.read (Elt F) (m (homeLoc d)) x).toNat < 100000 := fun x => by
  rw [read_h2]; exact (hidx d _).1
omit [FloatOps F] in
theorem hw_a1 (hidx : ∀ d j, (m (homeLoc d) j).toNat < 100000 ∧ (m (awayLoc d) j).toNat < 100000) :
    ∀ x, ((a1 L).view.read (Elt F) (m (awayLoc d)) x).toNat < 100000 := fun x => by
  rw [read_a1]; exact (hidx d _).2
omit [FloatOps F] in
theorem hw_a2 (hidx : ∀ d j, (m (homeLoc d) j).toNat < 100000 ∧ (m (awayLoc d) j).toNat < 100000) :
    ∀ x, ((a2 L).view.read (Elt F) (m (awayLoc d)) x).toNat < 100000 := fun x => by
  rw [read_a2]; exact (hidx d _).2

end Cert.Proof.Kernel

end
-- ==== Proof.Kernel.Tile.lean ====
/-
  A vector subcore's task of the SparseCore call, run once at a symbolic tile: from its 512 entries of the two index
  arrays, its read share of the table and its 512 entries of the result, the task copies its index words into its
  index scratch, gathers the table at them into its float scratch, subtracts the away rows from the home rows sixteen
  lanes at a time, and copies the two 256-entry halves out; it hands back the inputs unchanged and its entries of the
  result holding the table at the home index less the table at the away index.
-/
import proofs.«203773_g32736240730729_cont_9to1_2154_21_alg».proof.Proof.Kernel.Tile.Setup
import proofs.«203773_g32736240730729_cont_9to1_2154_21_alg».proof.Proof.Kernel.Tile.Value
import Idealize.ShloMosaic.Lib.Tactic

noncomputable section

namespace Cert.Proof.Kernel

open Cert.Kernel Cert.Kernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ) (d : Dev nD) (L : grid0.Coords)

/-- The task on the vector subcore at grid coordinates `L` of device `d`. -/
theorem tile_body (hF : (K (F := F)).Facts) (hidx : ∀ d j, (m (homeLoc d) j).toNat < 100000 ∧ (m (awayLoc d) j).toNat < 100000)
    (O : CellTallies nD τ sig (HIx 1)) (W : Waits sig (HIx 1)) (hO : ∀ g, O g none = 0) :
    iprop(levAts (K (F := F)).L (K (F := F)).lev ∗ emp ∗ goRes m d L ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L (Memref.whole main_arg0_scv) (Memref.isWhole_whole _) (Memref.whole main_arg1_scv) (Memref.isWhole_whole _) (Memref.whole main_arg3_scv) (Memref.isWhole_whole _) (Memref.whole main_v0_scv) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11)
          fun _ => iprop(tdRes m d L ∗ scopedBufs (V d (cV L) (jV L)) ∗ scopedSems0 (V d (cV L) (jV L)) ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold goRes blk
  iintro ⟨#Hlv, -, ⟨Hh, Ha, Ht, Ho⟩, ⟨⟨%fi, Hi⟩, ⟨%fx, Hx⟩, Hbufs⟩, ⟨⟨Hs2, Hs3, Hs4, Hs5, Hs6, Hs7, Hs8, Hs9, Hs10, Hs11⟩, Hsems⟩, HO⟩
  ihave Hmw := ((K (F := F)).mayWaits_none (thr := V d (cV L) (jV L)) hO) $$ Hlv
  -- the arrays in HBM as the two slices the task addresses
  ihave Hh' := (pointsTo_union (blk_disjoint L)).1 $$ Hh
  icases Hh' with ⟨Hh1, Hh2⟩
  ihave Ha' := (pointsTo_union (blk_disjoint L)).1 $$ Ha
  icases Ha' with ⟨Ha1, Ha2⟩
  ihave Ho' := (pointsTo_union (blk_disjoint L)).1 $$ Ho
  icases Ho' with ⟨Ho1, Ho2⟩
  ihave Hh1 := (Entails.of_eq (pts_h1 (F := F) d L _ _).symm) $$ Hh1
  ihave Hh2 := (Entails.of_eq (pts_h2 (F := F) d L _ _).symm) $$ Hh2
  ihave Ha1 := (Entails.of_eq (pts_a1 (F := F) d L _ _).symm) $$ Ha1
  ihave Ha2 := (Entails.of_eq (pts_a2 (F := F) d L _ _).symm) $$ Ha2
  ihave Ho1 := (Entails.of_eq (pts_o1 (F := F) d L _ _).symm) $$ Ho1
  ihave Ho2 := (Entails.of_eq (pts_o2 (F := F) d L _ _).symm) $$ Ho2
  -- the table's read tokens, one for each gather
  ihave Ht' := (toks8 (F := F) (tabShare L)).1 $$ Ht
  icases Ht' with ⟨Ht7, Ht6, Ht5, Ht4, Htr⟩
  ihave Ht4 := (Entails.of_eq (pts_t (F := F) d L _ _).symm) $$ Ht4
  ihave Ht5 := (Entails.of_eq (pts_t (F := F) d L _ _).symm) $$ Ht5
  ihave Ht6 := (Entails.of_eq (pts_t (F := F) d L _ _).symm) $$ Ht6
  ihave Ht7 := (Entails.of_eq (pts_t (F := F) d L _ _).symm) $$ Ht7
  -- the scratches' quarters
  ihave Hi' := (pts_sI_split (F := F) d L fi).1 $$ Hi
  icases Hi' with ⟨Hi0, Hi1, Hi2, Hi3⟩
  ihave Hx' := (pts_sX_split (F := F) d L fx).1 $$ Hx
  icases Hx' with ⟨Hx0, Hx1, Hx2, Hx3⟩
  -- the index words each gather reads are in range
  have hin0 := fun g => hin_of (F := F) sI0.view g _ (hw_h1 m d L hidx)
  have hin1 := fun g => hin_of (F := F) sI1.view g _ (hw_h2 m d L hidx)
  have hin2 := fun g => hin_of (F := F) sI2.view g _ (hw_a1 m d L hidx)
  have hin3 := fun g => hin_of (F := F) sI3.view g _ (hw_a2 m d L hidx)
  sl_exec_parts
  -- the values: the first half of the float scratch, group by group
  let GA : XC F := sX0.view.writes (Elt F) sX0.view.junk [⟨Rect.whole S256, tile_body.sl.gather4 m d L hin0⟩]
  let GA' : XC F := sX2.view.writes (Elt F) sX2.view.junk [⟨Rect.whole S256, tile_body.sl.gather5 m d L hin2⟩]
  have a0 : Inv 0 0 GA GA' GA := Inv_zero 0 GA GA'
  have a1 : Inv 0 1 GA GA' (tile_body.sl.Hx0_w1 m d L hin0 hin2) :=
    Inv_step a0 (by omega) (by omega) 0 512 rfl rfl _ _ _ (k0_pay1_eq _ _)
  have a2 : Inv 0 2 GA GA' (tile_body.sl.Hx0_w2 m d L hin0 hin2) :=
    Inv_step a1 (by omega) (by omega) 16 528 rfl rfl _ _ _ (k0_pay2_eq _ _)
  have a3 : Inv 0 3 GA GA' (tile_body.sl.Hx0_w3 m d L hin0 hin2) :=
    Inv_step a2 (by omega) (by omega) 32 544 rfl rfl _ _ _ (k0_pay3_eq _ _)
  have a4 : Inv 0 4 GA GA' (tile_body.sl.Hx0_w4 m d L hin0 hin2) :=
    Inv_step a3 (by omega) (by omega) 48 560 rfl rfl _ _ _ (k0_pay4_eq _ _)
  have a5 : Inv 0 5 GA GA' (tile_body.sl.Hx0_w5 m d L hin0 hin2) :=
    Inv_step a4 (by omega) (by omega) 64 576 rfl rfl _ _ _ (k0_pay5_eq _ _)
  have a6 : Inv 0 6 GA GA' (tile_body.sl.Hx0_w6 m d L hin0 hin2) :=
    Inv_step a5 (by omega) (by omega) 80 592 rfl rfl _ _ _ (k0_pay6_eq _ _)
  have a7 : Inv 0 7 GA GA' (tile_body.sl.Hx0_w7 m d L hin0 hin2) :=
    Inv_step a6 (by omega) (by omega) 96 608 rfl rfl _ _ _ (k0_pay7_eq _ _)
  have a8 : Inv 0 8 GA GA' (tile_body.sl.Hx0_w8 m d L hin0 hin2) :=
    Inv_step a7 (by omega) (by omega) 112 624 rfl rfl _ _ _ (k0_pay8_eq _ _)
  have a9 : Inv 0 9 GA GA' (tile_body.sl.Hx0_w9 m d L hin0 hin2) :=
    Inv_step a8 (by omega) (by omega) 128 640 rfl rfl _ _ _ (k0_pay9_eq _ _)
  have a10 : Inv 0 10 GA GA' (tile_body.sl.Hx0_w10 m d L hin0 hin2) :=
    Inv_step a9 (by omega) (by omega) 144 656 rfl rfl _ _ _ (k0_pay10_eq _ _)
  have a11 : Inv 0 11 GA GA' (tile_body.sl.Hx0_w11 m d L hin0 hin2) :=
    Inv_step a10 (by omega) (by omega) 160 672 rfl rfl _ _ _ (k0_pay11_eq _ _)
  have a12 : Inv 0 12 GA GA' (tile_body.sl.Hx0_w12 m d L hin0 hin2) :=
    Inv_step a11 (by omega) (by omega) 176 688 rfl rfl _ _ _ (k0_pay12_eq _ _)
  have a13 : Inv 0 13 GA GA' (tile_body.sl.Hx0_w13 m d L hin0 hin2) :=
    Inv_step a12 (by omega) (by omega) 192 704 rfl rfl _ _ _ (k0_pay13_eq _ _)
  have a14 : Inv 0 14 GA GA' (tile_body.sl.Hx0_w14 m d L hin0 hin2) :=
    Inv_step a13 (by omega) (by omega) 208 720 rfl rfl _ _ _ (k0_pay14_eq _ _)
  have a15 : Inv 0 15 GA GA' (tile_body.sl.Hx0_w15 m d L hin0 hin2) :=
    Inv_step a14 (by omega) (by omega) 224 736 rfl rfl _ _ _ (k0_pay15_eq _ _)
  have a16 : Inv 0 16 GA GA' (tile_body.sl.Hx0_w16 m d L hin0 hin2) :=
    Inv_step a15 (by omega) (by omega) 240 752 rfl rfl _ _ _ (k0_pay16_eq _ _)
  -- the second half
  let GB : XC F := sX1.view.writes (Elt F) sX1.view.junk [⟨Rect.whole S256, tile_body.sl.gather6 m d L hin1⟩]
  let GB' : XC F := sX3.view.writes (Elt F) sX3.view.junk [⟨Rect.whole S256, tile_body.sl.gather7 m d L hin3⟩]
  have b0 : Inv 256 0 GB GB' GB := Inv_zero 256 GB GB'
  have b1 : Inv 256 1 GB GB' (tile_body.sl.Hx1_w17 m d L hin1 hin3) :=
    Inv_step b0 (by omega) (by omega) 256 768 rfl rfl _ _ _ (k0_pay17_eq _ _)
  have b2 : Inv 256 2 GB GB' (tile_body.sl.Hx1_w18 m d L hin1 hin3) :=
    Inv_step b1 (by omega) (by omega) 272 784 rfl rfl _ _ _ (k0_pay18_eq _ _)
  have b3 : Inv 256 3 GB GB' (tile_body.sl.Hx1_w19 m d L hin1 hin3) :=
    Inv_step b2 (by omega) (by omega) 288 800 rfl rfl _ _ _ (k0_pay19_eq _ _)
  have b4 : Inv 256 4 GB GB' (tile_body.sl.Hx1_w20 m d L hin1 hin3) :=
    Inv_step b3 (by omega) (by omega) 304 816 rfl rfl _ _ _ (k0_pay20_eq _ _)
  have b5 : Inv 256 5 GB GB' (tile_body.sl.Hx1_w21 m d L hin1 hin3) :=
    Inv_step b4 (by omega) (by omega) 320 832 rfl rfl _ _ _ (k0_pay21_eq _ _)
  have b6 : Inv 256 6 GB GB' (tile_body.sl.Hx1_w22 m d L hin1 hin3) :=
    Inv_step b5 (by omega) (by omega) 336 848 rfl rfl _ _ _ (k0_pay22_eq _ _)
  have b7 : Inv 256 7 GB GB' (tile_body.sl.Hx1_w23 m d L hin1 hin3) :=
    Inv_step b6 (by omega) (by omega) 352 864 rfl rfl _ _ _ (k0_pay23_eq _ _)
  have b8 : Inv 256 8 GB GB' (tile_body.sl.Hx1_w24 m d L hin1 hin3) :=
    Inv_step b7 (by omega) (by omega) 368 880 rfl rfl _ _ _ (k0_pay24_eq _ _)
  have b9 : Inv 256 9 GB GB' (tile_body.sl.Hx1_w25 m d L hin1 hin3) :=
    Inv_step b8 (by omega) (by omega) 384 896 rfl rfl _ _ _ (k0_pay25_eq _ _)
  have b10 : Inv 256 10 GB GB' (tile_body.sl.Hx1_w26 m d L hin1 hin3) :=
    Inv_step b9 (by omega) (by omega) 400 912 rfl rfl _ _ _ (k0_pay26_eq _ _)
  have b11 : Inv 256 11 GB GB' (tile_body.sl.Hx1_w27 m d L hin1 hin3) :=
    Inv_step b10 (by omega) (by omega) 416 928 rfl rfl _ _ _ (k0_pay27_eq _ _)
  have b12 : Inv 256 12 GB GB' (tile_body.sl.Hx1_w28 m d L hin1 hin3) :=
    Inv_step b11 (by omega) (by omega) 432 944 rfl rfl _ _ _ (k0_pay28_eq _ _)
  have b13 : Inv 256 13 GB GB' (tile_body.sl.Hx1_w29 m d L hin1 hin3) :=
    Inv_step b12 (by omega) (by omega) 448 960 rfl rfl _ _ _ (k0_pay29_eq _ _)
  have b14 : Inv 256 14 GB GB' (tile_body.sl.Hx1_w30 m d L hin1 hin3) :=
    Inv_step b13 (by omega) (by omega) 464 976 rfl rfl _ _ _ (k0_pay30_eq _ _)
  have b15 : Inv 256 15 GB GB' (tile_body.sl.Hx1_w31 m d L hin1 hin3) :=
    Inv_step b14 (by omega) (by omega) 480 992 rfl rfl _ _ _ (k0_pay31_eq _ _)
  have b16 : Inv 256 16 GB GB' (tile_body.sl.Hx1_w32 m d L hin1 hin3) :=
    Inv_step b15 (by omega) (by omega) 496 1008 rfl rfl _ _ _ (k0_pay32_eq _ _)
  -- what each gather landed: the table at the index words of the task's entries
  have g4 : ∀ y, tile_body.sl.gather4 m d L hin0 y = m (tabLoc d) (Cert.Proof.PreFacts.takeIdx (m (homeLoc d) ((R1 L).emb y))) := fun y =>
    (gq_val m d _ 0 _ _ _ _ _ y).trans (congrArg (fun w => m (tabLoc d) (Cert.Proof.PreFacts.takeIdx w)) (read_h1 m d L y))
  have g5 : ∀ y, tile_body.sl.gather5 m d L hin2 y = m (tabLoc d) (Cert.Proof.PreFacts.takeIdx (m (awayLoc d) ((R1 L).emb y))) := fun y =>
    (gq_val m d _ 512 _ _ _ _ _ y).trans (congrArg (fun w => m (tabLoc d) (Cert.Proof.PreFacts.takeIdx w)) (read_a1 m d L y))
  have g6 : ∀ y, tile_body.sl.gather6 m d L hin1 y = m (tabLoc d) (Cert.Proof.PreFacts.takeIdx (m (homeLoc d) ((R2 L).emb y))) := fun y =>
    (gq_val m d _ 256 _ _ _ _ _ y).trans (congrArg (fun w => m (tabLoc d) (Cert.Proof.PreFacts.takeIdx w)) (read_h2 m d L y))
  have g7 : ∀ y, tile_body.sl.gather7 m d L hin3 y = m (tabLoc d) (Cert.Proof.PreFacts.takeIdx (m (awayLoc d) ((R2 L).emb y))) := fun y =>
    (gq_val m d _ 768 _ _ _ _ _ y).trans (congrArg (fun w => m (tabLoc d) (Cert.Proof.PreFacts.takeIdx w)) (read_a2 m d L y))
  -- what each copy out carries: the result at the task's entries
  have hW1 : ∀ y, tile_body.sl.dma64 m d L hin0 hin2 y = dSpec (m (homeLoc d)) (m (awayLoc d)) (m (tabLoc d)) ((R1 L).emb y) := fun y => by
    have h := half_val 0 (by omega) _ _ _ _ _ _ _ a16 y
    rw [g4, g5] at h
    exact h
  have hW2 : ∀ y, tile_body.sl.dma128 m d L hin1 hin3 y = dSpec (m (homeLoc d)) (m (awayLoc d)) (m (tabLoc d)) ((R2 L).emb y) := fun y => by
    have h := half_val 256 (by omega) _ _ _ _ _ _ _ b16 y
    rw [g6, g7] at h
    exact h
  sl_step
  unfold tdRes blk
  isplitl [Hh1 Hh2 Ha1 Ha2 Ht4 Ht5 Ht6 Ht7 Htr Ho1 Ho2]
  · isplitl [Hh1 Hh2]
    · iapply (pointsTo_union (blk_disjoint L)).2
      isplitl [Hh1]
      · iapply (Entails.of_eq (pts_h1 (F := F) d L _ _)); iexact Hh1
      · iapply (Entails.of_eq (pts_h2 (F := F) d L _ _)); iexact Hh2
    isplitl [Ha1 Ha2]
    · iapply (pointsTo_union (blk_disjoint L)).2
      isplitl [Ha1]
      · iapply (Entails.of_eq (pts_a1 (F := F) d L _ _)); iexact Ha1
      · iapply (Entails.of_eq (pts_a2 (F := F) d L _ _)); iexact Ha2
    isplitl [Ht4 Ht5 Ht6 Ht7 Htr]
    · iapply (toks8 (F := F) (tabShare L)).2
      isplitl [Ht7]; · iexact Ht7
      isplitl [Ht6]; · iexact Ht6
      isplitl [Ht5]; · iexact Ht5
      isplitl [Ht4]; · iexact Ht4
      iexact Htr
    · iapply (pointsTo_union (blk_disjoint L)).2
      isplitl [Ho1]
      · iapply (Entails.of_eq (pointsTo_congr (out_val1 m d L _ hW1)))
        iapply (Entails.of_eq (pts_o1 (F := F) d L _ _)); iexact Ho1
      · iapply (Entails.of_eq (pointsTo_congr (out_val2 m d L _ hW2)))
        iapply (Entails.of_eq (pts_o2 (F := F) d L _ _)); iexact Ho2
  isplitl [Hi0 Hi1 Hi2 Hi3 Hx0 Hx1 Hx2 Hx3 Hbufs]
  · isplitl [Hi0 Hi1 Hi2 Hi3]
    · iapply (join_sI (F := F) d L _ _ _ _)
      isplitl [Hi0]; · iexact Hi0
      isplitl [Hi1]; · iexact Hi1
      isplitl [Hi2]; · iexact Hi2
      iexact Hi3
    isplitl [Hx0 Hx1 Hx2 Hx3]
    · iapply (join_sX (F := F) d L _ _ _ _)
      isplitl [Hx0]; · iexact Hx0
      isplitl [Hx1]; · iexact Hx1
      isplitl [Hx2]; · iexact Hx2
      iexact Hx3
    iexact Hbufs
  isplitl [Hs2 Hs3 Hs4 Hs5 Hs6 Hs7 Hs8 Hs9 Hs10 Hs11 Hsems]
  · isplitl [Hs2 Hs3 Hs4 Hs5 Hs6 Hs7 Hs8 Hs9 Hs10 Hs11]
    · isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      iexact Hs11
    iexact Hsems
  iexists (insert (SemLoc.dma cc0_scratch11.sem, none) (insert (SemLoc.dma cc0_scratch10.sem, none) (insert (SemLoc.dma cc0_scratch9.sem, none) (insert (SemLoc.dma cc0_scratch8.sem, none) (insert (SemLoc.dma cc0_scratch7.sem, none) (insert (SemLoc.dma cc0_scratch6.sem, none) (insert (SemLoc.dma cc0_scratch5.sem, none) (insert (SemLoc.dma cc0_scratch4.sem, none) (insert (SemLoc.dma cc0_scratch3.sem, none) (insert (SemLoc.dma cc0_scratch2.sem, none) W)))))))))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact .inl hp
  · iexact HO

end Cert.Proof.Kernel

end
-- ==== Proof.Kernel.Split.lean ====
/-
  The whole arrays dealt out to the 32 tiles and joined back: each 16384-entry array is its 32 blocks of 512, the table's
  full share is one read share per tile and a remainder, and what the tiles hand back is the arrays whole again, the result
  holding the one function each tile wrote its block of.
-/
import proofs.«203773_g32736240730729_cont_9to1_2154_21_alg».proof.Proof.Kernel.Tile.Defs
import Idealize.ShloMosaic.Rules.PointsTo
import Idealize.ShloMosaic.Lib.Transfers

noncomputable section

namespace Cert.Proof.Kernel

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

variable [FloatOps F] (m : (ℓ : Loc nD τ sig) → Buf (Elt F) ℓ)

/-! ## The tiles' entries: 32 blocks of 512, pairwise disjoint, covering the batch -/

/-- The tiles, as pairs (SparseCore, vector subcore). -/
abbrev Tiles : Type := Fin (grid0.bound 0) × Fin (grid0.bound 1)

/-- Tile `(c, s)`'s entries are the 512 from `1024 s + 512 c` on. -/
theorem mem_blk_tile (c : Fin (grid0.bound 0)) (s : Fin (grid0.bound 1)) (i : S16384.Idx) :
    i ∈ blk (coordsV c s) ↔ 1024 * s.val + 512 * c.val ≤ (i 0).val ∧ (i 0).val < 1024 * s.val + 512 * c.val + 512 :=
  mem_blk (coordsV c s) i

/-- Two tiles' entries are disjoint: an entry in both would give `2 s + c = 2 s' + c'` with `c, c' < 2`. -/
theorem blk_tiles_disjoint : ∀ p ∈ (Finset.univ : Finset Tiles), ∀ p' ∈ (Finset.univ : Finset Tiles), p ≠ p' →
    Disjoint (blk (coordsV p.1 p.2)) (blk (coordsV p'.1 p'.2)) := by
  rintro ⟨c, s⟩ - ⟨c', s'⟩ - hne
  rw [Finset.disjoint_left]
  intro i h1 h2
  have h1 := (mem_blk_tile c s i).mp h1
  have h2 := (mem_blk_tile c' s' i).mp h2
  have hc : c.val < 2 := c.isLt
  have hc' : c'.val < 2 := c'.isLt
  have h : s.val = s'.val ∧ c.val = c'.val := by omega
  exact hne (Prod.ext (Fin.ext h.2) (Fin.ext h.1))

/-- Every entry `x < 16384` is some tile's: tile `(x % 1024 / 512, x / 1024)`'s. -/
theorem blk_tiles_cover : (Finset.univ : Finset Tiles).biUnion (fun p => blk (coordsV p.1 p.2)) = Finset.univ := by
  ext i
  simp only [Finset.mem_biUnion, Finset.mem_univ, true_and, iff_true]
  have hi : (i 0).val < 16384 := (i 0).isLt
  refine ⟨(⟨(i 0).val % 1024 / 512, ?_⟩, ⟨(i 0).val / 1024, ?_⟩), ?_⟩
  · show _ < 2; omega
  · show _ < 16; omega
  · rw [mem_blk_tile]
    show 1024 * ((i 0).val / 1024) + 512 * ((i 0).val % 1024 / 512) ≤ (i 0).val
      ∧ (i 0).val < 1024 * ((i 0).val / 1024) + 512 * ((i 0).val % 1024 / 512) + 512
    omega

/-! ## A whole 16384-entry array is its 32 blocks -/

theorem homePts_tiles (d : Dev nD) (f : Buf (Elt F) (homeLoc d)) :
    (homeLoc d ↦{fullShare} f : sProp 𝕄) = bigSep Finset.univ fun p : Tiles => homeLoc d ↦[blk (coordsV p.1 p.2)]{fullShare} f := by
  rw [← pointsTo_biUnion Finset.univ (ℓ := homeLoc d) (fun p : Tiles => blk (coordsV p.1 p.2)) blk_tiles_disjoint, blk_tiles_cover]; try rfl

theorem awayPts_tiles (d : Dev nD) (f : Buf (Elt F) (awayLoc d)) :
    (awayLoc d ↦{fullShare} f : sProp 𝕄) = bigSep Finset.univ fun p : Tiles => awayLoc d ↦[blk (coordsV p.1 p.2)]{fullShare} f := by
  rw [← pointsTo_biUnion Finset.univ (ℓ := awayLoc d) (fun p : Tiles => blk (coordsV p.1 p.2)) blk_tiles_disjoint, blk_tiles_cover]; try rfl

theorem dPts_tiles (d : Dev nD) (f : Buf (Elt F) (dLoc d)) :
    (dLoc d ↦{fullShare} f : sProp 𝕄) = bigSep Finset.univ fun p : Tiles => dLoc d ↦[blk (coordsV p.1 p.2)]{fullShare} f := by
  rw [← pointsTo_biUnion Finset.univ (ℓ := dLoc d) (fun p : Tiles => blk (coordsV p.1 p.2)) blk_tiles_disjoint, blk_tiles_cover]; try rfl

/-! ## The table's read shares: one per tile, and what is left -/

/-- Every share of the table no tile is handed: what is left of the full share after one token per SparseCore, and of each
    SparseCore's token after one token per vector subcore. -/
def tabRem (d : Dev nD) : sProp 𝕄 :=
  iprop((tabLoc d ↦{Transfers.shareDrop fullShare (grid0.bound 0)} m (tabLoc d))
    ∗ bigSep Finset.univ fun c : Fin (grid0.bound 0) =>
        tabLoc d ↦{Transfers.shareDrop (Transfers.shareTokN fullShare c.val) (grid0.bound 1)} m (tabLoc d))

/-- Three separated parts, the last brought to the front. -/
theorem sep_rot {A B C : sProp 𝕄} : iprop(A ∗ B ∗ C) = iprop(C ∗ A ∗ B) := by
  have h : iprop(A ∗ B ∗ C) ⊣⊢ iprop(C ∗ A ∗ B) := by
    constructor
    · iintro ⟨HA, HB, HC⟩
      isplitl [HC]; · iexact HC
      isplitl [HA]; · iexact HA
      iexact HB
    · iintro ⟨HC, HA, HB⟩
      isplitl [HA]; · iexact HA
      isplitl [HB]; · iexact HB
      iexact HC
  exact BI.equiv_iff.mp ⟨h.1, h.2⟩

/-- The full share of the table is the tiles' read shares and the rest. -/
theorem tabPts_tiles (d : Dev nD) :
    (tabLoc d ↦{fullShare} m (tabLoc d) : sProp 𝕄)
      = iprop((bigSep Finset.univ fun p : Tiles => tabLoc d ↦{tabShare (coordsV p.1 p.2)} m (tabLoc d)) ∗ tabRem m d) := by
  have h0 : (tabLoc d ↦{fullShare} m (tabLoc d) : sProp 𝕄)
      = iprop((tabLoc d ↦{Transfers.shareDrop fullShare (grid0.bound 0)} m (tabLoc d))
          ∗ bigSep Finset.univ fun c : Fin (grid0.bound 0) => tabLoc d ↦{Transfers.shareTok fullShare (grid0.bound 0) c} m (tabLoc d)) :=
    BI.equiv_iff.mp ⟨(Transfers.pointsTo_toks fullShare (grid0.bound 0)).1, (Transfers.pointsTo_toks fullShare (grid0.bound 0)).2⟩
  have h1 : ∀ c : Fin (grid0.bound 0),
      (tabLoc d ↦{Transfers.shareTok fullShare (grid0.bound 0) c} m (tabLoc d) : sProp 𝕄)
        = iprop((tabLoc d ↦{Transfers.shareDrop (Transfers.shareTokN fullShare c.val) (grid0.bound 1)} m (tabLoc d))
            ∗ bigSep Finset.univ fun s : Fin (grid0.bound 1) => tabLoc d ↦{tabShare (coordsV c s)} m (tabLoc d)) := fun c =>
    BI.equiv_iff.mp ⟨(Transfers.pointsTo_toks (Transfers.shareTokN fullShare c.val) (grid0.bound 1)).1,
      (Transfers.pointsTo_toks (Transfers.shareTokN fullShare c.val) (grid0.bound 1)).2⟩
  rw [h0, bigSep_congr (fun c _ => h1 c), bigSep_sep']
  unfold tabRem
  rw [bigSep_univ_prod (fun p : Tiles => (tabLoc d ↦{tabShare (coordsV p.1 p.2)} m (tabLoc d) : sProp 𝕄))]
  exact sep_rot

/-! ## Dealing the arrays out to the tiles, and joining them back -/

/-- What the tiles are handed, array by array. -/
theorem goRes_tiles (d : Dev nD) :
    (bigSep Finset.univ fun c : Fin (grid0.bound 0) => bigSep Finset.univ fun s : Fin (grid0.bound 1) => goRes m d (coordsV c s))
      = (iprop((bigSep Finset.univ fun p : Tiles => homeLoc d ↦[blk (coordsV p.1 p.2)]{fullShare} m (homeLoc d))
          ∗ (bigSep Finset.univ fun p : Tiles => awayLoc d ↦[blk (coordsV p.1 p.2)]{fullShare} m (awayLoc d))
          ∗ (bigSep Finset.univ fun p : Tiles => tabLoc d ↦{tabShare (coordsV p.1 p.2)} m (tabLoc d))
          ∗ (bigSep Finset.univ fun p : Tiles => dLoc d ↦[blk (coordsV p.1 p.2)]{fullShare} m (dLoc d))) : sProp 𝕄) := by
  refine (bigSep_univ_prod (fun p : Tiles => goRes m d (coordsV p.1 p.2))).symm.trans ?_
  unfold goRes
  rw [bigSep_sep', bigSep_sep', bigSep_sep']

/-- What the tiles hand back, array by array. -/
theorem tdRes_tiles (d : Dev nD) :
    (bigSep Finset.univ fun c : Fin (grid0.bound 0) => bigSep Finset.univ fun s : Fin (grid0.bound 1) => tdRes m d (coordsV c s))
      = (iprop((bigSep Finset.univ fun p : Tiles => homeLoc d ↦[blk (coordsV p.1 p.2)]{fullShare} m (homeLoc d))
          ∗ (bigSep Finset.univ fun p : Tiles => awayLoc d ↦[blk (coordsV p.1 p.2)]{fullShare} m (awayLoc d))
          ∗ (bigSep Finset.univ fun p : Tiles => tabLoc d ↦{tabShare (coordsV p.1 p.2)} m (tabLoc d))
          ∗ (bigSep Finset.univ fun p : Tiles =>
              dLoc d ↦[blk (coordsV p.1 p.2)]{fullShare} dSpec (m (homeLoc d)) (m (awayLoc d)) (m (tabLoc d)))) : sProp 𝕄) := by
  refine (bigSep_univ_prod (fun p : Tiles => tdRes m d (coordsV p.1 p.2))).symm.trans ?_
  unfold tdRes
  rw [bigSep_sep', bigSep_sep', bigSep_sep']

/-- The four whole arrays go out as every tile's share of them, and the table's undealt shares stay behind. -/
theorem deal (d : Dev nD) :
    iprop((homeLoc d ↦{fullShare} m (homeLoc d)) ∗ (awayLoc d ↦{fullShare} m (awayLoc d))
        ∗ (tabLoc d ↦{fullShare} m (tabLoc d)) ∗ (dLoc d ↦{fullShare} m (dLoc d)))
      ⊢ (iprop((bigSep Finset.univ fun c : Fin (grid0.bound 0) => bigSep Finset.univ fun s : Fin (grid0.bound 1) => goRes m d (coordsV c s))
          ∗ tabRem m d) : sProp 𝕄) := by
  rw [goRes_tiles, homePts_tiles, awayPts_tiles, dPts_tiles, tabPts_tiles]
  iintro ⟨Hh, Ha, ⟨Ht, Hr⟩, Hd⟩
  isplitr [Hr]
  · isplitl [Hh]; · iexact Hh
    isplitl [Ha]; · iexact Ha
    isplitl [Ht]; · iexact Ht
    iexact Hd
  · iexact Hr

/-- What the tiles hand back, with the table's undealt shares, is the three input arrays whole and unchanged and the result
    array whole, holding the one function every tile wrote its entries of. -/
theorem join (d : Dev nD) :
    iprop((bigSep Finset.univ fun c : Fin (grid0.bound 0) => bigSep Finset.univ fun s : Fin (grid0.bound 1) => tdRes m d (coordsV c s))
        ∗ tabRem m d)
      ⊢ (iprop((homeLoc d ↦{fullShare} m (homeLoc d)) ∗ (awayLoc d ↦{fullShare} m (awayLoc d))
          ∗ (tabLoc d ↦{fullShare} m (tabLoc d))
          ∗ (dLoc d ↦{fullShare} dSpec (m (homeLoc d)) (m (awayLoc d)) (m (tabLoc d)))) : sProp 𝕄) := by
  rw [tdRes_tiles, homePts_tiles, awayPts_tiles, dPts_tiles, tabPts_tiles]
  iintro ⟨⟨Hh, Ha, Ht, Hd⟩, Hr⟩
  isplitl [Hh]; · iexact Hh
  isplitl [Ha]; · iexact Ha
  isplitr [Hd]
  · isplitl [Ht]; · iexact Ht
    iexact Hr
  · iexact Hd

instance goRes_storable (d : Dev nD) (L : grid0.Coords) : BI.Storable (upEmb : UEmb _ 𝕄) (goRes m d L) := by
  unfold goRes; infer_instance

instance tdRes_storable (d : Dev nD) (L : grid0.Coords) : BI.Storable (upEmb : UEmb _ 𝕄) (tdRes m d L) := by
  unfold tdRes; infer_instance

end Cert.Proof.Kernel

end
-- ==== Proof.Kernel.Regions.Body1.lean ====
/-
  The first TensorCore kernel's body as one triple: on whole staging memrefs holding a block of the transposed
  features, the weights and the one-word bias, it leaves the three as they were and the output memref at the body's
  payload of them.
-/
import proofs.«203773_g32736240730729_cont_9to1_2154_21_alg».proof.Proof.Kernel.Common
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Proof.Kernel

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The body's accesses -/

abbrev r1_x : Rect S64x8192 := Rect.unit (s := S64x8192) ![0, 0] S64x8192.size inb_S64x8192_S64x8192_0_0
abbrev r1_b : Rect S64 := Rect.unit (s := S64) ![0] S64.size inb_S64_S64_0
abbrev r1_m : Rect S1 := Rect.unit (s := S1) ![0] S1.size inb_S1_S1_0
abbrev r1_y : Rect S8192 := Rect.unit (s := S8192) ![0] S8192.size inb_S8192_S8192_0

/-- The one word the body reads of the bias buffer, from what the buffer reads. -/
abbrev word1 (x3 : Vec F S1 .f32) : Elt F .f32 :=
  View.ld x3 r1_m (Shape.Idx.first (numel1_S1.symm ▸ Nat.one_pos))

/-- What the body leaves in the output window's buffer: its one store, whose payload is the skeleton's, of what it
    loaded of the three inputs. -/
def out1 (x1 : Vec F S64x8192 .f32) (x2 : Vec F S64 .f32) (x3 : Vec F S1 .f32) : Vec F S8192 .f32 :=
  View.canon [⟨r1_y, k1_pay1 (View.ld x1 r1_x) (View.ld x2 r1_b) (word1 x3)⟩]

/-- The store is of the whole buffer. -/
theorem storeCover1 (p0 : Vec F S8192 .f32) (y : S8192.Idx) :
    ∃ pc ∈ ([⟨r1_y, p0⟩] : List (View.Piece (Elt F) S8192 .f32)), y ∈ pc.1.set :=
  View.cover_of_tiled [⟨r1_y, p0⟩] S8192.size (by rfl) y

set_option maxHeartbeats 1000000 in
/-- The body on whole staging memrefs: the inputs' at read contents `x1`, `x2`, `x3` and the output's at anything; it runs to
    the continuation holding the inputs' as they were and the output's at `out1` of them. -/
theorem sound_kernel1 (c : Dev nD) (E : Set ℕ) (i : grid1.Coords)
    (arg1 : Memref sig .tc .vmem S64x8192 .f32) (harg1 : arg1.IsWhole) (arg2 : Memref sig .tc .vmem S64 .f32) (harg2 : arg2.IsWhole)
    (arg3 : Memref sig .tc .smem S1 .f32) (harg3 : arg3.IsWhole) (arg4 : Memref sig .tc .vmem S8192 .f32) (harg4 : arg4.IsWhole)
    (x1 : Vec F S64x8192 .f32) (x2 : Vec F S64 .f32) (x3 : Vec F S1 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (out1 x1 x2 x3)) -∗ K ⟨⟩))
      ⊢ wp frame (wpE (defs₀ (F := F)) Variants.none c none) E (cc1__matvec_body i arg1 harg1 arg2 harg2 arg3 harg3 arg4 harg4) K := by
  simp only [cc1__matvec_body_eq_skeleton]; unfold cc1__matvec_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (storeCover1 _)

end Cert.Proof.Kernel

end
-- ==== Proof.Kernel.Regions.Body2.lean ====
/-
  The second TensorCore kernel's body as one triple: on whole staging memrefs holding the two arrays it adds, it leaves
  them as they were and the output memref at the body's payload of them.
-/
import proofs.«203773_g32736240730729_cont_9to1_2154_21_alg».proof.Proof.Kernel.Common
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Proof.Kernel

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The body's access -/

abbrev r2 : Rect S16384 := Rect.unit (s := S16384) ![0] S16384.size inb_S16384_S16384_0

/-- What the body leaves in the output window's buffer: its one store, whose payload is the skeleton's, of what it
    loaded of the two inputs. -/
def out2 (x0 x1 : Vec F S16384 .f32) : Vec F S16384 .f32 :=
  View.canon [⟨r2, k2_pay1 (View.ld x0 r2) (View.ld x1 r2)⟩]

/-- The store is of the whole buffer. -/
theorem storeCover2 (p0 : Vec F S16384 .f32) (y : S16384.Idx) :
    ∃ pc ∈ ([⟨r2, p0⟩] : List (View.Piece (Elt F) S16384 .f32)), y ∈ pc.1.set :=
  View.cover_of_tiled [⟨r2, p0⟩] S16384.size (by rfl) y

set_option maxHeartbeats 1000000 in
/-- The body on whole staging memrefs: the inputs' at read contents `x0`, `x1` and the output's at anything; it runs to
    the continuation holding the inputs' as they were and the output's at `out2` of them. -/
theorem sound_kernel2 (c : Dev nD) (E : Set ℕ)
    (arg0 : Memref sig .tc .vmem S16384 .f32) (harg0 : arg0.IsWhole) (arg1 : Memref sig .tc .vmem S16384 .f32) (harg1 : arg1.IsWhole)
    (arg2 : Memref sig .tc .vmem S16384 .f32) (harg2 : arg2.IsWhole)
    (x0 x1 : Vec F S16384 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2 x0 x1)) -∗ K ⟨⟩))
      ⊢ wp frame (wpE (defs₀ (F := F)) Variants.none c none) E (cc2__combine_body arg0 harg0 arg1 harg1 arg2 harg2) K := by
  simp only [cc2__combine_body_eq_skeleton]; unfold cc2__combine_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (storeCover2 _)

end Cert.Proof.Kernel

end
-- ==== Proof.Kernel.Regions.Data.lean ====
/-
  The two TensorCore regions' proof data: what each window's array holds when its region is entered (parameters: the
  transposed features, the weights, the bias, the SparseCore call's result, and whatever the two result arrays held),
  what the body leaves in each staging buffer at each grid point, and the body obligations.
-/
import proofs.«203773_g32736240730729_cont_9to1_2154_21_alg».proof.Proof.Kernel.Common
import proofs.«203773_g32736240730729_cont_9to1_2154_21_alg».proof.Proof.Kernel.Regions.Body1
import proofs.«203773_g32736240730729_cont_9to1_2154_21_alg».proof.Proof.Kernel.Regions.Body2
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Proof.Kernel

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The prefetched tables' admissible contents: no pipeline has a table. -/
abbrev adm : (p : Fin 2) → (pcfgs (F := F) p).Adm := fun p => (cfgs p).toPCfg_adm

/-- The pairs a core's waits may have recorded around the regions: those recorded before them (`W`), and the
    pipelines' own, which sit at the index `none`. -/
abbrev recB (W : Waits sig (HIx 1)) : Set (SemLoc sig × HIx 1) := {p | p ∈ W ∨ p.2 = none}

/-! # Region 1: the matrix-vector kernel (pipeline 0), grid of two points -/

section Region1

variable (XT : Vec F S64x16384 .f32) (β : Vec F S64 .f32) (μ : Vec F S1 .f32) (y0 : Vec F S16384 .f32)
  (B : Set (SemLoc sig × HIx 1))

/-- Each window's array when the region is entered: the transposed features, the weights, the bias, and the result
    array at whatever it held. -/
def A1 (c : Dev nD) : (w : Fin cfg1.W) → Buf (Elt F) ((cfg1.win w).arr.view.loc (c : Thread nD τ))
  | ⟨0, _⟩ => XT
  | ⟨1, _⟩ => β
  | ⟨2, _⟩ => μ
  | ⟨3, _⟩ => y0

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (A1 XT β μ y0 c w)

/-- The proof data: the arrays as the region finds them; after the body at point `t` each input's buffer at its block
    and the output's at the body's store of the three input blocks; the invariant the scoped buffers no window
    stages, untouched; nothing owed; full shares. -/
def dat1 (c : Dev nD) : Dat τ (Elt F) (HIx 1) ℕ UU ℕ cfg1 c where
  A w := A1 XT β μ y0 c w
  after w t := match w with
    | ⟨0, _⟩ => iblk1 XT β μ y0 c 0 t
    | ⟨1, _⟩ => iblk1 XT β μ y0 c 1 t
    | ⟨2, _⟩ => iblk1 XT β μ y0 c 2 t
    | ⟨3, _⟩ => out1 (iblk1 XT β μ y0 c 0 t) (iblk1 XT β μ y0 c 1 t) (iblk1 XT β μ y0 c 2 t)
  Φ _ := Pipeline.scopedRest (Ix := HIx 1) (Name := ℕ) (U := UU) (Lvl := ℕ) (Val := Elt F) spec1 c
  q _ := fullShare
  owed _ := 0
  recorded _ := B

theorem A_eq1 (c : Dev nD) (w : Fin cfg1.W) : (dat1 XT β μ y0 B c).A w = A1 XT β μ y0 c w := by
  dsimp only [dat1]

theorem after1_0 (c : Dev nD) (t : Fin cfg1.N) : (dat1 XT β μ y0 B c).after 0 t = iblk1 XT β μ y0 c 0 t := by dsimp only [dat1]
theorem after1_1 (c : Dev nD) (t : Fin cfg1.N) : (dat1 XT β μ y0 B c).after 1 t = iblk1 XT β μ y0 c 1 t := by dsimp only [dat1]
theorem after1_2 (c : Dev nD) (t : Fin cfg1.N) : (dat1 XT β μ y0 B c).after 2 t = iblk1 XT β μ y0 c 2 t := by dsimp only [dat1]
theorem after1_3 (c : Dev nD) (t : Fin cfg1.N) :
    (dat1 XT β μ y0 B c).after 3 t = out1 (iblk1 XT β μ y0 c 0 t) (iblk1 XT β μ y0 c 1 t) (iblk1 XT β μ y0 c 2 t) := by dsimp only [dat1]

/-- Each input's current staging buffer holds its block at every point, fetched there or not: unfetched, the block
    index has not moved and the body left the block in place. -/
theorem before1_0 (c : Dev nD) (t : Fin cfg1.N) (d) : (dat1 XT β μ y0 B c).before 0 t d = iblk1 XT β μ y0 c 0 t :=
  ((dat1 XT β μ y0 B c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 XT β μ y0 B c).before 1 t d = iblk1 XT β μ y0 c 1 t :=
  ((dat1 XT β μ y0 B c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 XT β μ y0 B c).before 2 t d = iblk1 XT β μ y0 c 2 t :=
  ((dat1 XT β μ y0 B c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 XT β μ y0 B c).Φ t.castSucc ∗ (dat1 XT β μ y0 B c).owesAt none t.castSucc
    ∗ (∃ d, owns (c : Thread nD τ) (st1_0 t) fullShare ((dat1 XT β μ y0 B c).before 0 t d))
    ∗ (∃ d, owns (c : Thread nD τ) (st1_1 t) fullShare ((dat1 XT β μ y0 B c).before 1 t d))
    ∗ (∃ d, owns (c : Thread nD τ) (st1_2 t) fullShare ((dat1 XT β μ y0 B c).before 2 t d))
    ∗ (∃ d, owns (c : Thread nD τ) (st1_3 t) fullShare ((dat1 XT β μ y0 B c).before 3 t d)))

/-- and what it returns. -/
def bodyPost1 (c : Dev nD) (t : Fin cfg1.N) : sProp 𝕄 :=
  iprop((dat1 XT β μ y0 B c).Φ t.succ ∗ (dat1 XT β μ y0 B c).owesAt none t.succ
    ∗ owns (c : Thread nD τ) (st1_0 t) fullShare ((dat1 XT β μ y0 B c).after 0 t)
    ∗ owns (c : Thread nD τ) (st1_1 t) fullShare ((dat1 XT β μ y0 B c).after 1 t)
    ∗ owns (c : Thread nD τ) (st1_2 t) fullShare ((dat1 XT β μ y0 B c).after 2 t)
    ∗ owns (c : Thread nD τ) (st1_3 t) fullShare ((dat1 XT β μ y0 B c).after 3 t))

/-- The body at any point: the inputs' memrefs hold their blocks, so the body's triple applies; the invariant and the
    core's `owes` pass through unread. -/
theorem sound_body1 (c : Dev nD) (t : Fin cfg1.N) :
    bodyPre1 XT β μ y0 B c t ⊢ wp frame (wpE (defs₀ (F := F)) Variants.none c none) Set.univ (bodyAt1 t) (fun _ => bodyPost1 XT β μ y0 B c t) := by
  unfold bodyPre1 bodyPost1 bodyAt1
  simp only [before1_0, before1_1, before1_2]
  rw [show (dat1 XT β μ y0 B c).Φ t.succ = (dat1 XT β μ y0 B c).Φ t.castSucc from rfl,
    show (dat1 XT β μ y0 B c).owesAt none t.succ = (dat1 XT β μ y0 B c).owesAt none t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 XT β μ y0 c 0 t) (iblk1 XT β μ y0 c 1 t) (iblk1 XT β μ y0 c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) XT β μ y0 B c) (defs₀ (F := F)) Variants.none none Set.univ := fun t => by
  rw [bigSep_W1, bigSep_W1]
  exact sound_body1 XT β μ y0 B c t

end Region1

/-! # Region 2: the combining kernel (pipeline 1), one point -/

section Region2

variable (Y DD o0 : Vec F S16384 .f32) (B : Set (SemLoc sig × HIx 1))

/-- Each window's array when the region is entered: the first kernel's result, the SparseCore call's, and the result
    array at whatever it held. -/
def A2 (c : Dev nD) : (w : Fin cfg2.W) → Buf (Elt F) ((cfg2.win w).arr.view.loc (c : Thread nD τ))
  | ⟨0, _⟩ => Y
  | ⟨1, _⟩ => DD
  | ⟨2, _⟩ => o0

/-- Window `w`'s block at the point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (A2 Y DD o0 c w)

/-- The proof data, as the first region's. -/
def dat2 (c : Dev nD) : Dat τ (Elt F) (HIx 1) ℕ UU ℕ cfg2 c where
  A w := A2 Y DD o0 c w
  after w t := match w with
    | ⟨0, _⟩ => iblk2 Y DD o0 c 0 t
    | ⟨1, _⟩ => iblk2 Y DD o0 c 1 t
    | ⟨2, _⟩ => out2 (iblk2 Y DD o0 c 0 t) (iblk2 Y DD o0 c 1 t)
  Φ _ := Pipeline.scopedRest (Ix := HIx 1) (Name := ℕ) (U := UU) (Lvl := ℕ) (Val := Elt F) spec2 c
  q _ := fullShare
  owed _ := 0
  recorded _ := B

theorem A_eq2 (c : Dev nD) (w : Fin cfg2.W) : (dat2 Y DD o0 B c).A w = A2 Y DD o0 c w := by
  dsimp only [dat2]

theorem after2_0 (c : Dev nD) (t : Fin cfg2.N) : (dat2 Y DD o0 B c).after 0 t = iblk2 Y DD o0 c 0 t := by dsimp only [dat2]
theorem after2_1 (c : Dev nD) (t : Fin cfg2.N) : (dat2 Y DD o0 B c).after 1 t = iblk2 Y DD o0 c 1 t := by dsimp only [dat2]
theorem after2_2 (c : Dev nD) (t : Fin cfg2.N) :
    (dat2 Y DD o0 B c).after 2 t = out2 (iblk2 Y DD o0 c 0 t) (iblk2 Y DD o0 c 1 t) := by dsimp only [dat2]

theorem before2_0 (c : Dev nD) (t : Fin cfg2.N) (d) : (dat2 Y DD o0 B c).before 0 t d = iblk2 Y DD o0 c 0 t :=
  ((dat2 Y DD o0 B c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 Y DD o0 B c).before 1 t d = iblk2 Y DD o0 c 1 t :=
  ((dat2 Y DD o0 B c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 Y DD o0 B c).Φ t.castSucc ∗ (dat2 Y DD o0 B c).owesAt none t.castSucc
    ∗ (∃ d, owns (c : Thread nD τ) (st2_0 t) fullShare ((dat2 Y DD o0 B c).before 0 t d))
    ∗ (∃ d, owns (c : Thread nD τ) (st2_1 t) fullShare ((dat2 Y DD o0 B c).before 1 t d))
    ∗ (∃ d, owns (c : Thread nD τ) (st2_2 t) fullShare ((dat2 Y DD o0 B c).before 2 t d)))

def bodyPost2 (c : Dev nD) (t : Fin cfg2.N) : sProp 𝕄 :=
  iprop((dat2 Y DD o0 B c).Φ t.succ ∗ (dat2 Y DD o0 B c).owesAt none t.succ
    ∗ owns (c : Thread nD τ) (st2_0 t) fullShare ((dat2 Y DD o0 B c).after 0 t)
    ∗ owns (c : Thread nD τ) (st2_1 t) fullShare ((dat2 Y DD o0 B c).after 1 t)
    ∗ owns (c : Thread nD τ) (st2_2 t) fullShare ((dat2 Y DD o0 B c).after 2 t))

theorem sound_body2 (c : Dev nD) (t : Fin cfg2.N) :
    bodyPre2 Y DD o0 B c t ⊢ wp frame (wpE (defs₀ (F := F)) Variants.none c none) Set.univ (bodyAt2 t) (fun _ => bodyPost2 Y DD o0 B c t) := by
  unfold bodyPre2 bodyPost2 bodyAt2
  simp only [before2_0, before2_1]
  rw [show (dat2 Y DD o0 B c).Φ t.succ = (dat2 Y DD o0 B c).Φ t.castSucc from rfl,
    show (dat2 Y DD o0 B c).owesAt none t.succ = (dat2 Y DD o0 B c).owesAt none t.castSucc from rfl,
    after2_0, after2_1, after2_2]
  iintro ⟨HΦ, Ho, ⟨%d0, H0⟩, ⟨%d1, H1⟩, ⟨%d2, H2⟩⟩
  iapply (sound_kernel2 c Set.univ _ _ _ _ _ _ (iblk2 Y DD o0 c 0 t) (iblk2 Y DD o0 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) Y DD o0 B c) (defs₀ (F := F)) Variants.none none Set.univ := fun t => by
  rw [bigSep_W2, bigSep_W2]
  exact sound_body2 Y DD o0 B c t

end Region2

end Cert.Proof.Kernel

end
-- ==== Proof.Kernel.Regions.Values.lean ====
/-
  What the two regions leave in their result arrays. The first kernel's output blocks tile its array: grid point `t`
  writes columns `[8192 t, 8192 t + 8192)`, and what it writes is the body's payload of block `t` of the transposed
  features, of the weights and of the bias word; so the array ends at that function of the three, index by index. The
  second kernel's one block is its whole array.
-/
import proofs.«203773_g32736240730729_cont_9to1_2154_21_alg».proof.Proof.Kernel.Common
import proofs.«203773_g32736240730729_cont_9to1_2154_21_alg».proof.Proof.Kernel.Regions.Data
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Proof.Kernel

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

theorem zeroOffs1 : (![0] : Fin 1 → Nat) = fun _ => 0 := funext fun a => by fin_cases a; rfl
theorem zeroOffs2 : (![0, 0] : Fin 2 → Nat) = fun _ => 0 := funext fun a => by fin_cases a <;> rfl

/-- The one-word shape has one index. -/
theorem idxS1_eq (a b : S1.Idx) : a = b := funext fun i => by
  match i with
  | ⟨0, h⟩ =>
    have ha : (a ⟨0, h⟩).val < 1 := (a ⟨0, h⟩).isLt
    have hb : (b ⟨0, h⟩).val < 1 := (b ⟨0, h⟩).isLt
    exact Fin.ext (by omega)

/-! # Region 1 -/

section Region1

variable (XT : Vec F S64x16384 .f32) (β : Vec F S64 .f32) (μ : Vec F S1 .f32) (y0 : Vec F S16384 .f32)
  (B : Set (SemLoc sig × HIx 1))

/-- The printed index maps, decided over the grid: the features' block moves along the columns with the point, the
    weights' and the bias's stay, the output's block is the point's. -/
theorem idx_facts1 : ∀ t : Fin cfg1.N, win1_0.index t (0 : Fin 2) = 0 ∧ win1_0.index t (1 : Fin 2) = t.val
    ∧ win1_1.index t (0 : Fin 1) = 0 ∧ win1_2.index t (0 : Fin 1) = 0 ∧ win1_3.index t (0 : Fin 1) = t.val ∧ t.val < 2 :=
  (by decide +kernel : ∀ t : Fin grid1.N, _)

/-- The specification at an index of block `b`: the payload of that block, at the index's place in it. -/
theorem ySpec_at (b : Fin 2) (j : S8192.Idx) (i : S16384.Idx) (hi : (i 0).val = 8192 * b.val + (j 0).val) :
    ySpec XT β μ i = k1_pay1 (xtBlock XT b) β (μ (ValueIdx.ix1 0)) j := by
  have hj : (j 0).val < 8192 := (j 0).isLt
  have hb : b.val < 2 := b.isLt
  have key : ∀ (b' : Fin 2) (j' : S8192.Idx), b' = b → j' = j →
      k1_pay1 (xtBlock XT b') β (μ (ValueIdx.ix1 0)) j' = k1_pay1 (xtBlock XT b) β (μ (ValueIdx.ix1 0)) j := by
    rintro _ _ rfl rfl; rfl
  unfold ySpec
  refine key _ _ (Fin.ext ?_) (funext fun a => Fin.ext ?_)
  · show (i 0).val / 8192 = b.val; omega
  · match a with
    | ⟨0, _⟩ => show (i 0).val % 8192 = (j 0).val; omega

/-- The features' block at point `t` is block `t` of the transposed features. -/
theorem iblk1_0 (c : Dev nD) (t : Fin cfg1.N) (ht : t.val < 2) : iblk1 XT β μ y0 c 0 t = xtBlock XT ⟨t.val, ht⟩ := by
  obtain ⟨e0, e1, -⟩ := idx_facts1 t
  funext y
  show XT (((cfg1.win 0).blk t).view.emb y) = XT (ValueIdx.ix2 (y 0) ⟨8192 * t.val + (y 1).val, _⟩)
  refine congrArg XT (funext fun a => Fin.ext ?_)
  match a with
  | ⟨0, _⟩ => show win1_0.index t (0 : Fin 2) * 64 + 1 * (y 0).val = (y 0).val; omega
  | ⟨1, _⟩ => show win1_0.index t (1 : Fin 2) * 8192 + 1 * (y 1).val = 8192 * t.val + (y 1).val; omega

/-- The weights' block is the weights. -/
theorem iblk1_1 (c : Dev nD) (t : Fin cfg1.N) : iblk1 XT β μ y0 c 1 t = β := by
  obtain ⟨-, -, e2, -⟩ := idx_facts1 t
  funext y
  show β (((cfg1.win 1).blk t).view.emb y) = β y
  refine congrArg β (funext fun a => Fin.ext ?_)
  match a with
  | ⟨0, _⟩ => show win1_1.index t (0 : Fin 1) * 64 + 1 * (y 0).val = (y 0).val; omega

/-- The word the body reads of the bias's block is the bias's word. -/
theorem word1_iblk (c : Dev nD) (t : Fin cfg1.N) : word1 (iblk1 XT β μ y0 c 2 t) = μ (ValueIdx.ix1 0) := by
  show μ _ = μ _
  exact congrArg μ (idxS1_eq _ _)

/-- WHAT POINT `t` WRITES BACK is block `t` of the specification. -/
theorem flushed1_eq (c : Dev nD) (t : Fin cfg1.N) :
    (dat1 XT β μ y0 B c).flushed 3 t = ((cfg1.win 3).blk t).view.read (Elt F) (ySpec XT β μ) := by
  show (cfg1.win 3).cut (grid1.coords t) ((dat1 XT β μ y0 B c).after 3 t) = _
  rw [after1_3]
  unfold out1
  rw [View.canon_unit_zero zeroOffs1]
  simp only [View.ld_unit_zero (S := S64x8192) zeroOffs2, View.ld_unit_zero (S := S64) zeroOffs1]
  obtain ⟨e0, e1, e2, e3, e4, ht⟩ := idx_facts1 t
  rw [iblk1_0 XT β μ y0 c t ht, iblk1_1, word1_iblk]
  funext j
  show k1_pay1 (xtBlock XT ⟨t.val, ht⟩) β (μ (ValueIdx.ix1 0)) j = ySpec XT β μ (((cfg1.win 3).blk t).view.emb j)
  refine (ySpec_at XT β μ ⟨t.val, ht⟩ j _ ?_).symm
  show win1_3.index t (0 : Fin 1) * 8192 + 1 * (j 0).val = 8192 * t.val + (j 0).val
  omega

/-- An index of the array is in point `t`'s block iff its coordinate is in the block's range. -/
theorem mem_yblock (t : Fin cfg1.N) (i : S16384.Idx) :
    i ∈ ((cfg1.win 3).blk t).view.set ↔ ∀ a : Fin 1, win1_3.index t a * S8192.size a ≤ (i a).val ∧ (i a).val < win1_3.index t a * S8192.size a + S8192.size a := by
  show i ∈ ((View.whole main_v2).slice (win1_3.rect t)).set ↔ _
  rw [View.set_slice_whole, Rect.mem_set_unit]
  exact Iff.rfl

/-- Every index of the array is in some point's block: the one whose number is the index over the block's length. -/
theorem arrCover1 (i : S16384.Idx) : ∃ t : Fin cfg1.N, (cfg1.win 3).flush t = true ∧ i ∈ ((cfg1.win 3).blk t).view.set := by
  have hi : (i 0).val < 16384 := (i 0).isLt
  let t : Fin cfg1.N := ⟨(i 0).val / 8192, by rw [show cfg1.N = 2 from N_1]; omega⟩
  obtain ⟨-, -, -, -, e4, -⟩ := idx_facts1 t
  refine ⟨t, flush1_3 t, ?_⟩
  rw [mem_yblock]
  intro a
  match a with
  | ⟨0, _⟩ =>
    show win1_3.index t (0 : Fin 1) * 8192 ≤ (i 0).val ∧ (i 0).val < win1_3.index t (0 : Fin 1) * 8192 + 8192
    have : win1_3.index t (0 : Fin 1) = (i 0).val / 8192 := e4
    omega

/-- THE RESULT ARRAY after the region: the specification. -/
theorem final1 (c : Dev nD) : (dat1 XT β μ y0 B c).arrAt 3 cfg1.N = ySpec XT β μ :=
  (dat1 XT β μ y0 B c).arrAt_eq_of_cover 3 (ySpec XT β μ) (fun t _ => flushed1_eq XT β μ y0 B c t) arrCover1

/-- The input arrays are as the region found them. -/
theorem final1_0 (c : Dev nD) : (dat1 XT β μ y0 B c).arrAt 0 cfg1.N = XT := (dat1 XT β μ y0 B c).arrAt_in 0 rfl _
theorem final1_1 (c : Dev nD) : (dat1 XT β μ y0 B c).arrAt 1 cfg1.N = β := (dat1 XT β μ y0 B c).arrAt_in 1 rfl _
theorem final1_2 (c : Dev nD) : (dat1 XT β μ y0 B c).arrAt 2 cfg1.N = μ := (dat1 XT β μ y0 B c).arrAt_in 2 rfl _

end Region1

/-! # Region 2 -/

section Region2

variable (Y DD o0 : Vec F S16384 .f32) (B : Set (SemLoc sig × HIx 1))

theorem idx_facts2 : ∀ t : Fin cfg2.N, win2_0.index t (0 : Fin 1) = 0 ∧ win2_1.index t (0 : Fin 1) = 0 ∧ win2_2.index t (0 : Fin 1) = 0 :=
  (by decide +kernel : ∀ t : Fin grid2.N, _)

/-- Each input's one block is its array. -/
theorem iblk2_0 (c : Dev nD) (t : Fin cfg2.N) : iblk2 Y DD o0 c 0 t = Y := by
  obtain ⟨e0, -, -⟩ := idx_facts2 t
  funext y
  show Y (((cfg2.win 0).blk t).view.emb y) = Y y
  refine congrArg Y (funext fun a => Fin.ext ?_)
  match a with
  | ⟨0, _⟩ => show win2_0.index t (0 : Fin 1) * 16384 + 1 * (y 0).val = (y 0).val; omega
theorem iblk2_1 (c : Dev nD) (t : Fin cfg2.N) : iblk2 Y DD o0 c 1 t = DD := by
  obtain ⟨-, e1, -⟩ := idx_facts2 t
  funext y
  show DD (((cfg2.win 1).blk t).view.emb y) = DD y
  refine congrArg DD (funext fun a => Fin.ext ?_)
  match a with
  | ⟨0, _⟩ => show win2_1.index t (0 : Fin 1) * 16384 + 1 * (y 0).val = (y 0).val; omega

/-- WHAT THE POINT WRITES BACK is the one block of the specification. -/
theorem flushed2_eq (c : Dev nD) (t : Fin cfg2.N) :
    (dat2 Y DD o0 B c).flushed 2 t = ((cfg2.win 2).blk t).view.read (Elt F) (outSpec Y DD) := by
  show (cfg2.win 2).cut (grid2.coords t) ((dat2 Y DD o0 B c).after 2 t) = _
  rw [after2_2]
  unfold out2
  rw [View.canon_unit_zero zeroOffs1]
  simp only [View.ld_unit_zero (S := S16384) zeroOffs1]
  obtain ⟨e0, e1, e2⟩ := idx_facts2 t
  rw [iblk2_0, iblk2_1]
  funext j
  show k2_pay1 Y DD j = outSpec Y DD (((cfg2.win 2).blk t).view.emb j)
  unfold outSpec
  refine congrArg (k2_pay1 Y DD) (funext fun a => Fin.ext ?_)
  match a with
  | ⟨0, _⟩ => show (j 0).val = win2_2.index t (0 : Fin 1) * 16384 + 1 * (j 0).val; omega

theorem mem_oblock (t : Fin cfg2.N) (i : S16384.Idx) :
    i ∈ ((cfg2.win 2).blk t).view.set ↔ ∀ a : Fin 1, win2_2.index t a * S16384.size a ≤ (i a).val ∧ (i a).val < win2_2.index t a * S16384.size a + S16384.size a := by
  show i ∈ ((View.whole main_v3).slice (win2_2.rect t)).set ↔ _
  rw [View.set_slice_whole, Rect.mem_set_unit]
  exact Iff.rfl

theorem arrCover2 (i : S16384.Idx) : ∃ t : Fin cfg2.N, (cfg2.win 2).flush t = true ∧ i ∈ ((cfg2.win 2).blk t).view.set := by
  have hi : (i 0).val < 16384 := (i 0).isLt
  obtain ⟨-, -, e2⟩ := idx_facts2 t2_0
  refine ⟨t2_0, flush2_2 t2_0, ?_⟩
  rw [mem_oblock]
  intro a
  match a with
  | ⟨0, _⟩ =>
    show win2_2.index t2_0 (0 : Fin 1) * 16384 ≤ (i 0).val ∧ (i 0).val < win2_2.index t2_0 (0 : Fin 1) * 16384 + 16384
    omega

/-- THE RESULT ARRAY after the region: the specification. -/
theorem final2 (c : Dev nD) : (dat2 Y DD o0 B c).arrAt 2 cfg2.N = outSpec Y DD :=
  (dat2 Y DD o0 B c).arrAt_eq_of_cover 2 (outSpec Y DD) (fun t _ => flushed2_eq Y DD o0 B c t) arrCover2

theorem final2_0 (c : Dev nD) : (dat2 Y DD o0 B c).arrAt 0 cfg2.N = Y := (dat2 Y DD o0 B c).arrAt_in 0 rfl _
theorem final2_1 (c : Dev nD) : (dat2 Y DD o0 B c).arrAt 1 cfg2.N = DD := (dat2 Y DD o0 B c).arrAt_in 1 rfl _

end Region2

end Cert.Proof.Kernel

end
-- ==== Proof.Kernel.Regions.lean ====
/-
  The two TensorCore regions run one after the other. From the region boundary, the transposed features, the weights,
  the bias and the SparseCore call's result each held whole, the two result arrays held at anything, and the core owing
  nothing, the two custom calls run to the boundary with the four inputs as they were, the first result array at the
  matrix-vector specification and the second at the combining specification of it and the SparseCore call's result; the
  core still owes nothing, and its waits recorded only pairs of the pipelines' own index besides those recorded before.
-/
import proofs.«203773_g32736240730729_cont_9to1_2154_21_alg».proof.Proof.Kernel.Common
import proofs.«203773_g32736240730729_cont_9to1_2154_21_alg».proof.Proof.Kernel.Regions.Values
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Proof.Kernel

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The two custom calls, in order. -/
def regionsProg : Prog (TpuEff nD τ sig (Elt F) (ΛP (F := F)) .tc) PUnit :=
  .op (.customCall (Pipeline.entry 0) ()) fun _ => .op (.customCall (Pipeline.entry 1) ()) fun _ => .ret ⟨⟩

/-! ## The pipelines' staging cells' ghost state at launch -/

/-- The launch element of the staging cells' rounds: every cell at its first round, every duty token dealt. -/
def ghost₀ : UP := initOf (Pipeline.cells cfgs cellOf_inj) (Pipeline.launchToks cfgs cellOf_inj)

/-- Owning it deals, core by core, both pipelines' cells' ghost state and duty tokens. -/
theorem fund_regions : (BI.own (EP ghost₀) : sProp 𝕄)
    ⊢ iprop(|==> bigSep Finset.univ fun d : Dev nD => Pipeline.ghostOn (pcfgs (F := F)) adm EP Finset.univ d) := by
  refine (Pipeline.fund_ghost (Ix := HIx 1) (Val := Elt F) (Name := ℕ) (U := UU) (Lvl := ℕ) cfgs EP cellOf_inj).trans (bupd_mono ?_)
  rw [← bigSep_sep']
  exact bigSep_mono fun c _ =>
    show iprop((bigSep Finset.univ fun p => Pipeline.cellsGhost cfgs EP p c)
        ∗ bigSep Finset.univ fun p => (Pipeline.toksInit cfgs EP p c : sProp 𝕄))
      ⊢ Pipeline.ghostOn (pcfgs (F := F)) adm EP Finset.univ c
    from Entails.of_eq (by rw [← bigSep_sep']; rfl)

/-! ## The proof data family and the thread states -/

section Segs

variable (XT : Vec F S64x16384 .f32) (β : Vec F S64 .f32) (μ : Vec F S1 .f32) (DD y0 o0 : Vec F S16384 .f32)
  (W : Waits sig (HIx 1))

/-- Both pipelines' proof data, each at its region's entry contents: the second region finds the first result array
    at the first region's specification. -/
def pdats : (p : Fin 2) → (c : Dev nD) → Dat τ (Elt F) (HIx 1) ℕ UU ℕ (Pipeline.pin (pcfgs (F := F)) adm p) c
  | ⟨0, _⟩ => fun c => dat1 XT β μ y0 (recB W) c
  | ⟨1, _⟩ => fun c => dat2 (ySpec XT β μ) DD o0 (recB W) c

/-- The core owing nothing, its recorded pairs those recorded before the regions and pairs at the pipelines' index. -/
abbrev owesR (c : Dev nD) : sProp 𝕄 := Pipeline.owesWithin c (0 : CellTallies nD τ sig (HIx 1)) (recB W)

/-- The thread state: the six arrays at contents `Yc` (first result) and `Oc` (second result), the core owing nothing. -/
abbrev regState (Yc Oc : Vec F S16384 .f32) (c : Dev nD) : sProp 𝕄 :=
  iprop((xtLoc c ↦{fullShare} XT) ∗ (betaLoc c ↦{fullShare} β) ∗ (muLoc c ↦{fullShare} μ) ∗ (yLoc c ↦{fullShare} Yc)
    ∗ (dLoc c ↦{fullShare} DD) ∗ (outLoc c ↦{fullShare} Oc) ∗ owesR W c)

/-- The pipelines' own waits record pairs at the index `none`, so a bound that admits every such pair absorbs them. -/
theorem bound_sub {cfg : Pipeline.Cfg sig Λ₀} {c : Dev nD} (dat : Dat τ (Elt F) (HIx 1) ℕ UU ℕ cfg c)
    (hrec : ∀ t, dat.recorded t = recB W) (t : Fin (cfg.N + 1)) : dat.bound none t ⊆ recB W := by
  intro p hp
  rcases hp with hp | ⟨w, s, rfl⟩
  · rw [hrec] at hp; exact hp
  · exact Or.inr rfl

/-! ## The regions as segments -/

set_option backward.isDefEq.respectTransparency.types false in
/-- REGION 1 (the matrix-vector kernel): entered with the first result array at anything, left with it at the
    specification. Its four arrays go into the pipeline; the SparseCore call's result and the second result array
    bypass it; the invariant is the scoped buffers no window stages; nothing owed; no semaphore of the kernel's own. -/
def reg1 : Pipeline.RegionSeg (pcfgs (F := F)) adm (pdats XT β μ DD y0 o0 W) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 XT β μ y0 (recB W) c).loose
  hwaits := Pipeline.hwaits_of_owed_zero _ _ _ _ (K (F := F)).L (K (F := F)).lev 0 fun _ _ => rfl
  pre c := regState XT β μ DD W y0 o0 c
  post c := regState XT β μ DD W (ySpec XT β μ) o0 c
  X _ := iprop(emp)
  Y _ := iprop(emp)
  Z c := iprop((dLoc c ↦{fullShare} DD) ∗ (outLoc c ↦{fullShare} o0))
  hentry c := by
    rw [Pipeline.ownSems0_none,
      Pipeline.arrays_eq (Pipeline.pin (pcfgs (F := F)) adm) (pdats XT β μ DD y0 o0 W) 0 c launch1.arr_whole
        ((pdats XT β μ DD y0 o0 W 0 c).share_full fun _ => rfl), bigSep_W1]
    iintro ⟨⟨Hxt, Hβ, Hμ, Hy, Hd, Hout, HO⟩, -, -⟩
    imodintro
    isplitl [Hxt Hβ Hμ Hy]
    · isplitl [Hxt]; · iexact Hxt
      isplitl [Hβ]; · iexact Hβ
      isplitl [Hμ]; · iexact Hμ
      iexact Hy
    isplitr; · unfold Pipeline.prefHeld; rw [show (Finset.univ : Finset (Fin 0)) = ∅ from rfl, BI.bigSep_empty]; iempintro
    isplitl [HO]
    · iapply (Pipeline.owesWithin_mono c _ (fun p hp => Or.inl hp)); iexact HO
    isplitr; · iempintro
    isplitl [Hd]; · iexact Hd
    iexact Hout
  hin c := by
    rw [show (pdats XT β μ DD y0 o0 W 0 c).Φ 0 = Pipeline.scopedRest spec1 c from rfl]
    iintro ⟨-, -, Hr⟩
    iexact Hr
  hout c := by
    rw [Pipeline.ownSems0_none, show (pdats XT β μ DD y0 o0 W 0 c).Φ (Fin.last _) = Pipeline.scopedRest spec1 c from rfl]
    iintro Hr
    isplitr; · iempintro
    isplitr; · iempintro
    iexact Hr
  hexit c := by
    rw [Pipeline.arrays_eq (Pipeline.pin (pcfgs (F := F)) adm) (pdats XT β μ DD y0 o0 W) 0 c launch1.arr_whole
        ((pdats XT β μ DD y0 o0 W 0 c).share_full fun _ => rfl), bigSep_W1]
    have h0 : (pdats XT β μ DD y0 o0 W 0 c).arrAt 0 cfg1.N = XT := final1_0 XT β μ y0 (recB W) c
    have h1 : (pdats XT β μ DD y0 o0 W 0 c).arrAt 1 cfg1.N = β := final1_1 XT β μ y0 (recB W) c
    have h2 : (pdats XT β μ DD y0 o0 W 0 c).arrAt 2 cfg1.N = μ := final1_2 XT β μ y0 (recB W) c
    have h3 : (pdats XT β μ DD y0 o0 W 0 c).arrAt 3 cfg1.N = ySpec XT β μ := final1 XT β μ y0 (recB W) c
    iintro ⟨⟨Hxt, Hβ, Hμ, Hy⟩, HO, -, Hd, Hout⟩
    imodintro
    isplitl [Hxt]; · rw [← h0]; iexact Hxt
    isplitl [Hβ]; · rw [← h1]; iexact Hβ
    isplitl [Hμ]; · rw [← h2]; iexact Hμ
    isplitl [Hy]; · rw [← h3]; iexact Hy
    isplitl [Hd]; · iexact Hd
    isplitl [Hout]; · iexact Hout
    iapply (Pipeline.owesWithin_mono c _ (bound_sub W (pdats XT β μ DD y0 o0 W 0 c) (fun _ => rfl) (Fin.last _))); iexact HO

set_option backward.isDefEq.respectTransparency.types false in
/-- REGION 2 (the combining kernel): entered with the first result array at its specification and the second at
    anything, left with the second at its specification. The features, the weights and the bias bypass it. -/
def reg2 : Pipeline.RegionSeg (pcfgs (F := F)) adm (pdats XT β μ DD y0 o0 W) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (ySpec XT β μ) DD o0 (recB W) c).loose
  hwaits := Pipeline.hwaits_of_owed_zero _ _ _ _ (K (F := F)).L (K (F := F)).lev 1 fun _ _ => rfl
  pre c := regState XT β μ DD W (ySpec XT β μ) o0 c
  post c := regState XT β μ DD W (ySpec XT β μ) (outSpec (ySpec XT β μ) DD) c
  X _ := iprop(emp)
  Y _ := iprop(emp)
  Z c := iprop((xtLoc c ↦{fullShare} XT) ∗ (betaLoc c ↦{fullShare} β) ∗ (muLoc c ↦{fullShare} μ))
  hentry c := by
    rw [Pipeline.ownSems0_none,
      Pipeline.arrays_eq (Pipeline.pin (pcfgs (F := F)) adm) (pdats XT β μ DD y0 o0 W) 1 c launch2.arr_whole
        ((pdats XT β μ DD y0 o0 W 1 c).share_full fun _ => rfl), bigSep_W2]
    iintro ⟨⟨Hxt, Hβ, Hμ, Hy, Hd, Hout, HO⟩, -, -⟩
    imodintro
    isplitl [Hy Hd Hout]
    · isplitl [Hy]; · iexact Hy
      isplitl [Hd]; · iexact Hd
      iexact Hout
    isplitr; · unfold Pipeline.prefHeld; rw [show (Finset.univ : Finset (Fin 0)) = ∅ from rfl, BI.bigSep_empty]; iempintro
    isplitl [HO]
    · iapply (Pipeline.owesWithin_mono c _ (fun p hp => Or.inl hp)); iexact HO
    isplitr; · iempintro
    isplitl [Hxt]; · iexact Hxt
    isplitl [Hβ]; · iexact Hβ
    iexact Hμ
  hin c := by
    rw [show (pdats XT β μ DD y0 o0 W 1 c).Φ 0 = Pipeline.scopedRest spec2 c from rfl]
    iintro ⟨-, -, Hr⟩
    iexact Hr
  hout c := by
    rw [Pipeline.ownSems0_none, show (pdats XT β μ DD y0 o0 W 1 c).Φ (Fin.last _) = Pipeline.scopedRest spec2 c from rfl]
    iintro Hr
    isplitr; · iempintro
    isplitr; · iempintro
    iexact Hr
  hexit c := by
    rw [Pipeline.arrays_eq (Pipeline.pin (pcfgs (F := F)) adm) (pdats XT β μ DD y0 o0 W) 1 c launch2.arr_whole
        ((pdats XT β μ DD y0 o0 W 1 c).share_full fun _ => rfl), bigSep_W2]
    have h0 : (pdats XT β μ DD y0 o0 W 1 c).arrAt 0 cfg2.N = ySpec XT β μ := final2_0 (ySpec XT β μ) DD o0 (recB W) c
    have h1 : (pdats XT β μ DD y0 o0 W 1 c).arrAt 1 cfg2.N = DD := final2_1 (ySpec XT β μ) DD o0 (recB W) c
    have h2 : (pdats XT β μ DD y0 o0 W 1 c).arrAt 2 cfg2.N = outSpec (ySpec XT β μ) DD := final2 (ySpec XT β μ) DD o0 (recB W) c
    iintro ⟨⟨Hy, Hd, Hout⟩, HO, -, Hxt, Hβ, Hμ⟩
    imodintro
    isplitl [Hxt]; · iexact Hxt
    isplitl [Hβ]; · iexact Hβ
    isplitl [Hμ]; · iexact Hμ
    isplitl [Hy]; · rw [← h0]; iexact Hy
    isplitl [Hd]; · rw [← h1]; iexact Hd
    isplitl [Hout]; · rw [← h2]; iexact Hout
    iapply (Pipeline.owesWithin_mono c _ (bound_sub W (pdats XT β μ DD y0 o0 W 1 c) (fun _ => rfl) (Fin.last _))); iexact HO

end Segs

/-! ## The step that runs both -/

set_option backward.isDefEq.respectTransparency.types false in
/-- Both regions in order, on core `d`. -/
theorem wp_regions (d : Dev nD) (XT : Buf (Elt F) (xtLoc d)) (β : Buf (Elt F) (betaLoc d)) (μ : Buf (Elt F) (muLoc d))
    (dd : Buf (Elt F) (dLoc d)) (W : Waits sig (HIx 1)) (Φ : PUnit → sProp 𝕄) :
    iprop(levAts (K (F := F)).L (K (F := F)).lev ∗ boundary (T d) ∗ Pipeline.ghostOn (pcfgs (F := F)) adm EP Finset.univ d ∗ owes (T d) 0 W
        ∗ (xtLoc d ↦{fullShare} XT) ∗ (betaLoc d ↦{fullShare} β) ∗ (muLoc d ↦{fullShare} μ) ∗ (dLoc d ↦{fullShare} dd)
        ∗ (∃ f, yLoc d ↦{fullShare} f) ∗ (∃ f, outLoc d ↦{fullShare} f)
        ∗ (iprop(boundary (T d) ∗ (xtLoc d ↦{fullShare} XT) ∗ (betaLoc d ↦{fullShare} β) ∗ (muLoc d ↦{fullShare} μ) ∗ (dLoc d ↦{fullShare} dd)
              ∗ (yLoc d ↦{fullShare} ySpec XT β μ) ∗ (outLoc d ↦{fullShare} outSpec (ySpec XT β μ) dd)
              ∗ ∃ W', ⌜∀ p ∈ W', p ∈ W ∨ p.2 = none⌝ ∗ owes (T d) 0 W') -∗ Φ ⟨⟩))
      ⊢ wp frame (wpE (D (F := F)) 𝒱 (T d) none) Set.univ regionsProg Φ := by
  iintro ⟨Hlev, Hb, Hg, Ho, Hxt, Hβ, Hμ, Hd, ⟨%y0, Hy⟩, ⟨%o0, Hout⟩, Hk⟩
  have hrun := Pipeline.wp_segs (pcfgs (F := F)) adm (pdats XT β μ dd y0 o0 W) none cellOf_inj EP defs₀ 𝒱₀ (K (F := F)).L (K (F := F)).lev d (Q := Φ)
    [.region (reg1 XT β μ dd y0 o0 W), .region (reg2 XT β μ dd y0 o0 W)] Finset.univ
    (regState XT β μ dd W y0 o0) (regState XT β μ dd W (ySpec XT β μ) (outSpec (ySpec XT β μ) dd))
    (by simp only [Pipeline.Seg.pipes_region, Pipeline.Seg.pipes_nil]; decide) (fun p _ => Finset.mem_univ p)
    ⟨fun _ => .rfl, fun _ => .rfl, fun _ => .rfl⟩
  iapply hrun
  isplitl [Hk]
  · iintro ⟨Hb, Hxt, Hβ, Hμ, Hy, Hd, Hout, ⟨%W', %hW', HO⟩⟩
    iapply Hk
    isplitl [Hb]; · iexact Hb
    isplitl [Hxt]; · iexact Hxt
    isplitl [Hβ]; · iexact Hβ
    isplitl [Hμ]; · iexact Hμ
    isplitl [Hd]; · iexact Hd
    isplitl [Hy]; · iexact Hy
    isplitl [Hout]; · iexact Hout
    iexists W'; isplitr; · ipureintro; exact fun p hp => hW' (Finset.mem_coe.mpr hp)
    iexact HO
  isplitl [Hb]; · iexact Hb
  isplitr [Hlev Hg]
  · isplitl [Hxt]; · iexact Hxt
    isplitl [Hβ]; · iexact Hβ
    isplitl [Hμ]; · iexact Hμ
    isplitl [Hy]; · iexact Hy
    isplitl [Hd]; · iexact Hd
    isplitl [Hout]; · iexact Hout
    iexists W; isplitr; · ipureintro; exact fun p hp => Or.inl (Finset.mem_coe.mp hp)
    iexact Ho
  isplitl [Hlev]; · iexact Hlev
  iexact Hg

end Cert.Proof.Kernel

end
-- ==== Proof.Kernel.Run.lean ====
/-
  The kernel program's run: the launch theorem at this program, from the run of one tile's task, the deal of the arrays
  among the tiles, and the run of the two TensorCore regions. Every weakly fair execution of the device's thirty-five
  threads terminates, nothing faulting, with the result array at the program's term of the six argument arrays and those
  unchanged — under the one hypothesis that the index words name rows of the table.
-/
import proofs.«203773_g32736240730729_cont_9to1_2154_21_alg».proof.Proof.Kernel.Launch.Main
import proofs.«203773_g32736240730729_cont_9to1_2154_21_alg».proof.Proof.Kernel.Tile
import proofs.«203773_g32736240730729_cont_9to1_2154_21_alg».proof.Proof.Kernel.Split
import proofs.«203773_g32736240730729_cont_9to1_2154_21_alg».proof.Proof.Kernel.Regions

noncomputable section

namespace Cert.Proof.Kernel

open Cert.Kernel Cert.Kernel.Gen
open Idealize.ShloMosaic
open Idealize.SL Idealize.SL.BI Idealize.SL.Sem

variable {F : FTy → Type} [FloatOps F]
variable (m : (ℓ : Loc nD τ sig) → Buf (Elt F) ℓ) (ρ : Dev nD → PrngReg)

/-- Every home and away index word names a row of the table. -/
def IdxOK : Prop := ∀ (d : Dev nD) (j : S16384.Idx), ((m (homeLoc d) : Vec F S16384 .i32) j).toNat < 100000 ∧ ((m (awayLoc d) : Vec F S16384 .i32) j).toNat < 100000

def tileTask : TileTask (F := F) m where
  Hidx := IdxOK m
  goRes := goRes m
  tdRes := tdRes m
  go_storable := fun d L => goRes_storable m d L
  td_storable := fun d L => tdRes_storable m d L
  body := fun hF hidx d L O W hO => tile_body m d L hF hidx O W hO
  Rem := tabRem m
  deal := deal m
  join := join m

def regionsRun : RegionsRun (F := F) where
  adm := adm
  run := fun d XT β μ dd W Φ => wp_regions d XT β μ dd W Φ
  ghost₀ := ghost₀
  fund := fund_regions

theorem run [∀ e, Nonempty (Elt F e)] (hidx : IdxOK m) :
    θ_run (Cert.Kernel.defs (F := F)) (Cert.Kernel.threads (F := F)) ⟨m, fun _ => 0, ρ⟩ (QC m) :=
  run_main m ρ (tileTask m) regionsRun hidx

end Cert.Proof.Kernel

end
-- ==== Proof.lean ====
/-
  The claim. The kernel program gathers a table at two index arrays on the SparseCores' thirty-two tiles and subtracts,
  transposes the features on the host, forms on the TensorCore the features' product with the weights plus the offset,
  block by block, and adds the two; the reference takes the table at the two index arrays, subtracts, adds the offset and
  the product. Both frames of the kernel program (as printed, and idealized) are its run with the value dropped; the
  reference's frame likewise; no operation was rewritten by the ideal pass, so there is nothing to preserve; and at the
  ideal instance the two result terms are one function: entry by entry each is the sum of the same three extended reals
  — the offset, the difference of the two table entries, the features' product with the weights — in two orders, equal by
  commutativity and associativity of addition alone. The precondition enters only through the range of the index words:
  a word in range names the table row the gather reads, and the reference's fill for an index out of range never applies.
-/
import proofs.«203773_g32736240730729_cont_9to1_2154_21_alg».proof.Defs
import proofs.«203773_g32736240730729_cont_9to1_2154_21_alg».proof.Proof.Gen.Kernel
import proofs.«203773_g32736240730729_cont_9to1_2154_21_alg».proof.Proof.Gen.KernelIdeal
import proofs.«203773_g32736240730729_cont_9to1_2154_21_alg».proof.Proof.Gen.ReferenceIdeal
import proofs.«203773_g32736240730729_cont_9to1_2154_21_alg».proof.Proof.Gen.Pre_input_domain
import proofs.«203773_g32736240730729_cont_9to1_2154_21_alg».proof.Proof.PreFacts
import proofs.«203773_g32736240730729_cont_9to1_2154_21_alg».proof.Proof.RefRun
import proofs.«203773_g32736240730729_cont_9to1_2154_21_alg».proof.Proof.RefValue
import proofs.«203773_g32736240730729_cont_9to1_2154_21_alg».proof.Proof.KernelValue
import proofs.«203773_g32736240730729_cont_9to1_2154_21_alg».proof.Proof.Bridge
import proofs.«203773_g32736240730729_cont_9to1_2154_21_alg».proof.Proof.KernelIdeal.Run
import proofs.«203773_g32736240730729_cont_9to1_2154_21_alg».proof.Proof.Kernel.Run

noncomputable section

namespace Cert.Proof

open Idealize.ShloMosaic Idealize.SL.Sem

/-- The precondition puts every index word in range of the table (at either instance: the index arrays are words). -/
theorem idxOK_KernelIdeal [Cert.Pre_input_domain.Facts] (m : (ℓ : Loc Cert.KernelIdeal.nD Cert.KernelIdeal.τ Cert.KernelIdeal.sig) → Buf (Elt Ideal) ℓ)
    (h : Cert.Pre_KernelIdeal m) : Cert.Proof.KernelIdeal.IdxOK m := fun d j =>
  let r := Cert.Proof.PreFacts.idx_ok _ _ _ _ _ _ (h d) j
  ⟨r.1.1, r.2.1⟩

theorem idxOK_Kernel [Cert.Pre_input_domain.Facts] (m : (ℓ : Loc Cert.Kernel.nD Cert.Kernel.τ Cert.Kernel.sig) → Buf (Elt Bits) ℓ)
    (h : Cert.Pre_Kernel m) : Cert.Proof.Kernel.IdxOK m := fun d j =>
  let r := Cert.Proof.PreFacts.idx_ok _ _ _ _ _ _ (h d) j
  ⟨r.1.1, r.2.1⟩

theorem frame_Kernel [Cert.Kernel.Facts] [Cert.Pre_input_domain.Facts] : Cert.frame_Kernel := fun m ρ hpre =>
  (θ_run Cert.Kernel.defs _ _).mono (fun _ h c => (h c).2) (Cert.Proof.Kernel.run (F := Bits) m ρ (idxOK_Kernel m hpre))

theorem frame_KernelIdeal [Cert.KernelIdeal.Facts] [Cert.Pre_input_domain.Facts] : Cert.frame_KernelIdeal := fun m ρ hpre =>
  (θ_run Cert.KernelIdeal.defs _ _).mono (fun _ h c => (h c).2) (Cert.Proof.KernelIdeal.run (F := Ideal) m ρ (idxOK_KernelIdeal m hpre))

theorem frame_ReferenceIdeal [Cert.ReferenceIdeal.Facts] [Cert.Pre_input_domain.Facts] : Cert.frame_ReferenceIdeal := fun m ρ _ =>
  (θ_run Cert.ReferenceIdeal.defs _ _).mono (fun _ h c => (h c).2) (Cert.Proof.Ref.run (F := Ideal) m ρ)

theorem algebraic [Cert.KernelIdeal.Facts] [Cert.ReferenceIdeal.Facts] [Cert.Pre_input_domain.Facts] : Cert.algebraic_KernelIdeal_ReferenceIdeal := by
  intro m ρ m' ρ' hpre hagree
  refine ⟨fun c => Cert.Proof.KernelIdeal.kernelTerm (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    (θ_run Cert.KernelIdeal.defs _ _).mono (fun _ h c => h c) (Cert.Proof.KernelIdeal.run (F := Ideal) m ρ (idxOK_KernelIdeal m hpre)), ?_⟩
  refine (θ_run Cert.ReferenceIdeal.defs _ _).mono (fun _ h c => ⟨(h c).1.trans ?_, (h c).2⟩) (Cert.Proof.Ref.run (F := Ideal) m' ρ')
  rw [(hagree c).1, (hagree c).2.1, (hagree c).2.2.1, (hagree c).2.2.2.1, (hagree c).2.2.2.2.1, (hagree c).2.2.2.2.2]
  exact (Cert.Proof.Value.kernel_eq_ref _ _ _ _ _ _ (Cert.Proof.PreFacts.idx_ok _ _ _ _ _ _ (hpre c))).symm

theorem claim : Cert.Claim := ⟨Cert.Kernel.Gen.facts, Cert.KernelIdeal.Gen.facts, Cert.ReferenceIdeal.Gen.facts, Cert.Pre_input_domain.Gen.facts,
  frame_Kernel, frame_KernelIdeal, frame_ReferenceIdeal, trivial, algebraic⟩

end Cert.Proof

end
